-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x4096x1024 .f32) (main_arg1 : FVec F S1024x1024 .f32) (main_arg2 : FVec F S1024x1024 .f32) (main_arg3 : FVec F S1024x1024 .f32) (main_arg4 : FVec F S1024x1024 .f32) (main_arg5 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S4x16x64x64 : Shape := ⟨4, ![4, 16, 64, 64]⟩
abbrev S1x512x1024 : Shape := ⟨3, ![1, 512, 1024]⟩
abbrev S1x16x64x64 : Shape := ⟨4, ![1, 16, 64, 64]⟩
abbrev S16x64x64 : Shape := ⟨3, ![16, 64, 64]⟩
abbrev S512x1024 : Shape := ⟨2, ![512, 1024]⟩
abbrev S512x64 : Shape := ⟨2, ![512, 64]⟩
abbrev S64x64 : Shape := ⟨2, ![64, 64]⟩
abbrev S1x64x64 : Shape := ⟨3, ![1, 64, 64]⟩
abbrev S1x1024 : Shape := ⟨2, ![1, 1024]⟩

abbrev nBuf : Space → Nat
  | .hbm => 17
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S4x4096x1024, .bf16⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S4x16x64x64, .f32⟩
  | .hbm, ⟨16, _⟩ => ⟨S4x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x16x64x64, .f32⟩
  | .local _ .vmem, ⟨5, _⟩ => ⟨S1x16x64x64, .f32⟩
  | .local _ .vmem, ⟨6, _⟩ => ⟨S16x64x64, .f32⟩
  | .local _ .vmem, ⟨7, _⟩ => ⟨S1x512x1024, .bf16⟩
  | .local _ .vmem, ⟨8, _⟩ => ⟨S1x512x1024, .bf16⟩
  | .local _ .vmem, ⟨9, _⟩ => ⟨S1024x1024, .bf16⟩
  | .local _ .vmem, ⟨10, _⟩ => ⟨S1x16x64x64, .f32⟩
  | .local _ .vmem, ⟨11, _⟩ => ⟨S1x16x64x64, .f32⟩
  | .local _ .vmem, ⟨12, _⟩ => ⟨S1024x1024, .bf16⟩
  | .local _ .vmem, ⟨13, _⟩ => ⟨S1024, .f32⟩
  | .local _ .vmem, ⟨14, _⟩ => ⟨S1x512x1024, .f32⟩
  | .local _ .vmem, ⟨15, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v157 : BitVec 1 := Scalar.cmpi .eq arg1 c7_i32
  let v158 : BitVec 32 := Scalar.extui v157
  let c0_i32_105 : BitVec 32 := 0#32
  let v159 : BitVec 1 := Scalar.cmpi .ne v158 c0_i32_105
  v159

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x16x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bitsLt_bf16_f32 : FTy.bits .bf16 < FTy.bits .f32
  transposes_S1024x1024_S1024x1024_1_0 : S1024x1024.Transposes [1, 0] S1024x1024
  inb_S16x64x64_S16x64x64_0_0_0 : ∀ a, (![0, 0, 0] : Fin 3 → Nat) a + S16x64x64.size a ≤ S16x64x64.size a
  h_S16x64x64 : 0 < S16x64x64.numel
  shapeCasts_S16x64x64_S16x64x64 : S16x64x64.ShapeCasts S16x64x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S512x1024_o0_0_S512x64 : S512x1024.Slices ![0, 0] S512x64
  inb_S16x64x64_S1x64x64_0_0_0 : ∀ a, (![0, 0, 0] : Fin 3 → Nat) a + S1x64x64.size a ≤ S16x64x64.size a
  h_S1x64x64 : 0 < S1x64x64.numel
  shapeCasts_S1x64x64_S64x64 : S1x64x64.ShapeCasts S64x64
  shapeCasts_S64x64_S1x64x64 : S64x64.ShapeCasts S1x64x64
  slices_S512x1024_o0_64_S512x64 : S512x1024.Slices ![0, 64] S512x64
  inb_S16x64x64_S1x64x64_1_0_0 : ∀ a, (![1, 0, 0] : Fin 3 → Nat) a + S1x64x64.size a ≤ S16x64x64.size a
  slices_S512x1024_o0_128_S512x64 : S512x1024.Slices ![0, 128] S512x64
  inb_S16x64x64_S1x64x64_2_0_0 : ∀ a, (![2, 0, 0] : Fin 3 → Nat) a + S1x64x64.size a ≤ S16x64x64.size a
  slices_S512x1024_o0_192_S512x64 : S512x1024.Slices ![0, 192] S512x64
  inb_S16x64x64_S1x64x64_3_0_0 : ∀ a, (![3, 0, 0] : Fin 3 → Nat) a + S1x64x64.size a ≤ S16x64x64.size a
  slices_S512x1024_o0_256_S512x64 : S512x1024.Slices ![0, 256] S512x64
  inb_S16x64x64_S1x64x64_4_0_0 : ∀ a, (![4, 0, 0] : Fin 3 → Nat) a + S1x64x64.size a ≤ S16x64x64.size a
  slices_S512x1024_o0_320_S512x64 : S512x1024.Slices ![0, 320] S512x64
  inb_S16x64x64_S1x64x64_5_0_0 : ∀ a, (![5, 0, 0] : Fin 3 → Nat) a + S1x64x64.size a ≤ S16x64x64.size a
  slices_S512x1024_o0_384_S512x64 : S512x1024.Slices ![0, 384] S512x64
  inb_S16x64x64_S1x64x64_6_0_0 : ∀ a, (![6, 0, 0] : Fin 3 → Nat) a + S1x64x64.size a ≤ S16x64x64.size a
  slices_S512x1024_o0_448_S512x64 : S512x1024.Slices ![0, 448] S512x64
  inb_S16x64x64_S1x64x64_7_0_0 : ∀ a, (![7, 0, 0] : Fin 3 → Nat) a + S1x64x64.size a ≤ S16x64x64.size a
  slices_S512x1024_o0_512_S512x64 : S512x1024.Slices ![0, 512] S512x64
  inb_S16x64x64_S1x64x64_8_0_0 : ∀ a, (![8, 0, 0] : Fin 3 → Nat) a + S1x64x64.size a ≤ S16x64x64.size a
  slices_S512x1024_o0_576_S512x64 : S512x1024.Slices ![0, 576] S512x64
  inb_S16x64x64_S1x64x64_9_0_0 : ∀ a, (![9, 0, 0] : Fin 3 → Nat) a + S1x64x64.size a ≤ S16x64x64.size a
  slices_S512x1024_o0_640_S512x64 : S512x1024.Slices ![0, 640] S512x64
  inb_S16x64x64_S1x64x64_10_0_0 : ∀ a, (![10, 0, 0] : Fin 3 → Nat) a + S1x64x64.size a ≤ S16x64x64.size a
  slices_S512x1024_o0_704_S512x64 : S512x1024.Slices ![0, 704] S512x64
  inb_S16x64x64_S1x64x64_11_0_0 : ∀ a, (![11, 0, 0] : Fin 3 → Nat) a + S1x64x64.size a ≤ S16x64x64.size a
  slices_S512x1024_o0_768_S512x64 : S512x1024.Slices ![0, 768] S512x64
  inb_S16x64x64_S1x64x64_12_0_0 : ∀ a, (![12, 0, 0] : Fin 3 → Nat) a + S1x64x64.size a ≤ S16x64x64.size a
  slices_S512x1024_o0_832_S512x64 : S512x1024.Slices ![0, 832] S512x64
  inb_S16x64x64_S1x64x64_13_0_0 : ∀ a, (![13, 0, 0] : Fin 3 → Nat) a + S1x64x64.size a ≤ S16x64x64.size a
  slices_S512x1024_o0_896_S512x64 : S512x1024.Slices ![0, 896] S512x64
  inb_S16x64x64_S1x64x64_14_0_0 : ∀ a, (![14, 0, 0] : Fin 3 → Nat) a + S1x64x64.size a ≤ S16x64x64.size a
  slices_S512x1024_o0_960_S512x64 : S512x1024.Slices ![0, 960] S512x64
  inb_S16x64x64_S1x64x64_15_0_0 : ∀ a, (![15, 0, 0] : Fin 3 → Nat) a + S1x64x64.size a ≤ S16x64x64.size a
  inb_S1x16x64x64_S1x16x64x64_0_0_0_0 : ∀ a, (![0, 0, 0, 0] : Fin 4 → Nat) a + S1x16x64x64.size a ≤ S1x16x64x64.size a
  h_S1x16x64x64 : 0 < S1x16x64x64.numel
  shapeCasts_S1x16x64x64_S16x64x64 : S1x16x64x64.ShapeCasts S16x64x64
  shapeCasts_S16x64x64_S1x16x64x64 : S16x64x64.ShapeCasts S1x16x64x64
  slices_S16x64x64_o0_0_0_S1x64x64 : S16x64x64.Slices ![0, 0, 0] S1x64x64
  slices_S16x64x64_o1_0_0_S1x64x64 : S16x64x64.Slices ![1, 0, 0] S1x64x64
  slices_S16x64x64_o2_0_0_S1x64x64 : S16x64x64.Slices ![2, 0, 0] S1x64x64
  slices_S16x64x64_o3_0_0_S1x64x64 : S16x64x64.Slices ![3, 0, 0] S1x64x64
  slices_S16x64x64_o4_0_0_S1x64x64 : S16x64x64.Slices ![4, 0, 0] S1x64x64
  slices_S16x64x64_o5_0_0_S1x64x64 : S16x64x64.Slices ![5, 0, 0] S1x64x64
  slices_S16x64x64_o6_0_0_S1x64x64 : S16x64x64.Slices ![6, 0, 0] S1x64x64
  slices_S16x64x64_o7_0_0_S1x64x64 : S16x64x64.Slices ![7, 0, 0] S1x64x64
  slices_S16x64x64_o8_0_0_S1x64x64 : S16x64x64.Slices ![8, 0, 0] S1x64x64
  slices_S16x64x64_o9_0_0_S1x64x64 : S16x64x64.Slices ![9, 0, 0] S1x64x64
  slices_S16x64x64_o10_0_0_S1x64x64 : S16x64x64.Slices ![10, 0, 0] S1x64x64
  slices_S16x64x64_o11_0_0_S1x64x64 : S16x64x64.Slices ![11, 0, 0] S1x64x64
  slices_S16x64x64_o12_0_0_S1x64x64 : S16x64x64.Slices ![12, 0, 0] S1x64x64
  slices_S16x64x64_o13_0_0_S1x64x64 : S16x64x64.Slices ![13, 0, 0] S1x64x64
  slices_S16x64x64_o14_0_0_S1x64x64 : S16x64x64.Slices ![14, 0, 0] S1x64x64
  slices_S16x64x64_o15_0_0_S1x64x64 : S16x64x64.Slices ![15, 0, 0] S1x64x64
  concatenates_S512x64_S512x64_S512x64_S512x64_S512x64_S512x64_S512x64_S512x64_S512x64_S512x64_S512x64_S512x64_S512x64_S512x64_S512x64_S512x64_S512x1024_d1 : Shape.Concatenates [S512x64, S512x64, S512x64, S512x64, S512x64, S512x64, S512x64, S512x64, S512x64, S512x64, S512x64, S512x64, S512x64, S512x64, S512x64, S512x64] S512x1024 1
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x64_S512x64_S64x64_0_0_1_1_n_n_wf : DotDims.WF S512x64 S512x64 S64x64 [0] [0] [1] [1] [] []
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .bf16 = 32 ∨ (Rect.block (s := S4x4096x1024) S1x512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x64x64.size a ≤ S4x16x64x64.size a
  hwx0_3 : ∀ i : grid0.Coords, EltTy.bits .f32 = 32 ∨ (Rect.block (s := S4x16x64x64) S1x16x64x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .bf16 = 32 ∨ (Rect.block (s := S4x4096x1024) S1x512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x64x64.size a ≤ S4x16x64x64.size a
  hwx1_2 : ∀ i : grid1.Coords, EltTy.bits .f32 = 32 ∨ (Rect.block (s := S4x16x64x64) S1x16x64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x4096x1024.size a
  hwx1_5 : ∀ i : grid1.Coords, EltTy.bits .f32 = 32 ∨ (Rect.block (s := S4x4096x1024) S1x512x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S512x64_S64x64_0_0_1_1_n_n : DotDims S512x64 S512x64 S64x64 where
  lhsContracting := [0]
  rhsContracting := [0]
  lhsNonContracting := [1]
  rhsNonContracting := [1]
  lhsBatch := []
  rhsBatch := []
  wf := dot_S512x64_S512x64_S64x64_0_0_1_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x16x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x16x64x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S4x4096x16x64 : Shape := ⟨4, ![4, 4096, 16, 64]⟩
abbrev S4x16x4096x64 : Shape := ⟨4, ![4, 16, 4096, 64]⟩
abbrev S4x16x64x64 : Shape := ⟨4, ![4, 16, 64, 64]⟩
abbrev S_ : Shape := ⟨0, ![]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S4x4096x1024, .f32⟩
  | .hbm, ⟨7, _⟩ => ⟨S4x4096x16x64, .f32⟩
  | .hbm, ⟨8, _⟩ => ⟨S4x16x4096x64, .f32⟩
  | .hbm, ⟨9, _⟩ => ⟨S4x4096x1024, .f32⟩
  | .hbm, ⟨10, _⟩ => ⟨S4x4096x16x64, .f32⟩
  | .hbm, ⟨11, _⟩ => ⟨S4x16x4096x64, .f32⟩
  | .hbm, ⟨12, _⟩ => ⟨S4x4096x1024, .f32⟩
  | .hbm, ⟨13, _⟩ => ⟨S4x4096x16x64, .f32⟩
  | .hbm, ⟨14, _⟩ => ⟨S4x16x4096x64, .f32⟩
  | .hbm, ⟨15, _⟩ => ⟨S4x16x64x64, .f32⟩
  | .hbm, ⟨16, _⟩ => ⟨S_, .f32⟩
  | .hbm, ⟨17, _⟩ => ⟨S4x16x64x64, .f32⟩
  | .hbm, ⟨18, _⟩ => ⟨S4x16x64x64, .f32⟩
  | .hbm, ⟨19, _⟩ => ⟨S4x16x4096x64, .f32⟩
  | .hbm, ⟨20, _⟩ => ⟨S4x4096x16x64, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  shapeCasts_S4x4096x1024_S4x4096x16x64 : S4x4096x1024.ShapeCasts S4x4096x16x64
  transposes_S4x4096x16x64_S4x16x4096x64_0_2_1_3 : S4x4096x16x64.Transposes [0, 2, 1, 3] S4x16x4096x64
  bcast_S_S4x16x64x64 : S_.BroadcastsInDim S4x16x64x64 (![] : Fin 0 → Fin S4x16x64x64.rank)
  transposes_S4x16x4096x64_S4x4096x16x64_0_2_1_3 : S4x16x4096x64.Transposes [0, 2, 1, 3] S4x4096x16x64
  shapeCasts_S4x4096x16x64_S4x4096x1024 : S4x4096x16x64.ShapeCasts S4x4096x1024
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S1024x1024_S4x4096x1024_2_1_01_0_n_n_wf : DotDims.WF S4x4096x1024 S1024x1024 S4x4096x1024 [2] [1] [0, 1] [0] [] []
  dot_S4x16x4096x64_S4x16x4096x64_S4x16x64x64_2_2_3_3_01_01_wf : DotDims.WF S4x16x4096x64 S4x16x4096x64 S4x16x64x64 [2] [2] [3] [3] [0, 1] [0, 1]
  dot_S4x16x4096x64_S4x16x64x64_S4x16x4096x64_3_2_2_3_01_01_wf : DotDims.WF S4x16x4096x64 S4x16x64x64 S4x16x4096x64 [3] [2] [2] [3] [0, 1] [0, 1]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x16x4096x64_S4x16x4096x64_S4x16x64x64_2_2_3_3_01_01 : DotDims S4x16x4096x64 S4x16x4096x64 S4x16x64x64 where
  lhsContracting := [2]
  rhsContracting := [2]
  lhsNonContracting := [3]
  rhsNonContracting := [3]
  lhsBatch := [0, 1]
  rhsBatch := [0, 1]
  wf := dot_S4x16x4096x64_S4x16x4096x64_S4x16x64x64_2_2_3_3_01_01_wf
def dot_S4x16x4096x64_S4x16x64x64_S4x16x4096x64_3_2_2_3_01_01 : DotDims S4x16x4096x64 S4x16x64x64 S4x16x4096x64 where
  lhsContracting := [3]
  rhsContracting := [2]
  lhsNonContracting := [2]
  rhsNonContracting := [3]
  lhsBatch := [0, 1]
  rhsBatch := [0, 1]
  wf := dot_S4x16x4096x64_S4x16x64x64_S4x16x4096x64_3_2_2_3_01_01_wf

class Facts : Prop extends Facts₀ where

variable [Facts]
-- ==== Proof.BitsOutBody.lean ====
/- REGION 1 of @main (custom_call 1, the output-projection kernel, pipeline 1): its class-A half, at any float
   model `F` and at a PARAMETER `V`, the TensorCore's buffer contents when the region is entered.

   The kernel body at a grid point reads its five input windows' staging buffers whole (the activations' block, the
   transposed query weights, the per-batch key-value summary, the transposed output weights, the bias), computes, and
   writes its one output window's staging buffer whole, once. So what it leaves there is a closed function
   `out1_5` of the five input blocks: the single store's payload laid over the buffer. The input windows are fetched
   at different points (the activations at every point, the key-value summary when the batch index moves, the
   weights and the bias once), but an input buffer always holds its window's block at the point: a window that is not
   fetched has not moved. -/
import proofs.«175350_j39178691674142_1_alg».proof.Proof.Gen.Kernel.Launch
import proofs.«175350_j39178691674142_1_alg».proof.Proof.Gen.Kernel.Skeleton
import proofs.«175350_j39178691674142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): the window is fetched at every point, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): fetched at the first point only, its block index never moves afterwards, so the buffer keeps the block; uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): fetched when the batch index moves; between two such points the block index stands still, so the buffer keeps the block; uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): fetched at the first point only, its block index never moves afterwards, so the buffer keeps the block; uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof
    data whose array is `V`'s (`hA`) and whose body leaves the block in place (`hafter`): fetched at the first point only, its block index never moves afterwards, so the buffer keeps the block; uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a rank-3 block (the activations' block, the output's block), -/
abbrev r1_0 : Rect S1x512x1024 := Rect.unit (s := S1x512x1024) ![0, 0, 0] S1x512x1024.size inb_S1x512x1024_S1x512x1024_0_0_0
/-- of a weight matrix, -/
abbrev r1_1 : Rect S1024x1024 := Rect.unit (s := S1024x1024) ![0, 0] S1024x1024.size inb_S1024x1024_S1024x1024_0_0
/-- of the key-value summary's block, -/
abbrev r1_2 : Rect S1x16x64x64 := Rect.unit (s := S1x16x64x64) ![0, 0, 0, 0] S1x16x64x64.size inb_S1x16x64x64_S1x16x64x64_0_0_0_0
/-- and of the bias. -/
abbrev r1_3 : Rect S1024 := Rect.unit (s := S1024) ![0] S1024.size inb_S1024_S1024_0

/-! ## What the body leaves in the output window's buffer -/

/-- Window 5's staging buffer after the body, from the five input windows' blocks: its one store as a piece
    (`View.canon`). The payload is the skeleton's: the per-head attention rows (each head's query columns times that
    head's key-value summary, rounded, the sixteen heads side by side), times the transposed output weights, plus the
    bias along the rows. -/
def out1_5 (x0 : Vec F S1x512x1024 .bf16) (x1 : Vec F S1024x1024 .bf16) (x2 : Vec F S1x16x64x64 .f32) (x3 : Vec F S1024x1024 .bf16) (x4 : Vec F S1024 .f32) : Vec F S1x512x1024 .f32 :=
  View.canon [⟨r1_0, k1_pay1 (k1_pay12 (k1_pay2 (View.ld x0 r1_0) (View.ld x1 r1_1)) (k1_pay3 (View.ld x2 r1_2)) (k1_pay4 (View.ld x0 r1_0) (View.ld x1 r1_1) (View.ld x2 r1_2)) (k1_pay5 (View.ld x0 r1_0) (View.ld x1 r1_1) (View.ld x2 r1_2)) (k1_pay6 (View.ld x0 r1_0) (View.ld x1 r1_1) (View.ld x2 r1_2)) (k1_pay7 (View.ld x0 r1_0) (View.ld x1 r1_1) (View.ld x2 r1_2)) (k1_pay8 (View.ld x0 r1_0) (View.ld x1 r1_1) (View.ld x2 r1_2)) (k1_pay9 (View.ld x0 r1_0) (View.ld x1 r1_1) (View.ld x2 r1_2)) (k1_pay10 (View.ld x0 r1_0) (View.ld x1 r1_1)) (k1_pay11 (View.ld x2 r1_2))) (View.ld x3 r1_1) (View.ld x4 r1_3)⟩]

/-- The one store is of the whole buffer, so it covers it. -/
theorem cover1_5 (p0 : Vec F S1x512x1024 .f32) (y : S1x512x1024.Idx) :
    ∃ pc ∈ ([⟨r1_0, p0⟩] : List (View.Piece (Elt F) S1x512x1024 .f32)), y ∈ pc.1.set :=
  View.cover_of_tiled [⟨r1_0, p0⟩] S1x512x1024.size (by rfl) y

/-! ## The body's triple -/

set_option maxHeartbeats 1000000 in
/-- The kernel body on whole staging memrefs, the inputs' at read contents `xW` and the output's at anything, runs to
    the continuation holding the inputs' as they were and the output's at `out1_5` of the inputs': the printed functions
    are their skeletons, run operation by operation through both part calls; the load of the output buffer before the
    store reads a value nothing uses. -/
theorem sound_kernel1 (c : Dev nD) (E : Set ℕ) (i : grid1.Coords)
    (arg2 : Memref sig .tc .vmem S1x512x1024 .bf16) (harg2 : arg2.IsWhole) (arg3 : Memref sig .tc .vmem S1024x1024 .bf16) (harg3 : arg3.IsWhole)
    (arg4 : Memref sig .tc .vmem S1x16x64x64 .f32) (harg4 : arg4.IsWhole) (arg5 : Memref sig .tc .vmem S1024x1024 .bf16) (harg5 : arg5.IsWhole)
    (arg6 : Memref sig .tc .vmem S1024 .f32) (harg6 : arg6.IsWhole) (arg7 : Memref sig .tc .vmem S1x512x1024 .f32) (harg7 : arg7.IsWhole)
    (x0 : Vec F S1x512x1024 .bf16) (x1 : Vec F S1024x1024 .bf16) (x2 : Vec F S1x16x64x64 .f32) (x3 : Vec F S1024x1024 .bf16) (x4 : Vec F S1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__out_kernel i arg2 harg2 arg3 harg3 arg4 harg4 arg5 harg5 arg6 harg6 arg7 harg7) K := by
  simp only [cc1__out_kernel_eq_skeleton]; unfold cc1__out_kernel_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.BitsKvRuns.lean ====
/- Region 0 (the key/value accumulation kernel), class R, at a parameter valuation V: what the three case runs
   share — the windows' blocks, the branch conditions decided over the grid, where the output window is idle,
   the staging and scratch memrefs, and the region invariant with the scratch as an owned memref. -/
import proofs.«175350_j39178691674142_1_alg».proof.Proof.Gen.Kernel.Launch
import proofs.«175350_j39178691674142_1_alg».proof.Proof.Gen.Kernel.Skeleton
import proofs.«175350_j39178691674142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1 (fetched at the first point only: unfetched, its block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the body's first `scf.if` (the sequence tile is the first one), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's last `scf.if` (the sequence tile is the last one), from the grid coordinates. -/
abbrev cond0_1 (i : grid0.Coords) : Prop := k0_cond2 i = 1#1
/-- It holds at the points ≡ 7 (mod 8) — decided over the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the points of case A the output window is idle: the case stores nothing into it. -/
theorem idleAt0_3_A : ∀ t : Fin cfg0.N, cond0_0 (grid0.coords t) → ¬cond0_1 (grid0.coords t) → cfg0.idle 3 (grid0.coords t) = true := by decide +kernel
/-- At the points of case A the pipeline does not write the output block back. -/
theorem noFlush0_3_A : ∀ t : Fin cfg0.N, cond0_0 (grid0.coords t) → ¬cond0_1 (grid0.coords t) → (cfg0.win 3).flush t = false := by decide +kernel
/-- At the points of case B the output window is idle. -/
theorem idleAt0_3_B : ∀ t : Fin cfg0.N, ¬cond0_0 (grid0.coords t) → ¬cond0_1 (grid0.coords t) → cfg0.idle 3 (grid0.coords t) = true := by decide +kernel
/-- At the points of case B the pipeline does not write the output block back. -/
theorem noFlush0_3_B : ∀ t : Fin cfg0.N, ¬cond0_0 (grid0.coords t) → ¬cond0_1 (grid0.coords t) → (cfg0.win 3).flush t = false := by decide +kernel
/-- At the points of case C the output window is live: the case stores into it. -/
theorem liveAt0_3_C : ∀ t : Fin cfg0.N, ¬cond0_0 (grid0.coords t) → cond0_1 (grid0.coords t) → cfg0.idle 3 (grid0.coords t) = false := by decide +kernel

/-! ## The kernel body on any staging memrefs -/

/-- One staging buffer of output window 3, through which its contents are stated (the choice does not matter). -/
abbrev VO0_3 : View sig .tc .vmem S1x16x64x64 .f32 := (Memref.whole cc0_stg3_0 : Memref sig .tc .vmem S1x16x64x64 .f32).view
/-- Each window's current staging memref at point `t`, spelled as the pipeline passes it, and its wholeness. -/
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x64x64 .f32 := win0_3.stage (cfg0.slots t 3)
abbrev hs0_3 (t : Fin cfg0.N) : (ms0_3 t).IsWhole := hstage0_3 ((cfg0.slots t 3).cast nbuf0_3)
/-- The scratch operand: a whole scoped buffer of the kernel's own, passed beside the windows. -/
abbrev scM0_0 : Memref sig .tc .vmem S16x64x64 .f32 := Memref.whole cc0_scratch0
/-- The scratch the kernel carries between points, as a view: what it holds is stated through it. -/
abbrev VS0_0 : View sig .tc .vmem S16x64x64 .f32 := scM0_0.view

/-- The region invariant with the scratch as a memref owned at some contents and every other scoped buffer
    (the other region's staging buffers) at some contents: what the body obligation hands the run and takes back. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄)
      = iprop(iprop((∃ d, owns (c : Thread nD τ) scM0_0 fullShare d) ∗ restS0 c) ∗ (∃ r, prngReg c r)) := by
  unfold Pipeline.ΦA restS0; rw [scopedRest0_eq]; simp only [scM0_0, owns_whole]; try rfl

end Cert.Kernel.Fr

end
-- ==== Proof.BitsKvRunA.lean ====
/- Region 0, case A (first sequence tile: the scratch is zeroed, then accumulated; the output window untouched):
   the whole-body run, the pieces the scratch ends with being its witness. -/
import proofs.«175350_j39178691674142_1_alg».proof.Proof.BitsKvRuns

-- membership in a rectangle of large extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave IN CASE A (first conditional taken, last not): on whole staging memrefs, the inputs'
    at their contents, the idle output's at contents `xi3` handed back untouched, the scratch at anything, the
    body runs to the continuation holding the inputs' as they were, the output's as it was, and the scratch
    with its pieces written (`LS0`: the zero store, then one slice store per head). -/
noncomputable def kernelRun0_A (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : cond0_0 i) (hc1 : ¬cond0_1 i)
    (x0 : Vec F S1x512x1024 .bf16) (x1 : Vec F S1024x1024 .bf16) (x2 : Vec F S1024x1024 .bf16) :
    Σ' (L3 : List (View.Piece (Elt F) S1x16x64x64 .f32)), { LS0 : List (View.Piece (Elt F) S16x64x64 .f32) //
      ∀ (xi3 : Vec F S1x16x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kv_kernel i arg2 harg2 arg3 harg3 arg4 harg4 arg5 harg5 arg6 harg6) K } := by
  refine ⟨[], ?_, fun xi3 E K => ?run⟩
  case run =>
    simp only [cc0__kv_kernel_eq_skeleton]; unfold cc0__kv_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.BitsKvRunB.lean ====
/- Region 0, case B (a middle sequence tile: the scratch is accumulated over what the point before left; the
   output window untouched): the whole-body run, the pieces the scratch ends with being its witness. -/
import proofs.«175350_j39178691674142_1_alg».proof.Proof.BitsKvRuns

-- membership in a rectangle of large extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave IN CASE B (neither conditional taken): on whole staging memrefs, the inputs' at their
    contents, the idle output's at contents `xi3` handed back untouched, the scratch at what the point before
    left (`xs0`), the body runs to the continuation holding the inputs' as they were, the output's as it was, and
    the scratch with its pieces written (`LS0`: one slice store per head). -/
noncomputable def kernelRun0_B (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : ¬cond0_1 i)
    (x0 : Vec F S1x512x1024 .bf16) (x1 : Vec F S1024x1024 .bf16) (x2 : Vec F S1024x1024 .bf16) (xs0 : Vec F S16x64x64 .f32) :
    Σ' (L3 : List (View.Piece (Elt F) S1x16x64x64 .f32)), { LS0 : List (View.Piece (Elt F) S16x64x64 .f32) //
      ∀ (xi3 : Vec F S1x16x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kv_kernel i arg2 harg2 arg3 harg3 arg4 harg4 arg5 harg5 arg6 harg6) K } := by
  refine ⟨[], ?_, fun xi3 E K => ?run⟩
  case run =>
    simp only [cc0__kv_kernel_eq_skeleton]; unfold cc0__kv_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.BitsKvRunC.lean ====
/- Region 0, case C (last sequence tile: the scratch is accumulated over what the point before left, then read
   whole, scaled and stored into the output window): the whole-body run, the pieces the output window's buffer
   and the scratch end with being its witness. -/
import proofs.«175350_j39178691674142_1_alg».proof.Proof.BitsKvRuns

-- membership in a rectangle of large extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave IN CASE C (first conditional not taken, last taken): on whole staging memrefs, the
    inputs' at their contents, the output's at anything, the scratch at what the point before left (`xs0`), the body
    runs to the continuation holding the inputs' as they were, the output's buffer with its pieces written (`L3`:
    one whole store) and the scratch with its pieces written (`LS0`: one slice store per head). -/
noncomputable def kernelRun0_C (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : cond0_1 i)
    (x0 : Vec F S1x512x1024 .bf16) (x1 : Vec F S1024x1024 .bf16) (x2 : Vec F S1024x1024 .bf16) (xs0 : Vec F S16x64x64 .f32) :
    Σ' (L3 : List (View.Piece (Elt F) S1x16x64x64 .f32)), { LS0 : List (View.Piece (Elt F) S16x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kv_kernel i arg2 harg2 arg3 harg3 arg4 harg4 arg5 harg5 arg6 harg6) K } := by
  refine ⟨?_, ?_, fun E K => ?run⟩
  case run =>
    simp only [cc0__kv_kernel_eq_skeleton]; unfold cc0__kv_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.BitsKvBody.lean ====
/- Region 0 (the key/value accumulation kernel), class R, at a parameter valuation V: what the output window's
   buffer and the carried scratch hold after each point, the proof data, and the body obligation. -/
import proofs.«175350_j39178691674142_1_alg».proof.Proof.BitsKvRunA
import proofs.«175350_j39178691674142_1_alg».proof.Proof.BitsKvRunB
import proofs.«175350_j39178691674142_1_alg».proof.Proof.BitsKvRunC

-- membership in a rectangle of large extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output window (idle at its points and not written back there): no pieces — a placeholder (junk read back) that nothing consults. -/
def out0_A_3 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : cond0_0 i) (hc1 : ¬cond0_1 i)
    (x0 : Vec F S1x512x1024 .bf16) (x1 : Vec F S1024x1024 .bf16) (x2 : Vec F S1024x1024 .bf16) : Vec F S1x16x64x64 .f32 :=
  VO0_3.read (Elt F) (VO0_3.writes (Elt F) VO0_3.junk (kernelRun0_A c i arg2 harg2 arg3 harg3 arg4 harg4 arg5 harg5 arg6 harg6 hc0 hc1 x0 x1 x2).1)

/-- Case A's pieces for the scratch cover it: its sixteen slice stores tile it in blocks of one head. -/
theorem scover0_A_0 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : cond0_0 i) (hc1 : ¬cond0_1 i)
    (x0 : Vec F S1x512x1024 .bf16) (x1 : Vec F S1024x1024 .bf16) (x2 : Vec F S1024x1024 .bf16) (y : S16x64x64.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1x64x64.size (by sl_kernel_rfl) y

/-- What case A leaves in the scratch: its pieces read back over junk. -/
def sout0_A_0 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : cond0_0 i) (hc1 : ¬cond0_1 i)
    (x0 : Vec F S1x512x1024 .bf16) (x1 : Vec F S1024x1024 .bf16) (x2 : Vec F S1024x1024 .bf16) : Vec F S16x64x64 .f32 :=
  VS0_0.read (Elt F) (VS0_0.writes (Elt F) VS0_0.junk (kernelRun0_A c i arg2 harg2 arg3 harg3 arg4 harg4 arg5 harg5 arg6 harg6 hc0 hc1 x0 x1 x2).2.1)

/-- Case B stores nothing into the output window (idle at its points and not written back there): no pieces — a placeholder (junk read back) that nothing consults. -/
def out0_B_3 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : ¬cond0_1 i)
    (x0 : Vec F S1x512x1024 .bf16) (x1 : Vec F S1024x1024 .bf16) (x2 : Vec F S1024x1024 .bf16) (xs0 : Vec F S16x64x64 .f32) : Vec F S1x16x64x64 .f32 :=
  VO0_3.read (Elt F) (VO0_3.writes (Elt F) VO0_3.junk (kernelRun0_B c i arg2 harg2 arg3 harg3 arg4 harg4 arg5 harg5 arg6 harg6 hc0 hc1 x0 x1 x2 xs0).1)

/-- Case B's pieces for the scratch cover it: its sixteen slice stores tile it in blocks of one head. -/
theorem scover0_B_0 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : ¬cond0_1 i)
    (x0 : Vec F S1x512x1024 .bf16) (x1 : Vec F S1024x1024 .bf16) (x2 : Vec F S1024x1024 .bf16) (xs0 : Vec F S16x64x64 .f32) (y : S16x64x64.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1x64x64.size (by sl_kernel_rfl) y

/-- What case B leaves in the scratch: its pieces read back over junk. -/
def sout0_B_0 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : ¬cond0_1 i)
    (x0 : Vec F S1x512x1024 .bf16) (x1 : Vec F S1024x1024 .bf16) (x2 : Vec F S1024x1024 .bf16) (xs0 : Vec F S16x64x64 .f32) : Vec F S16x64x64 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- Case C's pieces for the output window tile its block (one whole store), so they cover it. -/
theorem cover0_C_3 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : cond0_1 i)
    (x0 : Vec F S1x512x1024 .bf16) (x1 : Vec F S1024x1024 .bf16) (x2 : Vec F S1024x1024 .bf16) (xs0 : Vec F S16x64x64 .f32) (y : S1x16x64x64.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x16x64x64.size (by sl_kernel_rfl) y

/-- What case C leaves in the output window's staging buffer: its pieces read back over junk. -/
def out0_C_3 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : cond0_1 i)
    (x0 : Vec F S1x512x1024 .bf16) (x1 : Vec F S1024x1024 .bf16) (x2 : Vec F S1024x1024 .bf16) (xs0 : Vec F S16x64x64 .f32) : Vec F S1x16x64x64 .f32 :=
  VO0_3.read (Elt F) (VO0_3.writes (Elt F) VO0_3.junk (kernelRun0_C c i arg2 harg2 arg3 harg3 arg4 harg4 arg5 harg5 arg6 harg6 hc0 hc1 x0 x1 x2 xs0).1)

/-- Case C's pieces for the scratch cover it: its sixteen slice stores tile it in blocks of one head. -/
theorem scover0_C_0 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : cond0_1 i)
    (x0 : Vec F S1x512x1024 .bf16) (x1 : Vec F S1024x1024 .bf16) (x2 : Vec F S1024x1024 .bf16) (xs0 : Vec F S16x64x64 .f32) (y : S16x64x64.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1x64x64.size (by sl_kernel_rfl) y

/-- What case C leaves in the scratch: its pieces read back over junk. -/
def sout0_C_0 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : cond0_1 i)
    (x0 : Vec F S1x512x1024 .bf16) (x1 : Vec F S1024x1024 .bf16) (x2 : Vec F S1024x1024 .bf16) (xs0 : Vec F S16x64x64 .f32) : Vec F S16x64x64 .f32 :=
  VS0_0.read (Elt F) (VS0_0.writes (Elt F) VS0_0.junk (kernelRun0_C c i arg2 harg2 arg3 harg3 arg4 harg4 arg5 harg5 arg6 harg6 hc0 hc1 x0 x1 x2 xs0).2.1)

section Region0
-- the TensorCore's buffer contents when the region is entered
variable (V : (c : Dev nD) → (b : Ref sig .tc) → Buf (Elt F) ((c : Thread nD τ).loc b))

/-! ## What the output window and the scratch hold after each point -/

/-- THE ACCUMULATION. What the output window's staging buffer and the scratch the kernel carries between points hold
    after the body at position `n` (a pair: the output window's buffer, then the scratch): the case the closed forms
    select at `n`, run at the point's memrefs and input blocks, the scratch at what this leaves at `n - 1`. -/
def outsAt0 (c : Dev nD) : (n : ℕ) → n < cfg0.N → Vec F S1x16x64x64 .f32 × Vec F S16x64x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a point of case A: that case's contents. -/
theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the scratch at what the point before left in it, the other scoped buffers at anything, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2) ∗ restS0 c) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS0 c) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the output's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

theorem q_eq0 (c : Dev nD) : (dat0 V c).q = fun _ => fullShare := rfl
theorem owed_eq0 (c : Dev nD) : (dat0 V c).owed = fun _ => 0 := rfl

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in; the
    invariant hands the body the carried scratch at what the point before left (at anything at the first point) and takes
    it back at this point's contents (its pieces cover it); the other scoped buffers, the generator register and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Region0

end Cert.Kernel.Fr

end
-- ==== Proof.BitsRun.lean ====
import proofs.«175350_j39178691674142_1_alg».proof.Proof.BitsOutBody
import proofs.«175350_j39178691674142_1_alg».proof.Proof.BitsKvBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: one stretch of host operations, then the two kernel regions

## The buffers' contents at each boundary -/

/-- Core `c`'s buffers at launch. -/
abbrev Wl : Dev nD → Valuation τ sig (Elt F) := fun c b => (s₀ m ρ).mem ((c : Dev nD), b)
/-- After the host operations (the rounded copy of `x`, the transposed weights): what the first region is entered from. -/
abbrev Wh : Dev nD → Valuation τ sig (Elt F) := fun c => StableHlo.after hostOps0 (Wl m ρ c)
abbrev Vh : (c : Dev nD) → (b : Ref sig .tc) → Buf (Elt F) ((c : Thread nD τ).loc b) := fun c b => Wh m ρ c b
/-- After the first region: its arrays at what its write-backs leave (the per-head products `kᵀv` in `main_v9`), every other
    buffer as entered. -/
def Wk (c : Dev nD) : Valuation τ sig (Elt F) :=
  Pipeline.withArrays spec0 c (Wh m ρ c) fun w => (dat0 (Vh m ρ) c).arrAt w cfg0.N
theorem Wk_arr (c : Dev nD) (w : Fin cfg0.W) :
    Wk m ρ c (Proc.devRef .tc (Pipeline.arrRef spec0 w)) = (dat0 (Vh m ρ) c).arrAt w cfg0.N := by
  unfold Wk; exact Pipeline.withArrays_arr spec0 launch0.win.arr_inj c _ _ w
theorem Wk_of_ne (c : Dev nD) (b : Ref sig .tc) (hb : ∀ w, Pipeline.arrRef spec0 w ≠ b) :
    Wk m ρ c (Proc.devRef .tc b) = Wh m ρ c (Proc.devRef .tc b) := by
  unfold Wk; exact Pipeline.withArrays_of_ne spec0 c _ _ b hb
abbrev Vk : (c : Dev nD) → (b : Ref sig .tc) → Buf (Elt F) ((c : Thread nD τ).loc b) := fun c b => Wk m ρ c b
theorem hF0 (c : Dev nD) (w : Fin cfg0.W) : (dat0 (Vh m ρ) c).arrAt w cfg0.N = Vk m ρ c (Pipeline.arrRef spec0 w) :=
  (Wk_arr m ρ c w).symm
theorem hrest0 (c : Dev nD) : ∀ b, b ∉ Finset.univ.image (Pipeline.arrRef spec0) → Vk m ρ c b = Vh m ρ c b :=
  fun b hb => Wk_of_ne m ρ c b fun w e => hb (Finset.mem_image.mpr ⟨w, Finset.mem_univ _, e⟩)

/-- After the second region: its arrays at what its write-backs leave (the result in `main_v10`), every other buffer as entered. -/
def Wo (c : Dev nD) : Valuation τ sig (Elt F) :=
  Pipeline.withArrays spec1 c (Wk m ρ c) fun w => (dat1 (Vk m ρ) c).arrAt w cfg1.N
theorem Wo_arr (c : Dev nD) (w : Fin cfg1.W) :
    Wo m ρ c (Proc.devRef .tc (Pipeline.arrRef spec1 w)) = (dat1 (Vk m ρ) c).arrAt w cfg1.N := by
  unfold Wo; exact Pipeline.withArrays_arr spec1 launch1.win.arr_inj c _ _ w
theorem Wo_of_ne (c : Dev nD) (b : Ref sig .tc) (hb : ∀ w, Pipeline.arrRef spec1 w ≠ b) :
    Wo m ρ c (Proc.devRef .tc b) = Wk m ρ c (Proc.devRef .tc b) := by
  unfold Wo; exact Pipeline.withArrays_of_ne spec1 c _ _ b hb
abbrev Vo : (c : Dev nD) → (b : Ref sig .tc) → Buf (Elt F) ((c : Thread nD τ).loc b) := fun c b => Wo m ρ c b
theorem hF1 (c : Dev nD) (w : Fin cfg1.W) : (dat1 (Vk m ρ) c).arrAt w cfg1.N = Vo m ρ c (Pipeline.arrRef spec1 w) :=
  (Wo_arr m ρ c w).symm
theorem hrest1 (c : Dev nD) : ∀ b, b ∉ Finset.univ.image (Pipeline.arrRef spec1) → Vo m ρ c b = Vk m ρ c b :=
  fun b hb => Wo_of_ne m ρ c b fun w e => hb (Finset.mem_image.mpr ⟨w, Finset.mem_univ _, e⟩)

/-! ## The arguments end as launched: no host operation writes one, the first region stages none, and the second only reads the bias -/

theorem Wo_main_arg0 (c : Dev nD) : Wo m ρ c (Proc.devRef .tc main_arg0) = m ((c : Thread nD τ).loc main_arg0) :=
  calc Wo m ρ c (Proc.devRef .tc main_arg0)
    _ = Wk m ρ c (Proc.devRef .tc main_arg0) := Wo_of_ne m ρ c main_arg0 (by decide)
    _ = Wh m ρ c (Proc.devRef .tc main_arg0) := Wk_of_ne m ρ c main_arg0 (by decide)
    _ = Wl m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem Wo_main_arg1 (c : Dev nD) : Wo m ρ c (Proc.devRef .tc main_arg1) = m ((c : Thread nD τ).loc main_arg1) :=
  calc Wo m ρ c (Proc.devRef .tc main_arg1)
    _ = Wk m ρ c (Proc.devRef .tc main_arg1) := Wo_of_ne m ρ c main_arg1 (by decide)
    _ = Wh m ρ c (Proc.devRef .tc main_arg1) := Wk_of_ne m ρ c main_arg1 (by decide)
    _ = Wl m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem Wo_main_arg2 (c : Dev nD) : Wo m ρ c (Proc.devRef .tc main_arg2) = m ((c : Thread nD τ).loc main_arg2) :=
  calc Wo m ρ c (Proc.devRef .tc main_arg2)
    _ = Wk m ρ c (Proc.devRef .tc main_arg2) := Wo_of_ne m ρ c main_arg2 (by decide)
    _ = Wh m ρ c (Proc.devRef .tc main_arg2) := Wk_of_ne m ρ c main_arg2 (by decide)
    _ = Wl m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem Wo_main_arg3 (c : Dev nD) : Wo m ρ c (Proc.devRef .tc main_arg3) = m ((c : Thread nD τ).loc main_arg3) :=
  calc Wo m ρ c (Proc.devRef .tc main_arg3)
    _ = Wk m ρ c (Proc.devRef .tc main_arg3) := Wo_of_ne m ρ c main_arg3 (by decide)
    _ = Wh m ρ c (Proc.devRef .tc main_arg3) := Wk_of_ne m ρ c main_arg3 (by decide)
    _ = Wl m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem Wo_main_arg4 (c : Dev nD) : Wo m ρ c (Proc.devRef .tc main_arg4) = m ((c : Thread nD τ).loc main_arg4) :=
  calc Wo m ρ c (Proc.devRef .tc main_arg4)
    _ = Wk m ρ c (Proc.devRef .tc main_arg4) := Wo_of_ne m ρ c main_arg4 (by decide)
    _ = Wh m ρ c (Proc.devRef .tc main_arg4) := Wk_of_ne m ρ c main_arg4 (by decide)
    _ = Wl m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem Wo_main_arg5 (c : Dev nD) : Wo m ρ c (Proc.devRef .tc main_arg5) = m ((c : Thread nD τ).loc main_arg5) :=
  calc Wo m ρ c (Proc.devRef .tc main_arg5)
    _ = Wk m ρ c (Proc.devRef .tc main_arg5) := (Wo_arr m ρ c 4).trans (((dat1 (Vk m ρ) c).arrAt_in 4 rfl _).trans (A_eq1 (Vk m ρ) c 4))
    _ = Wh m ρ c (Proc.devRef .tc main_arg5) := Wk_of_ne m ρ c main_arg5 (by decide)
    _ = Wl m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 2) → (pcfgs (F := F) p).Adm := fun p => (cfgs p).toPCfg_adm
/-- Each pipeline's proof data at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (Vh m ρ) c
  | ⟨1, _⟩ => fun c => dat1 (Vk m ρ) c
abbrev 𝒱₀ : Variants := Variants.none
abbrev L : GSem nD τ sig → Finset Unit := fun _ => ∅
abbrev lv : GSem nD τ sig → Unit → ℕ := fun _ _ => 0
/-- Beside the buffers through every segment: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wo m ρ c) ∗ ∃ r, prngReg c r)

/-! ## The regions as segments

The first region's invariant carries the accumulator scratch from point to point; it is the scoped rest before the first point
(`hin0`) and gives the scoped rest back after the last (`hout0`). The second region's invariant is the scoped rest throughout. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vh m ρ) c).loose
  hwaits := Pipeline.hwaits_of_owed_zero _ _ _ _ L lv 0 fun _ _ => rfl
  pre c := iprop(StableHlo.held (c : Thread nD τ) (Pipeline.ucRefs τ sig) (Wh m ρ c) ∗ R c)
  post c := iprop(StableHlo.held (c : Thread nD τ) (Pipeline.ucRefs τ sig) (Wk m ρ c) ∗ R c)
  X c := iprop(∃ r, prngReg c r)
  Y c := iprop(∃ r, prngReg c r)
  Z c := Pipeline.unscopedRest (Ix := Unit) (Name := ℕ) (U := UR sig nD τ) (Lvl := ℕ) spec0 c (Vh m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vh m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Vh m ρ) c)
    unfold Pipeline.ΦA
    iintro ⟨Hp, -, Hr⟩
    isplitl [Hr]; · iexact Hr
    iexact Hp
  hout c := by
    rw [Pipeline.ownSems0_none]
    refine .trans (hout0 (Vh m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vh m ρ c) (Vk m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vk m ρ) c).loose
  hwaits := Pipeline.hwaits_of_owed_zero _ _ _ _ L lv 1 fun _ _ => rfl
  pre c := iprop(StableHlo.held (c : Thread nD τ) (Pipeline.ucRefs τ sig) (Wk m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vk m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vk m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vk m ρ c) (Vo m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (Wl m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main from `m` with zero counters terminates, nothing faulting, and every final state holds
    each unscoped buffer of each core at the last boundary's contents `Wo`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wo m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl m ρ c)
        from Pipeline.unscopedBufs_held c (Wl m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wo m ρ c b)
    (hfin := fun c s' => by
      iintro ⟨⟨Hh, -⟩, HSI⟩
      unfold StableHlo.held
      imodintro
      iapply (pointsTo_read_all (Pipeline.ucRefs τ sig) (fun b => (((c : Thread nD τ)).1, b)) (Wo m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (Wo_main_arg0 m ρ c),
     (h c _ (mem_uc main_arg1 (by decide))).trans (Wo_main_arg1 m ρ c),
     (h c _ (mem_uc main_arg2 (by decide))).trans (Wo_main_arg2 m ρ c),
     (h c _ (mem_uc main_arg3 (by decide))).trans (Wo_main_arg3 m ρ c),
     (h c _ (mem_uc main_arg4 (by decide))).trans (Wo_main_arg4 m ρ c),
     (h c _ (mem_uc main_arg5 (by decide))).trans (Wo_main_arg5 m ρ c)⟩) (run_all m ρ)

/-- The run with the result array named: `main_v10` ends at what the second region's write-backs leave. -/
theorem run_value : θ_run defs (onTc (τ := τ) (main (F := F))) ⟨m, fun _ => 0, ρ⟩ (fun r => ∀ c : Dev nD,
      r.2.mem ((c.tc : Thread nD τ).loc main_v10) = (dat1 (Vk m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v10 (by decide))).trans (Wo_arr m ρ c 5),
     (h c _ (mem_uc main_arg0 (by decide))).trans (Wo_main_arg0 m ρ c),
     (h c _ (mem_uc main_arg1 (by decide))).trans (Wo_main_arg1 m ρ c),
     (h c _ (mem_uc main_arg2 (by decide))).trans (Wo_main_arg2 m ρ c),
     (h c _ (mem_uc main_arg3 (by decide))).trans (Wo_main_arg3 m ρ c),
     (h c _ (mem_uc main_arg4 (by decide))).trans (Wo_main_arg4 m ρ c),
     (h c _ (mem_uc main_arg5 (by decide))).trans (Wo_main_arg5 m ρ c)⟩) (run_all m ρ)

end Cert.Kernel.Fr

end
-- ==== Proof.IdealOutBody.lean ====
/- REGION 1 of @main (custom_call 1, the output-projection kernel, pipeline 1): its class-A half, at any float
   model `F` and at a PARAMETER `V`, the TensorCore's buffer contents when the region is entered.

   The kernel body at a grid point reads its five input windows' staging buffers whole (the activations' block, the
   transposed query weights, the per-batch key-value summary, the transposed output weights, the bias), computes, and
   writes its one output window's staging buffer whole, once. So what it leaves there is a closed function
   `out1_5` of the five input blocks: the single store's payload laid over the buffer. The input windows are fetched
   at different points (the activations at every point, the key-value summary when the batch index moves, the
   weights and the bias once), but an input buffer always holds its window's block at the point: a window that is not
   fetched has not moved. -/
import proofs.«175350_j39178691674142_1_alg».proof.Proof.Gen.KernelIdeal.Launch
import proofs.«175350_j39178691674142_1_alg».proof.Proof.Gen.KernelIdeal.Skeleton
import proofs.«175350_j39178691674142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): the window is fetched at every point, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): fetched at the first point only, its block index never moves afterwards, so the buffer keeps the block; uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): fetched when the batch index moves; between two such points the block index stands still, so the buffer keeps the block; uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): fetched at the first point only, its block index never moves afterwards, so the buffer keeps the block; uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof
    data whose array is `V`'s (`hA`) and whose body leaves the block in place (`hafter`): fetched at the first point only, its block index never moves afterwards, so the buffer keeps the block; uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a rank-3 block (the activations' block, the output's block), -/
abbrev r1_0 : Rect S1x512x1024 := Rect.unit (s := S1x512x1024) ![0, 0, 0] S1x512x1024.size inb_S1x512x1024_S1x512x1024_0_0_0
/-- of a weight matrix, -/
abbrev r1_1 : Rect S1024x1024 := Rect.unit (s := S1024x1024) ![0, 0] S1024x1024.size inb_S1024x1024_S1024x1024_0_0
/-- of the key-value summary's block, -/
abbrev r1_2 : Rect S1x16x64x64 := Rect.unit (s := S1x16x64x64) ![0, 0, 0, 0] S1x16x64x64.size inb_S1x16x64x64_S1x16x64x64_0_0_0_0
/-- and of the bias. -/
abbrev r1_3 : Rect S1024 := Rect.unit (s := S1024) ![0] S1024.size inb_S1024_S1024_0

/-! ## What the body leaves in the output window's buffer -/

/-- Window 5's staging buffer after the body, from the five input windows' blocks: its one store as a piece
    (`View.canon`). The payload is the skeleton's: the per-head attention rows (each head's query columns times that
    head's key-value summary, rounded, the sixteen heads side by side), times the transposed output weights, plus the
    bias along the rows. -/
def out1_5 (x0 : Vec F S1x512x1024 .bf16) (x1 : Vec F S1024x1024 .bf16) (x2 : Vec F S1x16x64x64 .f32) (x3 : Vec F S1024x1024 .bf16) (x4 : Vec F S1024 .f32) : Vec F S1x512x1024 .f32 :=
  View.canon [⟨r1_0, k1_pay1 (k1_pay12 (k1_pay2 (View.ld x0 r1_0) (View.ld x1 r1_1)) (k1_pay3 (View.ld x2 r1_2)) (k1_pay4 (View.ld x0 r1_0) (View.ld x1 r1_1) (View.ld x2 r1_2)) (k1_pay5 (View.ld x0 r1_0) (View.ld x1 r1_1) (View.ld x2 r1_2)) (k1_pay6 (View.ld x0 r1_0) (View.ld x1 r1_1) (View.ld x2 r1_2)) (k1_pay7 (View.ld x0 r1_0) (View.ld x1 r1_1) (View.ld x2 r1_2)) (k1_pay8 (View.ld x0 r1_0) (View.ld x1 r1_1) (View.ld x2 r1_2)) (k1_pay9 (View.ld x0 r1_0) (View.ld x1 r1_1) (View.ld x2 r1_2)) (k1_pay10 (View.ld x0 r1_0) (View.ld x1 r1_1)) (k1_pay11 (View.ld x2 r1_2))) (View.ld x3 r1_1) (View.ld x4 r1_3)⟩]

/-- The one store is of the whole buffer, so it covers it. -/
theorem cover1_5 (p0 : Vec F S1x512x1024 .f32) (y : S1x512x1024.Idx) :
    ∃ pc ∈ ([⟨r1_0, p0⟩] : List (View.Piece (Elt F) S1x512x1024 .f32)), y ∈ pc.1.set :=
  View.cover_of_tiled [⟨r1_0, p0⟩] S1x512x1024.size (by rfl) y

/-! ## The body's triple -/

set_option maxHeartbeats 1000000 in
/-- The kernel body on whole staging memrefs, the inputs' at read contents `xW` and the output's at anything, runs to
    the continuation holding the inputs' as they were and the output's at `out1_5` of the inputs': the printed functions
    are their skeletons, run operation by operation through both part calls; the load of the output buffer before the
    store reads a value nothing uses. -/
theorem sound_kernel1 (c : Dev nD) (E : Set ℕ) (i : grid1.Coords)
    (arg2 : Memref sig .tc .vmem S1x512x1024 .bf16) (harg2 : arg2.IsWhole) (arg3 : Memref sig .tc .vmem S1024x1024 .bf16) (harg3 : arg3.IsWhole)
    (arg4 : Memref sig .tc .vmem S1x16x64x64 .f32) (harg4 : arg4.IsWhole) (arg5 : Memref sig .tc .vmem S1024x1024 .bf16) (harg5 : arg5.IsWhole)
    (arg6 : Memref sig .tc .vmem S1024 .f32) (harg6 : arg6.IsWhole) (arg7 : Memref sig .tc .vmem S1x512x1024 .f32) (harg7 : arg7.IsWhole)
    (x0 : Vec F S1x512x1024 .bf16) (x1 : Vec F S1024x1024 .bf16) (x2 : Vec F S1x16x64x64 .f32) (x3 : Vec F S1024x1024 .bf16) (x4 : Vec F S1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__out_kernel i arg2 harg2 arg3 harg3 arg4 harg4 arg5 harg5 arg6 harg6 arg7 harg7) K := by
  simp only [cc1__out_kernel_eq_skeleton]; unfold cc1__out_kernel_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.IdealKvRuns.lean ====
/- Region 0 (the key/value accumulation kernel), class R, at a parameter valuation V: what the three case runs
   share — the windows' blocks, the branch conditions decided over the grid, where the output window is idle,
   the staging and scratch memrefs, and the region invariant with the scratch as an owned memref. -/
import proofs.«175350_j39178691674142_1_alg».proof.Proof.Gen.KernelIdeal.Launch
import proofs.«175350_j39178691674142_1_alg».proof.Proof.Gen.KernelIdeal.Skeleton
import proofs.«175350_j39178691674142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1 (fetched at the first point only: unfetched, its block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the body's first `scf.if` (the sequence tile is the first one), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's last `scf.if` (the sequence tile is the last one), from the grid coordinates. -/
abbrev cond0_1 (i : grid0.Coords) : Prop := k0_cond2 i = 1#1
/-- It holds at the points ≡ 7 (mod 8) — decided over the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the points of case A the output window is idle: the case stores nothing into it. -/
theorem idleAt0_3_A : ∀ t : Fin cfg0.N, cond0_0 (grid0.coords t) → ¬cond0_1 (grid0.coords t) → cfg0.idle 3 (grid0.coords t) = true := by decide +kernel
/-- At the points of case A the pipeline does not write the output block back. -/
theorem noFlush0_3_A : ∀ t : Fin cfg0.N, cond0_0 (grid0.coords t) → ¬cond0_1 (grid0.coords t) → (cfg0.win 3).flush t = false := by decide +kernel
/-- At the points of case B the output window is idle. -/
theorem idleAt0_3_B : ∀ t : Fin cfg0.N, ¬cond0_0 (grid0.coords t) → ¬cond0_1 (grid0.coords t) → cfg0.idle 3 (grid0.coords t) = true := by decide +kernel
/-- At the points of case B the pipeline does not write the output block back. -/
theorem noFlush0_3_B : ∀ t : Fin cfg0.N, ¬cond0_0 (grid0.coords t) → ¬cond0_1 (grid0.coords t) → (cfg0.win 3).flush t = false := by decide +kernel
/-- At the points of case C the output window is live: the case stores into it. -/
theorem liveAt0_3_C : ∀ t : Fin cfg0.N, ¬cond0_0 (grid0.coords t) → cond0_1 (grid0.coords t) → cfg0.idle 3 (grid0.coords t) = false := by decide +kernel

/-! ## The kernel body on any staging memrefs -/

/-- One staging buffer of output window 3, through which its contents are stated (the choice does not matter). -/
abbrev VO0_3 : View sig .tc .vmem S1x16x64x64 .f32 := (Memref.whole cc0_stg3_0 : Memref sig .tc .vmem S1x16x64x64 .f32).view
/-- Each window's current staging memref at point `t`, spelled as the pipeline passes it, and its wholeness. -/
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x64x64 .f32 := win0_3.stage (cfg0.slots t 3)
abbrev hs0_3 (t : Fin cfg0.N) : (ms0_3 t).IsWhole := hstage0_3 ((cfg0.slots t 3).cast nbuf0_3)
/-- The scratch operand: a whole scoped buffer of the kernel's own, passed beside the windows. -/
abbrev scM0_0 : Memref sig .tc .vmem S16x64x64 .f32 := Memref.whole cc0_scratch0
/-- The scratch the kernel carries between points, as a view: what it holds is stated through it. -/
abbrev VS0_0 : View sig .tc .vmem S16x64x64 .f32 := scM0_0.view

/-- The region invariant with the scratch as a memref owned at some contents and every other scoped buffer
    (the other region's staging buffers) at some contents: what the body obligation hands the run and takes back. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄)
      = iprop(iprop((∃ d, owns (c : Thread nD τ) scM0_0 fullShare d) ∗ restS0 c) ∗ (∃ r, prngReg c r)) := by
  unfold Pipeline.ΦA restS0; rw [scopedRest0_eq]; simp only [scM0_0, owns_whole]; try rfl

end Cert.KernelIdeal.Fr

end
-- ==== Proof.IdealKvRunA.lean ====
/- Region 0, case A (first sequence tile: the scratch is zeroed, then accumulated; the output window untouched):
   the whole-body run, the pieces the scratch ends with being its witness. -/
import proofs.«175350_j39178691674142_1_alg».proof.Proof.IdealKvRuns

-- membership in a rectangle of large extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave IN CASE A (first conditional taken, last not): on whole staging memrefs, the inputs'
    at their contents, the idle output's at contents `xi3` handed back untouched, the scratch at anything, the
    body runs to the continuation holding the inputs' as they were, the output's as it was, and the scratch
    with its pieces written (`LS0`: the zero store, then one slice store per head). -/
noncomputable def kernelRun0_A (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : cond0_0 i) (hc1 : ¬cond0_1 i)
    (x0 : Vec F S1x512x1024 .bf16) (x1 : Vec F S1024x1024 .bf16) (x2 : Vec F S1024x1024 .bf16) :
    Σ' (L3 : List (View.Piece (Elt F) S1x16x64x64 .f32)), { LS0 : List (View.Piece (Elt F) S16x64x64 .f32) //
      ∀ (xi3 : Vec F S1x16x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kv_kernel i arg2 harg2 arg3 harg3 arg4 harg4 arg5 harg5 arg6 harg6) K } := by
  refine ⟨[], ?_, fun xi3 E K => ?run⟩
  case run =>
    simp only [cc0__kv_kernel_eq_skeleton]; unfold cc0__kv_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.IdealKvRunB.lean ====
/- Region 0, case B (a middle sequence tile: the scratch is accumulated over what the point before left; the
   output window untouched): the whole-body run, the pieces the scratch ends with being its witness. -/
import proofs.«175350_j39178691674142_1_alg».proof.Proof.IdealKvRuns

-- membership in a rectangle of large extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave IN CASE B (neither conditional taken): on whole staging memrefs, the inputs' at their
    contents, the idle output's at contents `xi3` handed back untouched, the scratch at what the point before
    left (`xs0`), the body runs to the continuation holding the inputs' as they were, the output's as it was, and
    the scratch with its pieces written (`LS0`: one slice store per head). -/
noncomputable def kernelRun0_B (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : ¬cond0_1 i)
    (x0 : Vec F S1x512x1024 .bf16) (x1 : Vec F S1024x1024 .bf16) (x2 : Vec F S1024x1024 .bf16) (xs0 : Vec F S16x64x64 .f32) :
    Σ' (L3 : List (View.Piece (Elt F) S1x16x64x64 .f32)), { LS0 : List (View.Piece (Elt F) S16x64x64 .f32) //
      ∀ (xi3 : Vec F S1x16x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kv_kernel i arg2 harg2 arg3 harg3 arg4 harg4 arg5 harg5 arg6 harg6) K } := by
  refine ⟨[], ?_, fun xi3 E K => ?run⟩
  case run =>
    simp only [cc0__kv_kernel_eq_skeleton]; unfold cc0__kv_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.IdealKvRunC.lean ====
/- Region 0, case C (last sequence tile: the scratch is accumulated over what the point before left, then read
   whole, scaled and stored into the output window): the whole-body run, the pieces the output window's buffer
   and the scratch end with being its witness. -/
import proofs.«175350_j39178691674142_1_alg».proof.Proof.IdealKvRuns

-- membership in a rectangle of large extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave IN CASE C (first conditional not taken, last taken): on whole staging memrefs, the
    inputs' at their contents, the output's at anything, the scratch at what the point before left (`xs0`), the body
    runs to the continuation holding the inputs' as they were, the output's buffer with its pieces written (`L3`:
    one whole store) and the scratch with its pieces written (`LS0`: one slice store per head). -/
noncomputable def kernelRun0_C (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : cond0_1 i)
    (x0 : Vec F S1x512x1024 .bf16) (x1 : Vec F S1024x1024 .bf16) (x2 : Vec F S1024x1024 .bf16) (xs0 : Vec F S16x64x64 .f32) :
    Σ' (L3 : List (View.Piece (Elt F) S1x16x64x64 .f32)), { LS0 : List (View.Piece (Elt F) S16x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kv_kernel i arg2 harg2 arg3 harg3 arg4 harg4 arg5 harg5 arg6 harg6) K } := by
  refine ⟨?_, ?_, fun E K => ?run⟩
  case run =>
    simp only [cc0__kv_kernel_eq_skeleton]; unfold cc0__kv_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.IdealKvBody.lean ====
/- Region 0 (the key/value accumulation kernel), class R, at a parameter valuation V: what the output window's
   buffer and the carried scratch hold after each point, the proof data, and the body obligation. -/
import proofs.«175350_j39178691674142_1_alg».proof.Proof.IdealKvRunA
import proofs.«175350_j39178691674142_1_alg».proof.Proof.IdealKvRunB
import proofs.«175350_j39178691674142_1_alg».proof.Proof.IdealKvRunC

-- membership in a rectangle of large extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output window (idle at its points and not written back there): no pieces — a placeholder (junk read back) that nothing consults. -/
def out0_A_3 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : cond0_0 i) (hc1 : ¬cond0_1 i)
    (x0 : Vec F S1x512x1024 .bf16) (x1 : Vec F S1024x1024 .bf16) (x2 : Vec F S1024x1024 .bf16) : Vec F S1x16x64x64 .f32 :=
  VO0_3.read (Elt F) (VO0_3.writes (Elt F) VO0_3.junk (kernelRun0_A c i arg2 harg2 arg3 harg3 arg4 harg4 arg5 harg5 arg6 harg6 hc0 hc1 x0 x1 x2).1)

/-- Case A's pieces for the scratch cover it: its sixteen slice stores tile it in blocks of one head. -/
theorem scover0_A_0 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : cond0_0 i) (hc1 : ¬cond0_1 i)
    (x0 : Vec F S1x512x1024 .bf16) (x1 : Vec F S1024x1024 .bf16) (x2 : Vec F S1024x1024 .bf16) (y : S16x64x64.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1x64x64.size (by sl_kernel_rfl) y

/-- What case A leaves in the scratch: its pieces read back over junk. -/
def sout0_A_0 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : cond0_0 i) (hc1 : ¬cond0_1 i)
    (x0 : Vec F S1x512x1024 .bf16) (x1 : Vec F S1024x1024 .bf16) (x2 : Vec F S1024x1024 .bf16) : Vec F S16x64x64 .f32 :=
  VS0_0.read (Elt F) (VS0_0.writes (Elt F) VS0_0.junk (kernelRun0_A c i arg2 harg2 arg3 harg3 arg4 harg4 arg5 harg5 arg6 harg6 hc0 hc1 x0 x1 x2).2.1)

/-- Case B stores nothing into the output window (idle at its points and not written back there): no pieces — a placeholder (junk read back) that nothing consults. -/
def out0_B_3 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : ¬cond0_1 i)
    (x0 : Vec F S1x512x1024 .bf16) (x1 : Vec F S1024x1024 .bf16) (x2 : Vec F S1024x1024 .bf16) (xs0 : Vec F S16x64x64 .f32) : Vec F S1x16x64x64 .f32 :=
  VO0_3.read (Elt F) (VO0_3.writes (Elt F) VO0_3.junk (kernelRun0_B c i arg2 harg2 arg3 harg3 arg4 harg4 arg5 harg5 arg6 harg6 hc0 hc1 x0 x1 x2 xs0).1)

/-- Case B's pieces for the scratch cover it: its sixteen slice stores tile it in blocks of one head. -/
theorem scover0_B_0 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : ¬cond0_1 i)
    (x0 : Vec F S1x512x1024 .bf16) (x1 : Vec F S1024x1024 .bf16) (x2 : Vec F S1024x1024 .bf16) (xs0 : Vec F S16x64x64 .f32) (y : S16x64x64.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1x64x64.size (by sl_kernel_rfl) y

/-- What case B leaves in the scratch: its pieces read back over junk. -/
def sout0_B_0 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : ¬cond0_1 i)
    (x0 : Vec F S1x512x1024 .bf16) (x1 : Vec F S1024x1024 .bf16) (x2 : Vec F S1024x1024 .bf16) (xs0 : Vec F S16x64x64 .f32) : Vec F S16x64x64 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- Case C's pieces for the output window tile its block (one whole store), so they cover it. -/
theorem cover0_C_3 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : cond0_1 i)
    (x0 : Vec F S1x512x1024 .bf16) (x1 : Vec F S1024x1024 .bf16) (x2 : Vec F S1024x1024 .bf16) (xs0 : Vec F S16x64x64 .f32) (y : S1x16x64x64.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x16x64x64.size (by sl_kernel_rfl) y

/-- What case C leaves in the output window's staging buffer: its pieces read back over junk. -/
def out0_C_3 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : cond0_1 i)
    (x0 : Vec F S1x512x1024 .bf16) (x1 : Vec F S1024x1024 .bf16) (x2 : Vec F S1024x1024 .bf16) (xs0 : Vec F S16x64x64 .f32) : Vec F S1x16x64x64 .f32 :=
  VO0_3.read (Elt F) (VO0_3.writes (Elt F) VO0_3.junk (kernelRun0_C c i arg2 harg2 arg3 harg3 arg4 harg4 arg5 harg5 arg6 harg6 hc0 hc1 x0 x1 x2 xs0).1)

/-- Case C's pieces for the scratch cover it: its sixteen slice stores tile it in blocks of one head. -/
theorem scover0_C_0 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : cond0_1 i)
    (x0 : Vec F S1x512x1024 .bf16) (x1 : Vec F S1024x1024 .bf16) (x2 : Vec F S1024x1024 .bf16) (xs0 : Vec F S16x64x64 .f32) (y : S16x64x64.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1x64x64.size (by sl_kernel_rfl) y

/-- What case C leaves in the scratch: its pieces read back over junk. -/
def sout0_C_0 (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : cond0_1 i)
    (x0 : Vec F S1x512x1024 .bf16) (x1 : Vec F S1024x1024 .bf16) (x2 : Vec F S1024x1024 .bf16) (xs0 : Vec F S16x64x64 .f32) : Vec F S16x64x64 .f32 :=
  VS0_0.read (Elt F) (VS0_0.writes (Elt F) VS0_0.junk (kernelRun0_C c i arg2 harg2 arg3 harg3 arg4 harg4 arg5 harg5 arg6 harg6 hc0 hc1 x0 x1 x2 xs0).2.1)

section Region0
-- the TensorCore's buffer contents when the region is entered
variable (V : (c : Dev nD) → (b : Ref sig .tc) → Buf (Elt F) ((c : Thread nD τ).loc b))

/-! ## What the output window and the scratch hold after each point -/

/-- THE ACCUMULATION. What the output window's staging buffer and the scratch the kernel carries between points hold
    after the body at position `n` (a pair: the output window's buffer, then the scratch): the case the closed forms
    select at `n`, run at the point's memrefs and input blocks, the scratch at what this leaves at `n - 1`. -/
def outsAt0 (c : Dev nD) : (n : ℕ) → n < cfg0.N → Vec F S1x16x64x64 .f32 × Vec F S16x64x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a point of case A: that case's contents. -/
theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the scratch at what the point before left in it, the other scoped buffers at anything, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2) ∗ restS0 c) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS0 c) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the output's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

theorem q_eq0 (c : Dev nD) : (dat0 V c).q = fun _ => fullShare := rfl
theorem owed_eq0 (c : Dev nD) : (dat0 V c).owed = fun _ => 0 := rfl

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in; the
    invariant hands the body the carried scratch at what the point before left (at anything at the first point) and takes
    it back at this point's contents (its pieces cover it); the other scoped buffers, the generator register and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Region0

end Cert.KernelIdeal.Fr

end
-- ==== Proof.IdealRun.lean ====
import proofs.«175350_j39178691674142_1_alg».proof.Proof.IdealOutBody
import proofs.«175350_j39178691674142_1_alg».proof.Proof.IdealKvBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: one stretch of host operations, then the two kernel regions

## The buffers' contents at each boundary -/

/-- Core `c`'s buffers at launch. -/
abbrev Wl : Dev nD → Valuation τ sig (Elt F) := fun c b => (s₀ m ρ).mem ((c : Dev nD), b)
/-- After the host operations (the rounded copy of `x`, the transposed weights): what the first region is entered from. -/
abbrev Wh : Dev nD → Valuation τ sig (Elt F) := fun c => StableHlo.after hostOps0 (Wl m ρ c)
abbrev Vh : (c : Dev nD) → (b : Ref sig .tc) → Buf (Elt F) ((c : Thread nD τ).loc b) := fun c b => Wh m ρ c b
/-- After the first region: its arrays at what its write-backs leave (the per-head products `kᵀv` in `main_v9`), every other
    buffer as entered. -/
def Wk (c : Dev nD) : Valuation τ sig (Elt F) :=
  Pipeline.withArrays spec0 c (Wh m ρ c) fun w => (dat0 (Vh m ρ) c).arrAt w cfg0.N
theorem Wk_arr (c : Dev nD) (w : Fin cfg0.W) :
    Wk m ρ c (Proc.devRef .tc (Pipeline.arrRef spec0 w)) = (dat0 (Vh m ρ) c).arrAt w cfg0.N := by
  unfold Wk; exact Pipeline.withArrays_arr spec0 launch0.win.arr_inj c _ _ w
theorem Wk_of_ne (c : Dev nD) (b : Ref sig .tc) (hb : ∀ w, Pipeline.arrRef spec0 w ≠ b) :
    Wk m ρ c (Proc.devRef .tc b) = Wh m ρ c (Proc.devRef .tc b) := by
  unfold Wk; exact Pipeline.withArrays_of_ne spec0 c _ _ b hb
abbrev Vk : (c : Dev nD) → (b : Ref sig .tc) → Buf (Elt F) ((c : Thread nD τ).loc b) := fun c b => Wk m ρ c b
theorem hF0 (c : Dev nD) (w : Fin cfg0.W) : (dat0 (Vh m ρ) c).arrAt w cfg0.N = Vk m ρ c (Pipeline.arrRef spec0 w) :=
  (Wk_arr m ρ c w).symm
theorem hrest0 (c : Dev nD) : ∀ b, b ∉ Finset.univ.image (Pipeline.arrRef spec0) → Vk m ρ c b = Vh m ρ c b :=
  fun b hb => Wk_of_ne m ρ c b fun w e => hb (Finset.mem_image.mpr ⟨w, Finset.mem_univ _, e⟩)

/-- After the second region: its arrays at what its write-backs leave (the result in `main_v10`), every other buffer as entered. -/
def Wo (c : Dev nD) : Valuation τ sig (Elt F) :=
  Pipeline.withArrays spec1 c (Wk m ρ c) fun w => (dat1 (Vk m ρ) c).arrAt w cfg1.N
theorem Wo_arr (c : Dev nD) (w : Fin cfg1.W) :
    Wo m ρ c (Proc.devRef .tc (Pipeline.arrRef spec1 w)) = (dat1 (Vk m ρ) c).arrAt w cfg1.N := by
  unfold Wo; exact Pipeline.withArrays_arr spec1 launch1.win.arr_inj c _ _ w
theorem Wo_of_ne (c : Dev nD) (b : Ref sig .tc) (hb : ∀ w, Pipeline.arrRef spec1 w ≠ b) :
    Wo m ρ c (Proc.devRef .tc b) = Wk m ρ c (Proc.devRef .tc b) := by
  unfold Wo; exact Pipeline.withArrays_of_ne spec1 c _ _ b hb
abbrev Vo : (c : Dev nD) → (b : Ref sig .tc) → Buf (Elt F) ((c : Thread nD τ).loc b) := fun c b => Wo m ρ c b
theorem hF1 (c : Dev nD) (w : Fin cfg1.W) : (dat1 (Vk m ρ) c).arrAt w cfg1.N = Vo m ρ c (Pipeline.arrRef spec1 w) :=
  (Wo_arr m ρ c w).symm
theorem hrest1 (c : Dev nD) : ∀ b, b ∉ Finset.univ.image (Pipeline.arrRef spec1) → Vo m ρ c b = Vk m ρ c b :=
  fun b hb => Wo_of_ne m ρ c b fun w e => hb (Finset.mem_image.mpr ⟨w, Finset.mem_univ _, e⟩)

/-! ## The arguments end as launched: no host operation writes one, the first region stages none, and the second only reads the bias -/

theorem Wo_main_arg0 (c : Dev nD) : Wo m ρ c (Proc.devRef .tc main_arg0) = m ((c : Thread nD τ).loc main_arg0) :=
  calc Wo m ρ c (Proc.devRef .tc main_arg0)
    _ = Wk m ρ c (Proc.devRef .tc main_arg0) := Wo_of_ne m ρ c main_arg0 (by decide)
    _ = Wh m ρ c (Proc.devRef .tc main_arg0) := Wk_of_ne m ρ c main_arg0 (by decide)
    _ = Wl m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem Wo_main_arg1 (c : Dev nD) : Wo m ρ c (Proc.devRef .tc main_arg1) = m ((c : Thread nD τ).loc main_arg1) :=
  calc Wo m ρ c (Proc.devRef .tc main_arg1)
    _ = Wk m ρ c (Proc.devRef .tc main_arg1) := Wo_of_ne m ρ c main_arg1 (by decide)
    _ = Wh m ρ c (Proc.devRef .tc main_arg1) := Wk_of_ne m ρ c main_arg1 (by decide)
    _ = Wl m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem Wo_main_arg2 (c : Dev nD) : Wo m ρ c (Proc.devRef .tc main_arg2) = m ((c : Thread nD τ).loc main_arg2) :=
  calc Wo m ρ c (Proc.devRef .tc main_arg2)
    _ = Wk m ρ c (Proc.devRef .tc main_arg2) := Wo_of_ne m ρ c main_arg2 (by decide)
    _ = Wh m ρ c (Proc.devRef .tc main_arg2) := Wk_of_ne m ρ c main_arg2 (by decide)
    _ = Wl m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem Wo_main_arg3 (c : Dev nD) : Wo m ρ c (Proc.devRef .tc main_arg3) = m ((c : Thread nD τ).loc main_arg3) :=
  calc Wo m ρ c (Proc.devRef .tc main_arg3)
    _ = Wk m ρ c (Proc.devRef .tc main_arg3) := Wo_of_ne m ρ c main_arg3 (by decide)
    _ = Wh m ρ c (Proc.devRef .tc main_arg3) := Wk_of_ne m ρ c main_arg3 (by decide)
    _ = Wl m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem Wo_main_arg4 (c : Dev nD) : Wo m ρ c (Proc.devRef .tc main_arg4) = m ((c : Thread nD τ).loc main_arg4) :=
  calc Wo m ρ c (Proc.devRef .tc main_arg4)
    _ = Wk m ρ c (Proc.devRef .tc main_arg4) := Wo_of_ne m ρ c main_arg4 (by decide)
    _ = Wh m ρ c (Proc.devRef .tc main_arg4) := Wk_of_ne m ρ c main_arg4 (by decide)
    _ = Wl m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem Wo_main_arg5 (c : Dev nD) : Wo m ρ c (Proc.devRef .tc main_arg5) = m ((c : Thread nD τ).loc main_arg5) :=
  calc Wo m ρ c (Proc.devRef .tc main_arg5)
    _ = Wk m ρ c (Proc.devRef .tc main_arg5) := (Wo_arr m ρ c 4).trans (((dat1 (Vk m ρ) c).arrAt_in 4 rfl _).trans (A_eq1 (Vk m ρ) c 4))
    _ = Wh m ρ c (Proc.devRef .tc main_arg5) := Wk_of_ne m ρ c main_arg5 (by decide)
    _ = Wl m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 2) → (pcfgs (F := F) p).Adm := fun p => (cfgs p).toPCfg_adm
/-- Each pipeline's proof data at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (Vh m ρ) c
  | ⟨1, _⟩ => fun c => dat1 (Vk m ρ) c
abbrev 𝒱₀ : Variants := Variants.none
abbrev L : GSem nD τ sig → Finset Unit := fun _ => ∅
abbrev lv : GSem nD τ sig → Unit → ℕ := fun _ _ => 0
/-- Beside the buffers through every segment: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wo m ρ c) ∗ ∃ r, prngReg c r)

/-! ## The regions as segments

The first region's invariant carries the accumulator scratch from point to point; it is the scoped rest before the first point
(`hin0`) and gives the scoped rest back after the last (`hout0`). The second region's invariant is the scoped rest throughout. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vh m ρ) c).loose
  hwaits := Pipeline.hwaits_of_owed_zero _ _ _ _ L lv 0 fun _ _ => rfl
  pre c := iprop(StableHlo.held (c : Thread nD τ) (Pipeline.ucRefs τ sig) (Wh m ρ c) ∗ R c)
  post c := iprop(StableHlo.held (c : Thread nD τ) (Pipeline.ucRefs τ sig) (Wk m ρ c) ∗ R c)
  X c := iprop(∃ r, prngReg c r)
  Y c := iprop(∃ r, prngReg c r)
  Z c := Pipeline.unscopedRest (Ix := Unit) (Name := ℕ) (U := UR sig nD τ) (Lvl := ℕ) spec0 c (Vh m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vh m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Vh m ρ) c)
    unfold Pipeline.ΦA
    iintro ⟨Hp, -, Hr⟩
    isplitl [Hr]; · iexact Hr
    iexact Hp
  hout c := by
    rw [Pipeline.ownSems0_none]
    refine .trans (hout0 (Vh m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vh m ρ c) (Vk m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vk m ρ) c).loose
  hwaits := Pipeline.hwaits_of_owed_zero _ _ _ _ L lv 1 fun _ _ => rfl
  pre c := iprop(StableHlo.held (c : Thread nD τ) (Pipeline.ucRefs τ sig) (Wk m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vk m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vk m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vk m ρ c) (Vo m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (Wl m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main from `m` with zero counters terminates, nothing faulting, and every final state holds
    each unscoped buffer of each core at the last boundary's contents `Wo`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wo m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl m ρ c)
        from Pipeline.unscopedBufs_held c (Wl m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wo m ρ c b)
    (hfin := fun c s' => by
      iintro ⟨⟨Hh, -⟩, HSI⟩
      unfold StableHlo.held
      imodintro
      iapply (pointsTo_read_all (Pipeline.ucRefs τ sig) (fun b => (((c : Thread nD τ)).1, b)) (Wo m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (Wo_main_arg0 m ρ c),
     (h c _ (mem_uc main_arg1 (by decide))).trans (Wo_main_arg1 m ρ c),
     (h c _ (mem_uc main_arg2 (by decide))).trans (Wo_main_arg2 m ρ c),
     (h c _ (mem_uc main_arg3 (by decide))).trans (Wo_main_arg3 m ρ c),
     (h c _ (mem_uc main_arg4 (by decide))).trans (Wo_main_arg4 m ρ c),
     (h c _ (mem_uc main_arg5 (by decide))).trans (Wo_main_arg5 m ρ c)⟩) (run_all m ρ)

/-- The run with the result array named: `main_v10` ends at what the second region's write-backs leave. -/
theorem run_value : θ_run defs (onTc (τ := τ) (main (F := F))) ⟨m, fun _ => 0, ρ⟩ (fun r => ∀ c : Dev nD,
      r.2.mem ((c.tc : Thread nD τ).loc main_v10) = (dat1 (Vk m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v10 (by decide))).trans (Wo_arr m ρ c 5),
     (h c _ (mem_uc main_arg0 (by decide))).trans (Wo_main_arg0 m ρ c),
     (h c _ (mem_uc main_arg1 (by decide))).trans (Wo_main_arg1 m ρ c),
     (h c _ (mem_uc main_arg2 (by decide))).trans (Wo_main_arg2 m ρ c),
     (h c _ (mem_uc main_arg3 (by decide))).trans (Wo_main_arg3 m ρ c),
     (h c _ (mem_uc main_arg4 (by decide))).trans (Wo_main_arg4 m ρ c),
     (h c _ (mem_uc main_arg5 (by decide))).trans (Wo_main_arg5 m ρ c)⟩) (run_all m ρ)

end Cert.KernelIdeal.Fr

end
-- ==== Proof.IdealHost.lean ====
import proofs.«175350_j39178691674142_1_alg».proof.Proof.Gen.KernelIdeal.Launch
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Fr

open Cert.KernelIdeal Cert.KernelIdeal.Gen
open Idealize.ShloMosaic Idealize.ShloMosaic.TcCoe Idealize.ShloMosaic.ValueIdx Idealize.SL.Sem

/-! # What the host operations leave, at the ideal instance

Before the first region @main rounds `x` to bf16 (`main_v0`) and transposes and rounds each weight matrix
(`main_v2`, `main_v4`, `main_v6`, `main_v8`). On the extended reals rounding is the identity, so `main_v0` is `x` and
each transposed weight at `(a, b)` is the weight at `(b, a)`. -/

variable (W : Valuation τ sig (Elt Ideal))

/-- A transposed square matrix read at an index. -/
theorem transpose_sq_apply (x : S1024x1024.Idx → EReal) (a b : Fin 1024) :
    transpose S1024x1024 [1, 0] x transposes_S1024x1024_S1024x1024_1_0 (ix2 a b) = x (ix2 b a) :=
  transpose_apply [1, 0] x transposes_S1024x1024_S1024x1024_1_0 (ix2 a b) (ix2 b a) (fun i => by
    match i with
    | ⟨0, _⟩ => rfl
    | ⟨1, _⟩ => rfl)

/-- The rounded copy of `x` is `x`. -/
theorem host_v0 : (StableHlo.after hostOps0 W (Proc.devRef .tc main_v0) : S4x4096x1024.Idx → EReal)
    = (W (Proc.devRef .tc main_arg0) : S4x4096x1024.Idx → EReal) := by
  after_results; rfl

/-- The transposed, rounded first weight. -/
theorem host_v2 (a b : Fin 1024) : (StableHlo.after hostOps0 W (Proc.devRef .tc main_v2) : S1024x1024.Idx → EReal) (ix2 a b)
    = (W (Proc.devRef .tc main_arg1) : S1024x1024.Idx → EReal) (ix2 b a) := by
  have e : (StableHlo.after hostOps0 W (Proc.devRef .tc main_v2) : S1024x1024.Idx → EReal)
      = transpose S1024x1024 [1, 0] (W (Proc.devRef .tc main_arg1) : S1024x1024.Idx → EReal) transposes_S1024x1024_S1024x1024_1_0 := by
    after_results; rfl
  rw [e]; exact transpose_sq_apply _ a b

theorem host_v4 (a b : Fin 1024) : (StableHlo.after hostOps0 W (Proc.devRef .tc main_v4) : S1024x1024.Idx → EReal) (ix2 a b)
    = (W (Proc.devRef .tc main_arg2) : S1024x1024.Idx → EReal) (ix2 b a) := by
  have e : (StableHlo.after hostOps0 W (Proc.devRef .tc main_v4) : S1024x1024.Idx → EReal)
      = transpose S1024x1024 [1, 0] (W (Proc.devRef .tc main_arg2) : S1024x1024.Idx → EReal) transposes_S1024x1024_S1024x1024_1_0 := by
    after_results; rfl
  rw [e]; exact transpose_sq_apply _ a b

theorem host_v6 (a b : Fin 1024) : (StableHlo.after hostOps0 W (Proc.devRef .tc main_v6) : S1024x1024.Idx → EReal) (ix2 a b)
    = (W (Proc.devRef .tc main_arg3) : S1024x1024.Idx → EReal) (ix2 b a) := by
  have e : (StableHlo.after hostOps0 W (Proc.devRef .tc main_v6) : S1024x1024.Idx → EReal)
      = transpose S1024x1024 [1, 0] (W (Proc.devRef .tc main_arg3) : S1024x1024.Idx → EReal) transposes_S1024x1024_S1024x1024_1_0 := by
    after_results; rfl
  rw [e]; exact transpose_sq_apply _ a b

theorem host_v8 (a b : Fin 1024) : (StableHlo.after hostOps0 W (Proc.devRef .tc main_v8) : S1024x1024.Idx → EReal) (ix2 a b)
    = (W (Proc.devRef .tc main_arg4) : S1024x1024.Idx → EReal) (ix2 b a) := by
  have e : (StableHlo.after hostOps0 W (Proc.devRef .tc main_v8) : S1024x1024.Idx → EReal)
      = transpose S1024x1024 [1, 0] (W (Proc.devRef .tc main_arg4) : S1024x1024.Idx → EReal) transposes_S1024x1024_S1024x1024_1_0 := by
    after_results; rfl
  rw [e]; exact transpose_sq_apply _ a b

/-- The bias is not written by any host operation. -/
theorem host_arg5 : StableHlo.after hostOps0 W (Proc.devRef .tc main_arg5) = W (Proc.devRef .tc main_arg5) := by
  after_results

end Cert.KernelIdeal.Fr

end
-- ==== Proof.Spec.lean ====
/-
  The specification of the linear-attention layer, index by index on the extended reals, over literal shapes.
  With x : [4, 4096, 1024], Wq, Wk, Wv, Wo : [1024, 1024], bo : [1024], 16 heads of width 64 (feature o = h * 64 + d):
    proj x W b n o   = sum over c of x[b, n, c] * W[o, c]                                   (a linear layer, y = x W^T)
    kv b h d e       = (sum over n of k[b, n, h*64+d] * v[b, n, h*64+e]) * 0.125             (0.125 = 64^(-1/2))
    att b n h e      = sum over d of q[b, n, h*64+d] * kv b h d e
    Gat b n o        = (sum over h, e of att b n h e * Wo[o, h*64+e]) + bo[o]
  and G is Gat as a function of a rank-3 index.
-/
import Idealize.ShloMosaic.PureOps.Ideal
import Idealize.ShloMosaic.Lib.ValueIdx

noncomputable section

open scoped BigOperators

namespace Cert.Att

open Idealize.ShloMosaic Idealize.ShloMosaic.ValueIdx

abbrev SX : Shape := ⟨3, ![4, 4096, 1024]⟩
abbrev SW : Shape := ⟨2, ![1024, 1024]⟩
abbrev SB : Shape := ⟨1, ![1024]⟩

/-- Feature index of coordinate `d` of head `h`: 16 heads of width 64 laid side by side. -/
def hd (h : Fin 16) (d : Fin 64) : Fin 1024 := ⟨h.val * 64 + d.val, by omega⟩

/-- A linear layer at one output element: `(x W^T)[b, n, o]`. -/
def proj (x : SX.Idx → EReal) (W : SW.Idx → EReal) (b : Fin 4) (n : Fin 4096) (o : Fin 1024) : EReal :=
  ∑ c : Fin 1024, x (ix3 b n c) * W (ix2 o c)

/-- The key-value summary of head `h` of batch `b`: `(K^T V)[d, e]` scaled by `0.125`. -/
def kv (x : SX.Idx → EReal) (Wk Wv : SW.Idx → EReal) (b : Fin 4) (h : Fin 16) (d e : Fin 64) : EReal :=
  (∑ n : Fin 4096, proj x Wk b n (hd h d) * proj x Wv b n (hd h e)) * Ideal.ofBits .f32 0x3E000000#32

/-- The attention output of head `h` at position `n`: `(Q (K^T V))[n, e]`. -/
def att (x : SX.Idx → EReal) (Wq Wk Wv : SW.Idx → EReal) (b : Fin 4) (n : Fin 4096) (h : Fin 16) (e : Fin 64) : EReal :=
  ∑ d : Fin 64, proj x Wq b n (hd h d) * kv x Wk Wv b h d e

/-- The output projection with its bias, at one element. -/
def Gat (x : SX.Idx → EReal) (Wq Wk Wv Wo : SW.Idx → EReal) (bo : SB.Idx → EReal) (b : Fin 4) (n : Fin 4096) (o : Fin 1024) : EReal :=
  (∑ h : Fin 16, ∑ e : Fin 64, att x Wq Wk Wv b n h e * Wo (ix2 o (hd h e))) + bo (ix1 o)

/-- The layer's result as one function of the argument arrays. -/
def G (x : SX.Idx → EReal) (Wq Wk Wv Wo : SW.Idx → EReal) (bo : SB.Idx → EReal) : SX.Idx → EReal :=
  fun i => Gat x Wq Wk Wv Wo bo (i 0) (i 1) (i 2)

theorem G_ix3 (x : SX.Idx → EReal) (Wq Wk Wv Wo : SW.Idx → EReal) (bo : SB.Idx → EReal) (b : Fin 4) (n : Fin 4096) (o : Fin 1024) :
    G x Wq Wk Wv Wo bo (ix3 b n o) = Gat x Wq Wk Wv Wo bo b n o := rfl

theorem hd_val (h : Fin 16) (d : Fin 64) : (hd h d).val = h.val * 64 + d.val := rfl

/-- A feature index is a head and a coordinate within the head. -/
def hdEquiv : Fin 16 × Fin 64 ≃ Fin 1024 where
  toFun p := hd p.1 p.2
  invFun k := (⟨k.val / 64, by omega⟩, ⟨k.val % 64, by omega⟩)
  left_inv p := by
    obtain ⟨h, d⟩ := p
    refine Prod.ext (Fin.ext ?_) (Fin.ext ?_)
    · show (h.val * 64 + d.val) / 64 = h.val
      omega
    · show (h.val * 64 + d.val) % 64 = d.val
      omega
  right_inv k := by
    refine Fin.ext ?_
    show k.val / 64 * 64 + k.val % 64 = k.val
    omega

/-- A sum over the 1024 features is the double sum over heads and coordinates. -/
theorem sum_hd {M : Type*} [AddCommMonoid M] (f : Fin 1024 → M) :
    ∑ k : Fin 1024, f k = ∑ h : Fin 16, ∑ d : Fin 64, f (hd h d) := by
  rw [← Equiv.sum_comp hdEquiv f, Fintype.sum_prod_type]
  rfl

end Cert.Att

end
-- ==== Proof.LibBlocks.lean ====
/-
  A sum over `a · b` consecutive indices, block by block.
-/
import Mathlib.Algebra.BigOperators.Fin
import Mathlib.Logic.Equiv.Fin.Basic

namespace Cert.LibBlocks

open Finset

/-- A sum over `Fin (a * b)` is the sum, over the `a` blocks of `b` consecutive indices, of the sums over each
    block: index `n + b * s` is element `n` of block `s`. -/
theorem sum_fin_mul {M : Type*} [AddCommMonoid M] (a b : ℕ) (g : Fin (a * b) → M) :
    ∑ N, g N = ∑ s : Fin a, ∑ n : Fin b, g (finProdFinEquiv (s, n)) := by
  rw [← Equiv.sum_comp (finProdFinEquiv (m := a) (n := b)) g, Fintype.sum_prod_type]

/-- The index `finProdFinEquiv` names. -/
theorem finProdFinEquiv_val {a b : ℕ} (s : Fin a) (n : Fin b) : (finProdFinEquiv (s, n)).val = n.val + b * s.val := rfl

end Cert.LibBlocks
-- ==== Proof.IdealKvAcc.lean ====
import Idealize.ShloMosaic.Lib.Pipeline.Value
import proofs.«175350_j39178691674142_1_alg».proof.Proof.LibBlocks

namespace Cert.KernelIdeal.Acc

open Idealize.ShloMosaic Finset

/-! # Accumulating over the eight row tiles of a batch

A quantity indexed by the 32 grid points that restarts as `0 + T n` at the first tile of each batch (`n % 8 = 0`) and adds
`T n` to what the point before left at every other tile is, at the last tile `8q + 7` of batch `q`, `0` plus the sum of the
eight tiles' terms. Only a commutative additive monoid is needed. -/

theorem acc_tiles {ι : Type} {β : Type} [AddCommMonoid β] (S : (n : ℕ) → n < 32 → ι → β) (T : ℕ → ι → β)
    (h0 : ∀ (n : ℕ) (h : n < 32), n % 8 = 0 → ∀ i, S n h i = 0 + T n i)
    (hs : ∀ (n : ℕ) (h : n + 1 < 32), ¬ (n + 1) % 8 = 0 → ∀ i, S (n + 1) h i = S n (Nat.lt_of_succ_lt h) i + T (n + 1) i)
    (q : ℕ) (hq : 8 * q + 7 < 32) (i : ι) :
    S (8 * q + 7) hq i = 0 + ∑ s ∈ Finset.range 8, T (8 * q + s) i := by
  have e := Pipeline.eq_accAt (N := 32) S 8 (fun n _ => fun i => 0 + T n i) (fun n _ acc => fun i => acc i + T n i)
    (fun n h hn => funext fun i => h0 n h hn i) (fun n h hn => funext fun i => hs n h hn i) q 7 (by decide) hq
  rw [e]
  exact Pipeline.accAt_add_apply (N := 32) (fun n _ => fun i => 0 + T n i) (fun n _ acc => fun i => acc i + T n i)
    (fun _ => 0) T (8 * q) 7 (fun _ _ => rfl) (fun _ _ _ _ _ _ => rfl) 7 le_rfl hq i

/-- The eight tiles of 512 rows are the 4096 rows: row `r` of tile `s` is row `r + 512 s`. -/
theorem sum_tiles {M : Type*} [AddCommMonoid M] (f : Fin 4096 → M) :
    ∑ n : Fin 4096, f n = ∑ s : Fin 8, ∑ r : Fin 512, f ⟨r.val + 512 * s.val, by have := r.isLt; have := s.isLt; omega⟩ :=
  (Cert.LibBlocks.sum_fin_mul 8 512 f).trans
    (Finset.sum_congr rfl fun s _ => Finset.sum_congr rfl fun r _ => congrArg f (Fin.ext rfl))

end Cert.KernelIdeal.Acc
-- ==== Proof.IdealKvSpec.lean ====
import proofs.«175350_j39178691674142_1_alg».proof.Proof.Spec
import proofs.«175350_j39178691674142_1_alg».proof.Proof.IdealKvAcc

noncomputable section

namespace Cert.Att

open Idealize.ShloMosaic Idealize.ShloMosaic.ValueIdx Finset

/-! # What the first region accumulates

For one row tile `x0` (512 rows of one batch) and the transposed key and value weights `x1`, `x2`, head `h`'s `64 × 64`
contribution is `Σ_r k(r, h·64+d) · v(r, h·64+e)` with `k = x0 · x1`, `v = x0 · x2`. The region adds the eight tiles of a batch
to zero and scales by `1/8`; that is the reference's `kᵀv · 64^(-1/2)` because the eight tiles of 512 rows are the 4096 rows. -/

abbrev ST : Shape := ⟨3, ![1, 512, 1024]⟩

/-- One tile's contribution to head `h` at `(d, e)`. -/
def tile (x0 : ST.Idx → EReal) (x1 x2 : SW.Idx → EReal) (h : Fin 16) (d e : Fin 64) : EReal :=
  ∑ r : Fin 512, (∑ k : Fin 1024, x0 (ix3 0 r k) * x1 (ix2 k (hd h d))) * (∑ k : Fin 1024, x0 (ix3 0 r k) * x2 (ix2 k (hd h e)))

/-- Row `r` of tile `s` of the 4096 rows. -/
def row (s : Fin 8) (r : Fin 512) : Fin 4096 := ⟨r.val + 512 * s.val, by have := r.isLt; have := s.isLt; omega⟩

/-- The tile `s` of batch `b` of `x`. -/
def tileOf (x : SX.Idx → EReal) (b : Fin 4) (s : Fin 8) : ST.Idx → EReal := fun y => x (ix3 b (row s (y 1)) (y 2))

/-- What the first region leaves at `(b, h, d, e)`: zero plus the eight tiles' contributions, scaled. -/
def KV0at (x : SX.Idx → EReal) (wk wv : SW.Idx → EReal) (b : Fin 4) (h : Fin 16) (d e : Fin 64) : EReal :=
  (0 + ∑ s : Fin 8, tile (tileOf x b s) wk wv h d e) * Ideal.ofBits .f32 0x3E000000#32

/-- With the weights transposed it is the reference's scaled `kᵀv`. -/
theorem KV0at_eq_kv (x : SX.Idx → EReal) (Wk Wv wk wv : SW.Idx → EReal)
    (hk : ∀ a b : Fin 1024, wk (ix2 a b) = Wk (ix2 b a)) (hv : ∀ a b : Fin 1024, wv (ix2 a b) = Wv (ix2 b a))
    (b : Fin 4) (h : Fin 16) (d e : Fin 64) : KV0at x wk wv b h d e = kv x Wk Wv b h d e := by
  unfold KV0at kv
  rw [zero_add, Cert.KernelIdeal.Acc.sum_tiles]
  refine congrArg (· * _) ?_
  refine Finset.sum_congr rfl fun s _ => ?_
  unfold tile
  refine Finset.sum_congr rfl fun r _ => ?_
  unfold proj
  simp only [hk, hv]
  rfl

end Cert.Att

end
-- ==== Proof.IdealKvPay.lean ====
/-
  The payloads of the key-value kernel, read at an index, on the extended reals.
  With a block x : [1, 512, 1024] of activations and transposed weights WkT, WvT : [1024, 1024]:
    k[r, o] = sum over c of x[0, r, c] * WkT[c, o]        and v likewise with WvT          (the two projections),
    head h updates its [1, 64, 64] accumulator block by   prev[0, d, e] + sum over r of k[r, h*64+d] * v[r, h*64+e],
    the stored result is the [16, 64, 64] accumulator times 0.125, and the accumulator starts at zero.
  Each is stated once for a general column offset / operand, then instantiated at the sixteen heads.
-/
import proofs.«175350_j39178691674142_1_alg».proof.Proof.Gen.KernelIdeal.Skeleton
import proofs.«175350_j39178691674142_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- A slice of 64 columns starting at the first column of head `h` reads the operand at that head's feature index. -/
theorem slice_apply (off : Nat) (h : Fin 16) (hoff : off = h.val * 64) (v : FVec Ideal S512x1024 .bf16)
    (hs : S512x1024.Slices ![0, off] S512x64) (r : Fin 512) (d : Fin 64) :
    extractStridedSlice S512x64 ![0, off] v hs (ix2 r d) = v (ix2 r (Cert.Att.hd h d)) := by
  subst hoff
  refine extractStridedSlice_apply ![0, h.val * 64] v hs (ix2 r d) (ix2 r (Cert.Att.hd h d)) fun a => ?_
  match a with
  | ⟨0, _⟩ => exact (Nat.zero_add _).symm
  | ⟨1, _⟩ => rfl

/-- The non-contracted (column) coordinate of the left operand's index is the output's row coordinate. -/
theorem kv_lhs_1 (j : S64x64.Idx) (q : dot_S512x64_S512x64_S64x64_0_0_1_1_n_n.contr.Idx) :
    (dot_S512x64_S512x64_S64x64_0_0_1_1_n_n.lhsIdx j q 1).val = (j 0).val := by
  unfold DotDims.lhsIdx
  rw [dif_neg (show ¬(1 : Fin S512x64.rank) ∈ dot_S512x64_S512x64_S64x64_0_0_1_1_n_n.lhsBatch by decide), dif_pos (show (1 : Fin S512x64.rank) ∈ dot_S512x64_S512x64_S64x64_0_0_1_1_n_n.lhsNonContracting by decide)]
  rfl
/-- The non-contracted (column) coordinate of the right operand's index is the output's column coordinate. -/
theorem kv_rhs_1 (j : S64x64.Idx) (q : dot_S512x64_S512x64_S64x64_0_0_1_1_n_n.contr.Idx) :
    (dot_S512x64_S512x64_S64x64_0_0_1_1_n_n.rhsIdx j q 1).val = (j 1).val := by
  unfold DotDims.rhsIdx
  rw [dif_neg (show ¬(1 : Fin S512x64.rank) ∈ dot_S512x64_S512x64_S64x64_0_0_1_1_n_n.rhsBatch by decide), dif_pos (show (1 : Fin S512x64.rank) ∈ dot_S512x64_S512x64_S64x64_0_0_1_1_n_n.rhsNonContracting by decide)]
  rfl

/-- The product that contracts the row axis of both operands, into the zero accumulator: the sum over the rows. -/
theorem kv_matmul_apply (a b : FVec Ideal S512x64 .bf16) (d e : Fin 64) :
    matmul dot_S512x64_S512x64_S64x64_0_0_1_1_n_n none a b (constant (F := Ideal) S64x64 .f32 0x00000000#32) (ix2 d e)
      = ∑ r : Fin 512, a (ix2 r d) * b (ix2 r e) := by
  simp only [matmul]
  rw [Ideal.matmul_constant_zero_apply, ← Equiv.sum_comp (contrEquiv1 dot_S512x64_S512x64_S64x64_0_0_1_1_n_n 512 rfl rfl).symm]
  refine Finset.sum_congr rfl fun k _ => ?_
  have hk := contrEquiv1_symm_val dot_S512x64_S512x64_S64x64_0_0_1_1_n_n 512 rfl rfl k
  have el : dot_S512x64_S512x64_S64x64_0_0_1_1_n_n.lhsIdx (ix2 d e) ((contrEquiv1 dot_S512x64_S512x64_S64x64_0_0_1_1_n_n 512 rfl rfl).symm k) = ix2 k d := funext fun a => Fin.ext (by
    match a with
    | ⟨0, _⟩ => exact (dot_S512x64_S512x64_S64x64_0_0_1_1_n_n.lhsIdx_val_of_single rfl _ _).trans hk
    | ⟨1, _⟩ => exact kv_lhs_1 _ _)
  have er : dot_S512x64_S512x64_S64x64_0_0_1_1_n_n.rhsIdx (ix2 d e) ((contrEquiv1 dot_S512x64_S512x64_S64x64_0_0_1_1_n_n 512 rfl rfl).symm k) = ix2 k e := funext fun a => Fin.ext (by
    match a with
    | ⟨0, _⟩ => exact (dot_S512x64_S512x64_S64x64_0_0_1_1_n_n.rhsIdx_val_of_single rfl _ _).trans hk
    | ⟨1, _⟩ => exact kv_rhs_1 _ _)
  rw [el, er]

/-- The non-contracted (row) coordinate of the left operand's index is the output's row coordinate. -/
theorem proj_lhs_0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- The non-contracted (column) coordinate of the right operand's index is the output's column coordinate. -/
theorem proj_rhs_1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The rows-by-columns product into the zero accumulator: the sum over the shared axis. -/
theorem proj_matmul_apply (a : FVec Ideal S512x1024 .bf16) (b : FVec Ideal S1024x1024 .bf16) (r : Fin 512) (o : Fin 1024) :
    matmul dot_S512x1024_S1024x1024_S512x1024_1_0_0_1_n_n none a b (constant (F := Ideal) S512x1024 .f32 0x00000000#32) (ix2 r o)
      = ∑ c : Fin 1024, a (ix2 r c) * b (ix2 c o) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r o) ((contrEquiv1 dot_S512x1024_S1024x1024_S512x1024_1_0_0_1_n_n 1024 rfl rfl).symm k) = ix2 r k := funext fun a => Fin.ext (by
    match a with
    | ⟨0, _⟩ => exact proj_lhs_0 _ _
    | ⟨1, _⟩ => exact (dot_S512x1024_S1024x1024_S512x1024_1_0_0_1_n_n.lhsIdx_val_of_single rfl _ _).trans hk)
  have er : dot_S512x1024_S1024x1024_S512x1024_1_0_0_1_n_n.rhsIdx (ix2 r o) ((contrEquiv1 dot_S512x1024_S1024x1024_S512x1024_1_0_0_1_n_n 1024 rfl rfl).symm k) = ix2 k o := funext fun a => Fin.ext (by
    match a with
    | ⟨0, _⟩ => exact (dot_S512x1024_S1024x1024_S512x1024_1_0_0_1_n_n.rhsIdx_val_of_single rfl _ _).trans hk
    | ⟨1, _⟩ => exact proj_rhs_1 _ _)
  rw [el, er]

/-- Dropping the leading unit axis of a [1, 64, 64] block reads (0, d, e) at (d, e). -/
theorem drop_apply {n0 n1 : Nat} {α : Type} (v : (⟨3, ![1, n0, n1]⟩ : Shape).Idx → α)
    (h : (⟨3, ![1, n0, n1]⟩ : Shape).ShapeCasts ⟨2, ![n0, n1]⟩) (d : Fin n0) (e : Fin n1) :
    shapeCast ⟨2, ![n0, n1]⟩ v h (ix2 d e) = v (ix3 0 d e) := by
  refine (shapeCast_dropUnit_apply ![n0, n1] v h (ix2 d e)).trans (congrArg v (funext fun a => ?_))
  match a with
  | ⟨0, _⟩ => rfl
  | ⟨1, _⟩ => rfl
  | ⟨2, _⟩ => rfl

/-- Adding a leading unit axis to a [64, 64] value reads (d, e) at (0, d, e). -/
theorem add_apply {n0 n1 : Nat} {α : Type} (v : (⟨2, ![n0, n1]⟩ : Shape).Idx → α)
    (h : (⟨2, ![n0, n1]⟩ : Shape).ShapeCasts ⟨3, ![1, n0, n1]⟩) (d : Fin n0) (e : Fin n1) :
    shapeCast ⟨3, ![1, n0, n1]⟩ v h (ix3 0 d e) = v (ix2 d e) := by
  refine (shapeCast_addUnit_apply ![n0, n1] v h (ix3 0 d e)).trans (congrArg v (funext fun a => ?_))
  match a with
  | ⟨0, _⟩ => rfl
  | ⟨1, _⟩ => rfl

/-- The accumulator update of one head: the previous block plus the head's product, element by element. -/
theorem update_apply (prev : FVec Ideal S1x64x64 .f32) (kvh : FVec Ideal S64x64 .f32)
    (h1 : S1x64x64.ShapeCasts S64x64) (h2 : S64x64.ShapeCasts S1x64x64) (d e : Fin 64) :
    shapeCast S1x64x64 (addf (shapeCast S64x64 prev h1) kvh) h2 (ix3 0 d e) = prev (ix3 0 d e) + kvh (ix2 d e) := by
  rw [add_apply, addf_apply, drop_apply]

/-- One head's update with its product written out: the previous block plus the sum over the rows of the two
    projections at the head's feature indices. -/
theorem head_apply (off : Nat) (h : Fin 16) (hoff : off = h.val * 64) (hs : S512x1024.Slices ![0, off] S512x64)
    (h1 : S1x64x64.ShapeCasts S64x64) (h2 : S64x64.ShapeCasts S1x64x64)
    (v11 v12 : FVec Ideal S512x1024 .bf16) (prev : FVec Ideal S1x64x64 .f32) (d e : Fin 64) :
    shapeCast S1x64x64 (addf (shapeCast S64x64 prev h1)
        (matmul dot_S512x64_S512x64_S64x64_0_0_1_1_n_n none (extractStridedSlice S512x64 ![0, off] v11 hs)
          (extractStridedSlice S512x64 ![0, off] v12 hs) (constant (F := Ideal) S64x64 .f32 0x00000000#32))) h2 (ix3 0 d e)
      = prev (ix3 0 d e) + ∑ r : Fin 512, v11 (ix2 r (Cert.Att.hd h d)) * v12 (ix2 r (Cert.Att.hd h e)) := by
  rw [update_apply, kv_matmul_apply]
  refine congrArg (prev (ix3 0 d e) + ·) (Finset.sum_congr rfl fun r _ => ?_)
  rw [slice_apply off h hoff v11 hs r d, slice_apply off h hoff v12 hs r e]

/-- Adding a leading unit axis to a rank-3 value reads (a, b, c) at (0, a, b, c). -/
theorem add4_apply {n0 n1 n2 : Nat} {α : Type} (v : (⟨3, ![n0, n1, n2]⟩ : Shape).Idx → α)
    (h : (⟨3, ![n0, n1, n2]⟩ : Shape).ShapeCasts ⟨4, ![1, n0, n1, n2]⟩) (a : Fin n0) (b : Fin n1) (c : Fin n2) :
    shapeCast ⟨4, ![1, n0, n1, n2]⟩ v h (ix4 0 a b c) = v (ix3 a b c) := by
  refine (shapeCast_addUnit_apply ![n0, n1, n2] v h (ix4 0 a b c)).trans (congrArg v (funext fun x => ?_))
  match x with
  | ⟨0, _⟩ => rfl
  | ⟨1, _⟩ => rfl
  | ⟨2, _⟩ => rfl

/-! ## The payloads of the first kernel, read at an index -/

/-- The key projection of the block: row `r` of the activations against column `o` of the (transposed) weight. -/
theorem proj_k_apply (v3 : Vec Ideal S1x512x1024 .bf16) (v5 : Vec Ideal S1024x1024 .bf16) (r : Fin 512) (o : Fin 1024) :
    k0_pay4 v3 v5 (ix2 r o) = ∑ c : Fin 1024, v3 (ix3 0 r c) * v5 (ix2 c o) := by
  unfold k0_pay4 k0_pay3
  dsimp only
  rw [truncf_apply, shapeCast_self, proj_matmul_apply]
  refine Finset.sum_congr rfl fun c _ => ?_
  rw [drop_apply]

/-- The value projection of the block, likewise. -/
theorem proj_v_apply (v3 : Vec Ideal S1x512x1024 .bf16) (v7 : Vec Ideal S1024x1024 .bf16) (r : Fin 512) (o : Fin 1024) :
    k0_pay5 v3 v7 (ix2 r o) = ∑ c : Fin 1024, v3 (ix3 0 r c) * v7 (ix2 c o) := by
  unfold k0_pay5 k0_pay3
  dsimp only
  rw [truncf_apply, shapeCast_self, proj_matmul_apply]
  refine Finset.sum_congr rfl fun c _ => ?_
  rw [drop_apply]

/-- Head 0's update of its accumulator block. -/
theorem head_0_apply (v3 : Vec Ideal S1x512x1024 .bf16) (v5 v7 : Vec Ideal S1024x1024 .bf16) (vprev : Vec Ideal S1x64x64 .f32) (d e : Fin 64) :
    k0_pay6 v3 v5 v7 vprev (ix3 0 d e) = vprev (ix3 0 d e)
      + ∑ r : Fin 512, (k0_pay4 v3 v5) (ix2 r (Cert.Att.hd ⟨0, by decide⟩ d)) * (k0_pay5 v3 v7) (ix2 r (Cert.Att.hd ⟨0, by decide⟩ e)) :=
  head_apply 0 ⟨0, by decide⟩ rfl _ _ _ (k0_pay4 v3 v5) (k0_pay5 v3 v7) vprev d e

/-- Head 1's update of its accumulator block. -/
theorem head_1_apply (v3 : Vec Ideal S1x512x1024 .bf16) (v5 v7 : Vec Ideal S1024x1024 .bf16) (vprev : Vec Ideal S1x64x64 .f32) (d e : Fin 64) :
    k0_pay7 v3 v5 v7 vprev (ix3 0 d e) = vprev (ix3 0 d e)
      + ∑ r : Fin 512, (k0_pay4 v3 v5) (ix2 r (Cert.Att.hd ⟨1, by decide⟩ d)) * (k0_pay5 v3 v7) (ix2 r (Cert.Att.hd ⟨1, by decide⟩ e)) :=
  head_apply 64 ⟨1, by decide⟩ rfl _ _ _ (k0_pay4 v3 v5) (k0_pay5 v3 v7) vprev d e

/-- Head 2's update of its accumulator block. -/
theorem head_2_apply (v11 v12 : FVec Ideal S512x1024 .bf16) (vprev : Vec Ideal S1x64x64 .f32) (d e : Fin 64) :
    k0_pay8 v11 v12 vprev (ix3 0 d e) = vprev (ix3 0 d e)
      + ∑ r : Fin 512, v11 (ix2 r (Cert.Att.hd ⟨2, by decide⟩ d)) * v12 (ix2 r (Cert.Att.hd ⟨2, by decide⟩ e)) :=
  head_apply 128 ⟨2, by decide⟩ rfl _ _ _ v11 v12 vprev d e

/-- Head 3's update of its accumulator block. -/
theorem head_3_apply (v11 v12 : FVec Ideal S512x1024 .bf16) (vprev : Vec Ideal S1x64x64 .f32) (d e : Fin 64) :
    k0_pay9 v11 v12 vprev (ix3 0 d e) = vprev (ix3 0 d e)
      + ∑ r : Fin 512, v11 (ix2 r (Cert.Att.hd ⟨3, by decide⟩ d)) * v12 (ix2 r (Cert.Att.hd ⟨3, by decide⟩ e)) :=
  head_apply 192 ⟨3, by decide⟩ rfl _ _ _ v11 v12 vprev d e

/-- Head 4's update of its accumulator block. -/
theorem head_4_apply (v11 v12 : FVec Ideal S512x1024 .bf16) (vprev : Vec Ideal S1x64x64 .f32) (d e : Fin 64) :
    k0_pay10 v11 v12 vprev (ix3 0 d e) = vprev (ix3 0 d e)
      + ∑ r : Fin 512, v11 (ix2 r (Cert.Att.hd ⟨4, by decide⟩ d)) * v12 (ix2 r (Cert.Att.hd ⟨4, by decide⟩ e)) :=
  head_apply 256 ⟨4, by decide⟩ rfl _ _ _ v11 v12 vprev d e

/-- Head 5's update of its accumulator block. -/
theorem head_5_apply (v11 v12 : FVec Ideal S512x1024 .bf16) (vprev : Vec Ideal S1x64x64 .f32) (d e : Fin 64) :
    k0_pay12 (k0_pay11 v11 v12) vprev (ix3 0 d e) = vprev (ix3 0 d e)
      + ∑ r : Fin 512, v11 (ix2 r (Cert.Att.hd ⟨5, by decide⟩ d)) * v12 (ix2 r (Cert.Att.hd ⟨5, by decide⟩ e)) :=
  head_apply 320 ⟨5, by decide⟩ rfl _ _ _ v11 v12 vprev d e

/-- Head 6's update of its accumulator block. -/
theorem head_6_apply (v11 v12 : FVec Ideal S512x1024 .bf16) (vprev : Vec Ideal S1x64x64 .f32) (d e : Fin 64) :
    k0_pay13 v11 v12 vprev (ix3 0 d e) = vprev (ix3 0 d e)
      + ∑ r : Fin 512, v11 (ix2 r (Cert.Att.hd ⟨6, by decide⟩ d)) * v12 (ix2 r (Cert.Att.hd ⟨6, by decide⟩ e)) :=
  head_apply 384 ⟨6, by decide⟩ rfl _ _ _ v11 v12 vprev d e

/-- Head 7's update of its accumulator block. -/
theorem head_7_apply (v11 v12 : FVec Ideal S512x1024 .bf16) (vprev : Vec Ideal S1x64x64 .f32) (d e : Fin 64) :
    k0_pay14 v11 v12 vprev (ix3 0 d e) = vprev (ix3 0 d e)
      + ∑ r : Fin 512, v11 (ix2 r (Cert.Att.hd ⟨7, by decide⟩ d)) * v12 (ix2 r (Cert.Att.hd ⟨7, by decide⟩ e)) :=
  head_apply 448 ⟨7, by decide⟩ rfl _ _ _ v11 v12 vprev d e

/-- Head 8's update of its accumulator block. -/
theorem head_8_apply (v11 v12 : FVec Ideal S512x1024 .bf16) (vprev : Vec Ideal S1x64x64 .f32) (d e : Fin 64) :
    k0_pay15 v11 v12 vprev (ix3 0 d e) = vprev (ix3 0 d e)
      + ∑ r : Fin 512, v11 (ix2 r (Cert.Att.hd ⟨8, by decide⟩ d)) * v12 (ix2 r (Cert.Att.hd ⟨8, by decide⟩ e)) :=
  head_apply 512 ⟨8, by decide⟩ rfl _ _ _ v11 v12 vprev d e

/-- Head 9's update of its accumulator block. -/
theorem head_9_apply (v11 v12 : FVec Ideal S512x1024 .bf16) (vprev : Vec Ideal S1x64x64 .f32) (d e : Fin 64) :
    k0_pay16 v11 v12 vprev (ix3 0 d e) = vprev (ix3 0 d e)
      + ∑ r : Fin 512, v11 (ix2 r (Cert.Att.hd ⟨9, by decide⟩ d)) * v12 (ix2 r (Cert.Att.hd ⟨9, by decide⟩ e)) :=
  head_apply 576 ⟨9, by decide⟩ rfl _ _ _ v11 v12 vprev d e

/-- Head 10's update of its accumulator block. -/
theorem head_10_apply (v11 v12 : FVec Ideal S512x1024 .bf16) (vprev : Vec Ideal S1x64x64 .f32) (d e : Fin 64) :
    k0_pay17 v11 v12 vprev (ix3 0 d e) = vprev (ix3 0 d e)
      + ∑ r : Fin 512, v11 (ix2 r (Cert.Att.hd ⟨10, by decide⟩ d)) * v12 (ix2 r (Cert.Att.hd ⟨10, by decide⟩ e)) :=
  head_apply 640 ⟨10, by decide⟩ rfl _ _ _ v11 v12 vprev d e

/-- Head 11's update of its accumulator block. -/
theorem head_11_apply (v11 v12 : FVec Ideal S512x1024 .bf16) (vprev : Vec Ideal S1x64x64 .f32) (d e : Fin 64) :
    k0_pay18 v11 v12 vprev (ix3 0 d e) = vprev (ix3 0 d e)
      + ∑ r : Fin 512, v11 (ix2 r (Cert.Att.hd ⟨11, by decide⟩ d)) * v12 (ix2 r (Cert.Att.hd ⟨11, by decide⟩ e)) :=
  head_apply 704 ⟨11, by decide⟩ rfl _ _ _ v11 v12 vprev d e

/-- Head 12's update of its accumulator block. -/
theorem head_12_apply (v11 v12 : FVec Ideal S512x1024 .bf16) (vprev : Vec Ideal S1x64x64 .f32) (d e : Fin 64) :
    k0_pay21 (k0_pay19 v11 v12) (k0_pay20 vprev) (ix3 0 d e) = vprev (ix3 0 d e)
      + ∑ r : Fin 512, v11 (ix2 r (Cert.Att.hd ⟨12, by decide⟩ d)) * v12 (ix2 r (Cert.Att.hd ⟨12, by decide⟩ e)) :=
  head_apply 768 ⟨12, by decide⟩ rfl _ _ _ v11 v12 vprev d e

/-- Head 13's update of its accumulator block. -/
theorem head_13_apply (v11 v12 : FVec Ideal S512x1024 .bf16) (vprev : Vec Ideal S1x64x64 .f32) (d e : Fin 64) :
    k0_pay22 v11 v12 vprev (ix3 0 d e) = vprev (ix3 0 d e)
      + ∑ r : Fin 512, v11 (ix2 r (Cert.Att.hd ⟨13, by decide⟩ d)) * v12 (ix2 r (Cert.Att.hd ⟨13, by decide⟩ e)) :=
  head_apply 832 ⟨13, by decide⟩ rfl _ _ _ v11 v12 vprev d e

/-- Head 14's update of its accumulator block. -/
theorem head_14_apply (v11 v12 : FVec Ideal S512x1024 .bf16) (vprev : Vec Ideal S1x64x64 .f32) (d e : Fin 64) :
    k0_pay23 v11 v12 vprev (ix3 0 d e) = vprev (ix3 0 d e)
      + ∑ r : Fin 512, v11 (ix2 r (Cert.Att.hd ⟨14, by decide⟩ d)) * v12 (ix2 r (Cert.Att.hd ⟨14, by decide⟩ e)) :=
  head_apply 896 ⟨14, by decide⟩ rfl _ _ _ v11 v12 vprev d e

/-- Head 15's update of its accumulator block. -/
theorem head_15_apply (v11 v12 : FVec Ideal S512x1024 .bf16) (vprev : Vec Ideal S1x64x64 .f32) (d e : Fin 64) :
    k0_pay24 v11 v12 vprev (ix3 0 d e) = vprev (ix3 0 d e)
      + ∑ r : Fin 512, v11 (ix2 r (Cert.Att.hd ⟨15, by decide⟩ d)) * v12 (ix2 r (Cert.Att.hd ⟨15, by decide⟩ e)) :=
  head_apply 960 ⟨15, by decide⟩ rfl _ _ _ v11 v12 vprev d e

/-- The stored result: the accumulator scaled by one eighth. -/
theorem scale_apply (v160 : Vec Ideal S16x64x64 .f32) (h : Fin 16) (d e : Fin 64) :
    k0_pay1 v160 (ix4 0 h d e) = v160 (ix3 h d e) * Ideal.ofBits .f32 0x3E000000#32 := by
  unfold k0_pay1
  rw [add4_apply, mulf_apply, broadcast_apply]
  rfl

/-- The accumulator's initial value is zero everywhere. -/
theorem zero_apply (h : Fin 16) (d e : Fin 64) : k0_pay2 (F := Ideal) (ix3 h d e) = 0 := by
  unfold k0_pay2
  rw [shapeCast_self, broadcast_apply]
  exact Ideal.ofBits_zero_f32

end Cert.KernelIdeal.Pay
-- ==== Proof.IdealKvPieces.lean ====
/- Region 0 (the key/value accumulation kernel) on the extended reals: what the carried scratch and the output
   window hold after a point, element by element — the scratch is zero (first tile) or what the point before left
   (later tiles) plus the tile's contribution to each head, and the output is the scratch scaled by one eighth. -/
import proofs.«175350_j39178691674142_1_alg».proof.Proof.IdealKvBody
import proofs.«175350_j39178691674142_1_alg».proof.Proof.IdealKvSpec
import proofs.«175350_j39178691674142_1_alg».proof.Proof.IdealKvPay
import Idealize.ShloMosaic.Lib.Pipeline.Value
import Idealize.ShloMosaic.Lib.ValueIdx

-- membership in a rectangle of large extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## Reading a list of head-slice stores at an index -/

/-- A store into head `j`'s slice does not touch an element of another head. -/
theorem canon_head_ne {Val : EltTy → Type} [∀ e, Nonempty (Val e)] {j : ℕ} {inb}
    (w : (Rect.unit (s := S16x64x64) ![j, 0, 0] ![1, 64, 64] inb).shape.Idx → Val .f32) (L : List (View.Piece Val S16x64x64 .f32))
    (h : Fin 16) (hne : h.val ≠ j) (d e : Fin 64) :
    View.canon (⟨Rect.unit (s := S16x64x64) ![j, 0, 0] ![1, 64, 64] inb, w⟩ :: L) (ix3 h d e) = View.canon L (ix3 h d e) := by
  refine View.canon_cons_of_not_mem _ L ?_
  rw [Rect.mem_set_unit]
  intro hm
  have h0 : j ≤ h.val ∧ h.val < j + 1 := hm (0 : Fin 3)
  omega

/-- Under a last store into head `j`'s slice, an element of head `j` reads the store's payload. -/
theorem canon_head_eq {Val : EltTy → Type} [∀ e, Nonempty (Val e)] {j : ℕ} {inb}
    (w : (Rect.unit (s := S16x64x64) ![j, 0, 0] ![1, 64, 64] inb).shape.Idx → Val .f32) (L : List (View.Piece Val S16x64x64 .f32))
    (h : Fin 16) (hj : h.val = j) (d e : Fin 64) :
    View.canon (⟨Rect.unit (s := S16x64x64) ![j, 0, 0] ![1, 64, 64] inb, w⟩ :: L) (ix3 h d e) = w (ix3 0 d e) := by
  have he : (ix3 h d e : S16x64x64.Idx) = (Rect.unit (s := S16x64x64) ![j, 0, 0] ![1, 64, 64] inb).emb (ix3 0 d e) := by
    funext a
    apply Fin.ext
    match a with
    | ⟨0, _⟩ => show h.val = j + 1 * 0; omega
    | ⟨1, _⟩ => show d.val = 0 + 1 * d.val; omega
    | ⟨2, _⟩ => show e.val = 0 + 1 * e.val; omega
  rw [he]
  exact View.canon_cons_emb _ w L _

/-- A load of head `j`'s slice reads, at `(0, d, e)`, the buffer's element `(j, d, e)`. -/
theorem ld_head {Val : EltTy → Type} {j : ℕ} {inb : ∀ a, (![j, 0, 0] : Fin 3 → ℕ) a + (![1, 64, 64] : Fin 3 → ℕ) a ≤ S16x64x64.size a}
    (X : S16x64x64.Idx → Val .f32) (d e : Fin 64) :
    View.ld X (Rect.unit (s := S16x64x64) ![j, 0, 0] ![1, 64, 64] inb) (ix3 0 d e) = X (ix3 ⟨j, inb (0 : Fin 3)⟩ d e) := by
  refine congrArg X ?_
  funext a
  apply Fin.ext
  match a with
  | ⟨0, _⟩ => show j + 1 * 0 = j; omega
  | ⟨1, _⟩ => show 0 + 1 * d.val = d.val; omega
  | ⟨2, _⟩ => show 0 + 1 * e.val = e.val; omega

/-- Rewriting the first summand of a sum. -/
theorem add_congr_first {a b s t : EReal} (h1 : a = b) (h2 : b + s = t) : a + s = t := h1 ▸ h2

/-- The all-zero offsets, as functions. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The index a load of head `j`'s slice reads at `(0, d, e)` is the buffer's `(j, d, e)`. -/
theorem idx_head {j : ℕ} {inb : ∀ a, (![j, 0, 0] : Fin 3 → ℕ) a + (![1, 64, 64] : Fin 3 → ℕ) a ≤ S16x64x64.size a} (d e : Fin 64) :
    (Rect.unit (s := S16x64x64) ![j, 0, 0] ![1, 64, 64] inb).toLoadRect.idx (ix3 0 d e) = ix3 ⟨j, inb (0 : Fin 3)⟩ d e := by
  funext a
  apply Fin.ext
  match a with
  | ⟨0, _⟩ => show j + 1 * 0 = j; omega
  | ⟨1, _⟩ => show 0 + 1 * d.val = d.val; omega
  | ⟨2, _⟩ => show 0 + 1 * e.val = e.val; omega

/-! ## A later tile: the scratch after the body -/

set_option maxHeartbeats 4000000 in
/-- Case B leaves in the scratch, at head `h`'s element `(d, e)`, what it held plus the tile's contribution. -/
theorem sout0_B_apply (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : ¬cond0_1 i)
    (x0 : Vec Ideal S1x512x1024 .bf16) (x1 : Vec Ideal S1024x1024 .bf16) (x2 : Vec Ideal S1024x1024 .bf16) (xs0 : Vec Ideal S16x64x64 .f32)
    (h : Fin 16) (d e : Fin 64) :
    sout0_B_0 c i arg2 harg2 arg3 harg3 arg4 harg4 arg5 harg5 arg6 harg6 hc0 hc1 x0 x1 x2 xs0 (ix3 h d e)
      = xs0 (ix3 h d e) + Cert.Att.tile x0 x1 x2 h d e := by
  unfold sout0_B_0
  rw [View.read_writes_junk_eq_canon]
  unfold kernelRun0_B
  dsimp only
  sl_unfold_run_names
  simp only [View.readAt_eq_ld, harg2.read_unread, harg3.read_unread, harg4.read_unread, harg6.read_unread]
  simp only [View.ld_unit_zero (S := S1x512x1024) hz3, View.ld_unit_zero (S := S1024x1024) hz2]
  fin_cases h
  all_goals (
    dsimp only
    repeat (refine (canon_head_ne _ _ _ (by decide) _ _).trans ?_)
    refine (canon_head_eq _ _ _ (by decide) _ _).trans ?_
    first | rw [Pay.head_0_apply] | rw [Pay.head_1_apply] | rw [Pay.head_2_apply] | rw [Pay.head_3_apply] | rw [Pay.head_4_apply] | rw [Pay.head_5_apply] | rw [Pay.head_6_apply] | rw [Pay.head_7_apply] | rw [Pay.head_8_apply] | rw [Pay.head_9_apply] | rw [Pay.head_10_apply] | rw [Pay.head_11_apply] | rw [Pay.head_12_apply] | rw [Pay.head_13_apply] | rw [Pay.head_14_apply] | rw [Pay.head_15_apply]
    simp only [Pay.proj_k_apply, Pay.proj_v_apply]
    rw [ld_head]
    rfl)

/-! ## The first tile of a batch: the scratch after the body -/

set_option maxHeartbeats 4000000 in
/-- Case A leaves in the scratch, at head `h`'s element `(d, e)`, zero plus the tile's contribution: the head's slice
    is loaded after the zero store and the earlier heads' stores, none of which touches it. -/
theorem sout0_A_apply (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : cond0_0 i) (hc1 : ¬cond0_1 i)
    (x0 : Vec Ideal S1x512x1024 .bf16) (x1 : Vec Ideal S1024x1024 .bf16) (x2 : Vec Ideal S1024x1024 .bf16)
    (h : Fin 16) (d e : Fin 64) :
    sout0_A_0 c i arg2 harg2 arg3 harg3 arg4 harg4 arg5 harg5 arg6 harg6 hc0 hc1 x0 x1 x2 (ix3 h d e)
      = 0 + Cert.Att.tile x0 x1 x2 h d e := by
  unfold sout0_A_0
  rw [View.read_writes_junk_eq_canon]
  unfold kernelRun0_A
  dsimp only
  simp only [kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16]
  fin_cases h
  all_goals (
    dsimp only
    repeat (refine (canon_head_ne _ _ _ (by decide) _ _).trans ?_)
    refine (canon_head_eq _ _ _ (by decide) _ _).trans ?_
    try simp only [kernelRun0_A.sl.r_2, kernelRun0_A.sl.r_3, kernelRun0_A.sl.r_4, kernelRun0_A.sl.r_5]
    first | rw [Pay.head_0_apply] | rw [Pay.head_1_apply] | rw [Pay.head_2_apply] | rw [Pay.head_3_apply] | rw [Pay.head_4_apply] | rw [Pay.head_5_apply] | rw [Pay.head_6_apply] | rw [Pay.head_7_apply] | rw [Pay.head_8_apply] | rw [Pay.head_9_apply] | rw [Pay.head_10_apply] | rw [Pay.head_11_apply] | rw [Pay.head_12_apply] | rw [Pay.head_13_apply] | rw [Pay.head_14_apply] | rw [Pay.head_15_apply]
    simp only [kernelRun0_A.sl.v16, kernelRun0_A.sl.v25, kernelRun0_A.sl.v34, kernelRun0_A.sl.v43, kernelRun0_A.sl.v52, kernelRun0_A.sl.v61, kernelRun0_A.sl.v70, kernelRun0_A.sl.v79, kernelRun0_A.sl.v88, kernelRun0_A.sl.v97, kernelRun0_A.sl.v106, kernelRun0_A.sl.v115, kernelRun0_A.sl.v124, kernelRun0_A.sl.v133, kernelRun0_A.sl.v142, kernelRun0_A.sl.v151]
    simp only [View.readCov_eq_canon', idx_head]
    simp only [kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16]
    refine add_congr_first (b := 0) ?_ ?_
    · repeat (first
        | (rw [View.canon_unit_zero hz3]; exact Pay.zero_apply _ _ _)
        | refine (canon_head_ne _ _ _ (by decide) _ _).trans ?_)
    · try simp only [kernelRun0_A.sl.r, kernelRun0_A.sl.r_1]
      simp only [View.readAt_eq_ld, harg2.read_unread, harg3.read_unread, harg4.read_unread]
      simp only [View.ld_unit_zero (S := S1x512x1024) hz3, View.ld_unit_zero (S := S1024x1024) hz2]
      simp only [Pay.proj_k_apply, Pay.proj_v_apply]
      rfl)

/-! ## The last tile of a batch: the scratch and the output after the body -/

set_option maxHeartbeats 4000000 in
/-- Case C leaves in the scratch, at head `h`'s element `(d, e)`, what it held plus the tile's contribution. -/
theorem sout0_C_apply (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : cond0_1 i)
    (x0 : Vec Ideal S1x512x1024 .bf16) (x1 : Vec Ideal S1024x1024 .bf16) (x2 : Vec Ideal S1024x1024 .bf16) (xs0 : Vec Ideal S16x64x64 .f32)
    (h : Fin 16) (d e : Fin 64) :
    sout0_C_0 c i arg2 harg2 arg3 harg3 arg4 harg4 arg5 harg5 arg6 harg6 hc0 hc1 x0 x1 x2 xs0 (ix3 h d e)
      = xs0 (ix3 h d e) + Cert.Att.tile x0 x1 x2 h d e := by
  unfold sout0_C_0
  rw [View.read_writes_junk_eq_canon]
  unfold kernelRun0_C
  dsimp only
  sl_unfold_run_names
  simp only [View.readAt_eq_ld, harg2.read_unread, harg3.read_unread, harg4.read_unread, harg6.read_unread]
  simp only [View.ld_unit_zero (S := S1x512x1024) hz3, View.ld_unit_zero (S := S1024x1024) hz2]
  fin_cases h
  all_goals (
    dsimp only
    repeat (refine (canon_head_ne _ _ _ (by decide) _ _).trans ?_)
    refine (canon_head_eq _ _ _ (by decide) _ _).trans ?_
    first | rw [Pay.head_0_apply] | rw [Pay.head_1_apply] | rw [Pay.head_2_apply] | rw [Pay.head_3_apply] | rw [Pay.head_4_apply] | rw [Pay.head_5_apply] | rw [Pay.head_6_apply] | rw [Pay.head_7_apply] | rw [Pay.head_8_apply] | rw [Pay.head_9_apply] | rw [Pay.head_10_apply] | rw [Pay.head_11_apply] | rw [Pay.head_12_apply] | rw [Pay.head_13_apply] | rw [Pay.head_14_apply] | rw [Pay.head_15_apply]
    simp only [Pay.proj_k_apply, Pay.proj_v_apply]
    rw [ld_head]
    rfl)

set_option maxHeartbeats 4000000 in
/-- Case C leaves in the output window's buffer the scratch, as the case leaves it, scaled by one eighth. -/
theorem out0_C_apply (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S16x64x64 .f32) (harg6 : arg6.IsWhole) (hc0 : ¬cond0_0 i) (hc1 : cond0_1 i)
    (x0 : Vec Ideal S1x512x1024 .bf16) (x1 : Vec Ideal S1024x1024 .bf16) (x2 : Vec Ideal S1024x1024 .bf16) (xs0 : Vec Ideal S16x64x64 .f32)
    (h : Fin 16) (d e : Fin 64) :
    out0_C_3 c i arg2 harg2 arg3 harg3 arg4 harg4 arg5 harg5 arg6 harg6 hc0 hc1 x0 x1 x2 xs0 (ix4 0 h d e)
      = sout0_C_0 c i arg2 harg2 arg3 harg3 arg4 harg4 arg5 harg5 arg6 harg6 hc0 hc1 x0 x1 x2 xs0 (ix3 h d e) * Ideal.ofBits .f32 0x3E000000#32 := by
  unfold out0_C_3 sout0_C_0
  rw [View.read_writes_junk_eq_canon, View.read_writes_junk_eq_canon]
  unfold kernelRun0_C
  dsimp only
  rw [View.canon_unit_zero hz4]
  rw [Pay.scale_apply]
  simp only [kernelRun0_C.sl.v160]
  rw [View.readCov_eq_canon']
  refine congrArg (fun z => z * Ideal.ofBits .f32 0x3E000000#32) (congrArg (View.canon _) ?_)
  funext a
  apply Fin.ext
  match a with
  | ⟨0, _⟩ => show 0 + 1 * h.val = h.val; omega
  | ⟨1, _⟩ => show 0 + 1 * d.val = d.val; omega
  | ⟨2, _⟩ => show 0 + 1 * e.val = e.val; omega

/-! ## The accumulation, point by point -/

section Region0
-- the TensorCore's buffer contents when the region is entered
variable (V : (c : Dev nD) → (b : Ref sig .tc) → Buf (Elt Ideal) ((c : Thread nD τ).loc b))

/-- At the first tile of a batch the scratch ends at zero plus the tile's contribution. -/
theorem scratch_first (c : Dev nD) (n : ℕ) (hn : n < cfg0.N) (h0 : n % 8 = 0) (h : Fin 16) (d e : Fin 64) :
    (outsAt0 V c n hn).2 (ix3 h d e)
      = 0 + Cert.Att.tile (iblk0 V c 0 ⟨n, hn⟩) (iblk0 V c 1 ⟨n, hn⟩) (iblk0 V c 2 ⟨n, hn⟩) h d e := by
  have h1 : ¬ (⟨n, hn⟩ : Fin cfg0.N).val % 8 = 7 := by show ¬ n % 8 = 7; omega
  have h0' : (⟨n, hn⟩ : Fin cfg0.N).val % 8 = 0 := h0
  rw [show outsAt0 V c n hn = outsAt0 V c (⟨n, hn⟩ : Fin cfg0.N).val (⟨n, hn⟩ : Fin cfg0.N).isLt from rfl,
    outsAt0_A V c ⟨n, hn⟩ h0' h1]
  exact sout0_A_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0') (fun h => h1 ((hcond0_1 ⟨n, hn⟩).mp h)) (iblk0 V c 0 ⟨n, hn⟩) (iblk0 V c 1 ⟨n, hn⟩) (iblk0 V c 2 ⟨n, hn⟩) h d e

set_option maxHeartbeats 4000000 in
/-- At every later tile the scratch ends at what the point before left plus the tile's contribution. -/
theorem scratch_step (c : Dev nD) (n : ℕ) (hn : n + 1 < cfg0.N) (h0 : ¬ (n + 1) % 8 = 0) (h : Fin 16) (d e : Fin 64) :
    (outsAt0 V c (n + 1) hn).2 (ix3 h d e)
      = (outsAt0 V c n (Nat.lt_of_succ_lt hn)).2 (ix3 h d e)
        + Cert.Att.tile (iblk0 V c 0 ⟨n + 1, hn⟩) (iblk0 V c 1 ⟨n + 1, hn⟩) (iblk0 V c 2 ⟨n + 1, hn⟩) h d e := by
  have h0' : ¬ (⟨n + 1, hn⟩ : Fin cfg0.N).val % 8 = 0 := h0
  by_cases h7 : (⟨n + 1, hn⟩ : Fin cfg0.N).val % 8 = 7
  · rw [show outsAt0 V c (n + 1) hn = outsAt0 V c (⟨n + 1, hn⟩ : Fin cfg0.N).val (⟨n + 1, hn⟩ : Fin cfg0.N).isLt from rfl,
      outsAt0_C V c ⟨n + 1, hn⟩ h0' h7]
    exact sout0_C_apply c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0' ((hcond0_0 ⟨n + 1, hn⟩).mp h)) ((hcond0_1 ⟨n + 1, hn⟩).mpr h7) (iblk0 V c 0 ⟨n + 1, hn⟩) (iblk0 V c 1 ⟨n + 1, hn⟩) (iblk0 V c 2 ⟨n + 1, hn⟩) (outsAt0 V c ((⟨n + 1, hn⟩ : Fin cfg0.N).val - 1) (Nat.lt_of_le_of_lt (Nat.sub_le _ _) (⟨n + 1, hn⟩ : Fin cfg0.N).isLt)).2 h d e
  · rw [show outsAt0 V c (n + 1) hn = outsAt0 V c (⟨n + 1, hn⟩ : Fin cfg0.N).val (⟨n + 1, hn⟩ : Fin cfg0.N).isLt from rfl,
      outsAt0_B V c ⟨n + 1, hn⟩ h0' h7]
    exact sout0_B_apply c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0' ((hcond0_0 ⟨n + 1, hn⟩).mp h)) (fun h => h7 ((hcond0_1 ⟨n + 1, hn⟩).mp h)) (iblk0 V c 0 ⟨n + 1, hn⟩) (iblk0 V c 1 ⟨n + 1, hn⟩) (iblk0 V c 2 ⟨n + 1, hn⟩) (outsAt0 V c ((⟨n + 1, hn⟩ : Fin cfg0.N).val - 1) (Nat.lt_of_le_of_lt (Nat.sub_le _ _) (⟨n + 1, hn⟩ : Fin cfg0.N).isLt)).2 h d e

set_option maxHeartbeats 4000000 in
/-- At the last tile of a batch the output window's buffer ends at the scratch scaled by one eighth. -/
theorem out_last (c : Dev nD) (n : ℕ) (hn : n < cfg0.N) (h7 : n % 8 = 7) (h : Fin 16) (d e : Fin 64) :
    (outsAt0 V c n hn).1 (ix4 0 h d e) = (outsAt0 V c n hn).2 (ix3 h d e) * Ideal.ofBits .f32 0x3E000000#32 := by
  have h0' : ¬ (⟨n, hn⟩ : Fin cfg0.N).val % 8 = 0 := by show ¬ n % 8 = 0; omega
  have h7' : (⟨n, hn⟩ : Fin cfg0.N).val % 8 = 7 := h7
  rw [show outsAt0 V c n hn = outsAt0 V c (⟨n, hn⟩ : Fin cfg0.N).val (⟨n, hn⟩ : Fin cfg0.N).isLt from rfl,
    outsAt0_C V c ⟨n, hn⟩ h0' h7']
  exact out0_C_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0' ((hcond0_0 ⟨n, hn⟩).mp h)) ((hcond0_1 ⟨n, hn⟩).mpr h7') (iblk0 V c 0 ⟨n, hn⟩) (iblk0 V c 1 ⟨n, hn⟩) (iblk0 V c 2 ⟨n, hn⟩) (outsAt0 V c ((⟨n, hn⟩ : Fin cfg0.N).val - 1) (Nat.lt_of_le_of_lt (Nat.sub_le _ _) (⟨n, hn⟩ : Fin cfg0.N).isLt)).2 h d e

end Region0

end Cert.KernelIdeal.Fr

end
-- ==== Proof.IdealKvValue.lean ====
/-
  The first region's output array after the region, as one function of the arrays the region reads.
  The grid is 4 x 8: point t handles tile t % 8 (512 rows) of batch t / 8. At each point the body reads the tile of `x` and the
  whole transposed key and value weights and adds, per head, the tile's `kᵀv` to a running sum that restarts from zero at the
  first tile of the batch; at the last tile it stores the running sums, scaled by 1/8, as the batch's block [1, 16, 64, 64] of
  the result. So the result at [b, h, d, e] is zero plus the eight tiles' contributions, scaled: `Cert.Att.KV0at`.
-/
import proofs.«175350_j39178691674142_1_alg».proof.Proof.IdealKvBody
import proofs.«175350_j39178691674142_1_alg».proof.Proof.IdealKvSpec
import proofs.«175350_j39178691674142_1_alg».proof.Proof.IdealKvPieces
import Idealize.ShloMosaic.Lib.Pipeline.Value
import Idealize.ShloMosaic.Lib.ValueIdx

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The function -/

/-- The region's result as one function of the arrays it reads. -/
def KV0 (x : S4x4096x1024.Idx → EReal) (wk wv : S1024x1024.Idx → EReal) : S4x16x64x64.Idx → EReal :=
  fun i => Cert.Att.KV0at x wk wv (i 0) (i 1) (i 2) (i 3)

theorem KV0_ix4 (x : S4x4096x1024.Idx → EReal) (wk wv : S1024x1024.Idx → EReal) (b : Fin 4) (h : Fin 16) (d e : Fin 64) :
    KV0 x wk wv (ix4 b h d e) = Cert.Att.KV0at x wk wv b h d e := rfl

/-! ## The grid -/

theorem point_lt0 (t : Fin cfg0.N) : t.val < 32 := lt_of_lt_of_eq t.isLt (show cfg0.N = 32 from N_0)
theorem lt_pts {n : ℕ} (h : n < 32) : n < cfg0.N := lt_of_lt_of_eq h (show cfg0.N = 32 from N_0).symm

/-- The batch and the tile of point `t`. -/
def batch0 (t : Fin cfg0.N) : Fin 4 := ⟨t.val / 8, by have := point_lt0 t; omega⟩
def tile0 (t : Fin cfg0.N) : Fin 8 := ⟨t.val % 8, by omega⟩

/-- The printed index maps, decided over the grid: the tile of `x` is block (t / 8, t % 8, 0), the weights' the one whole block,
    the result's block t / 8. -/
theorem idx_facts0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = t.val / 8 ∧ win0_3.index t (1 : Fin 4) = 0 ∧ win0_3.index t (2 : Fin 4) = 0 ∧ win0_3.index t (3 : Fin 4) = 0 :=
  (by decide +kernel : ∀ t : Fin grid0.N, _)

section
variable (V : (c : Dev nD) → (b : Ref sig .tc) → Buf (Elt Ideal) ((c : Thread nD τ).loc b))

/-! ## The input windows' blocks -/

/-- The block of `x` at point `t` is tile t % 8 of batch t / 8. -/
theorem iblk0_0_eq (c : Dev nD) (t : Fin cfg0.N) :
    (iblk0 V c 0 t : S1x512x1024.Idx → EReal) = Cert.Att.tileOf (V c main_v0 : S4x4096x1024.Idx → EReal) (batch0 t) (tile0 t) := by
  obtain ⟨e0, e1, e2, -⟩ := idx_facts0 t
  funext y
  obtain ⟨y0, r, k, rfl⟩ : ∃ (y0 : Fin 1) (r : Fin 512) (k : Fin 1024), y = ix3 y0 r k := ⟨y 0, y 1, y 2, eq_ix3 y⟩
  unfold iblk0
  rw [View.read_apply]
  show V c main_v0 (((cfg0.win 0).blk t).view.emb (ix3 y0 r k)) = V c main_v0 (ix3 (batch0 t) (Cert.Att.row (tile0 t) r) k)
  refine congrArg (V c main_v0) (funext fun a => Fin.ext ?_)
  have hy : y0.val = 0 := by have := y0.isLt; omega
  match a with
  | ⟨0, _⟩ => show win0_0.index t (0 : Fin 3) * 1 + 1 * y0.val = t.val / 8; omega
  | ⟨1, _⟩ => show win0_0.index t (1 : Fin 3) * 512 + 1 * r.val = r.val + 512 * (t.val % 8); omega
  | ⟨2, _⟩ => show win0_0.index t (2 : Fin 3) * 1024 + 1 * k.val = k.val; omega

/-- The key weights' block is the whole matrix. -/
theorem iblk0_1_eq (c : Dev nD) (t : Fin cfg0.N) : (iblk0 V c 1 t : S1024x1024.Idx → EReal) = (V c main_v4 : S1024x1024.Idx → EReal) := by
  obtain ⟨-, -, -, e0, e1, -⟩ := idx_facts0 t
  funext y
  unfold iblk0
  rw [View.read_apply]
  show V c main_v4 (((cfg0.win 1).blk t).view.emb y) = V c main_v4 y
  refine congrArg (V c main_v4) (funext fun q => Fin.ext ?_)
  match q with
  | ⟨0, _⟩ => show win0_1.index t (0 : Fin 2) * 1024 + 1 * (y 0).val = (y 0).val; omega
  | ⟨1, _⟩ => show win0_1.index t (1 : Fin 2) * 1024 + 1 * (y 1).val = (y 1).val; omega

/-- The value weights' block is the whole matrix. -/
theorem iblk0_2_eq (c : Dev nD) (t : Fin cfg0.N) : (iblk0 V c 2 t : S1024x1024.Idx → EReal) = (V c main_v6 : S1024x1024.Idx → EReal) := by
  obtain ⟨-, -, -, -, -, e0, e1, -⟩ := idx_facts0 t
  funext y
  unfold iblk0
  rw [View.read_apply]
  show V c main_v6 (((cfg0.win 2).blk t).view.emb y) = V c main_v6 y
  refine congrArg (V c main_v6) (funext fun q => Fin.ext ?_)
  match q with
  | ⟨0, _⟩ => show win0_2.index t (0 : Fin 2) * 1024 + 1 * (y 0).val = (y 0).val; omega
  | ⟨1, _⟩ => show win0_2.index t (1 : Fin 2) * 1024 + 1 * (y 1).val = (y 1).val; omega

/-! ## The result's blocks -/

/-- Element [0, h, d, e] of the result's block at point `t` sits at [t / 8, h, d, e] of the array. -/
theorem emb0_3 (t : Fin cfg0.N) (y0 : Fin 1) (h : Fin 16) (d e : Fin 64) :
    (((cfg0.win 3).blk t).view.emb (ix4 y0 h d e) : S4x16x64x64.Idx) = ix4 (batch0 t) h d e := by
  obtain ⟨-, -, -, -, -, -, -, e0, e1, e2, e3⟩ := idx_facts0 t
  have hy : y0.val = 0 := by have := y0.isLt; omega
  refine funext fun a => Fin.ext ?_
  match a with
  | ⟨0, _⟩ => show win0_3.index t (0 : Fin 4) * 1 + 1 * y0.val = t.val / 8; omega
  | ⟨1, _⟩ => show win0_3.index t (1 : Fin 4) * 16 + 1 * h.val = h.val; omega
  | ⟨2, _⟩ => show win0_3.index t (2 : Fin 4) * 64 + 1 * d.val = d.val; omega
  | ⟨3, _⟩ => show win0_3.index t (3 : Fin 4) * 64 + 1 * e.val = e.val; omega

/-- An index of the array is in point `t`'s block iff each coordinate is in the block's range on its axis. -/
theorem mem_blk0_3 (t : Fin cfg0.N) (i : S4x16x64x64.Idx) :
    i ∈ ((cfg0.win 3).blk t).view.set ↔ ∀ a : Fin 4, win0_3.index t a * S1x16x64x64.size a ≤ (i a).val ∧ (i a).val < win0_3.index t a * S1x16x64x64.size a + S1x16x64x64.size a := by
  show i ∈ ((View.whole main_v9).slice (win0_3.rect t)).set ↔ _
  rw [View.set_slice_whole, Rect.mem_set_unit]
  exact Iff.rfl

/-- The four batches' blocks tile the array: [b, h, d, e] is in the block of the last tile 8 b + 7 of batch b, which is written back. -/
theorem cover0 (i : S4x16x64x64.Idx) :
    ∃ t : Fin cfg0.N, (cfg0.win 3).flush t = true ∧ i ∈ ((cfg0.win 3).blk t).view.set := by
  have h0 : (i 0).val < 4 := (i 0).isLt
  have h1 : (i 1).val < 16 := (i 1).isLt
  have h2 : (i 2).val < 64 := (i 2).isLt
  have h3 : (i 3).val < 64 := (i 3).isLt
  have hN : cfg0.N = 32 := N_0
  obtain ⟨t, ht⟩ : ∃ t : Fin cfg0.N, t.val = 8 * (i 0).val + 7 := ⟨⟨8 * (i 0).val + 7, by rw [hN]; omega⟩, rfl⟩
  obtain ⟨-, -, -, -, -, -, -, e0, e1, e2, e3⟩ := idx_facts0 t
  refine ⟨t, (flush0_3 t).mpr (by omega), ?_⟩
  rw [mem_blk0_3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 64 ≤ (i 2).val ∧ (i 2).val < win0_3.index t (2 : Fin 4) * 64 + 64; omega
  | ⟨3, _⟩ => show win0_3.index t (3 : Fin 4) * 64 ≤ (i 3).val ∧ (i 3).val < win0_3.index t (3 : Fin 4) * 64 + 64; omega

/-! ## The running sum over a batch's tiles -/

/-- Point `n`'s contribution at (h, d, e): the tile's `kᵀv` for head `h` (zero past the grid, where it is never used). -/
def Tt (c : Dev nD) (n : ℕ) : Fin 16 × Fin 64 × Fin 64 → EReal := fun i =>
  if hn : n < cfg0.N then Cert.Att.tile (iblk0 V c 0 ⟨n, hn⟩) (iblk0 V c 1 ⟨n, hn⟩) (iblk0 V c 2 ⟨n, hn⟩) i.1 i.2.1 i.2.2 else 0

theorem Tt_pos (c : Dev nD) (n : ℕ) (hn : n < cfg0.N) (h : Fin 16) (d e : Fin 64) :
    Tt V c n (h, d, e) = Cert.Att.tile (iblk0 V c 0 ⟨n, hn⟩) (iblk0 V c 1 ⟨n, hn⟩) (iblk0 V c 2 ⟨n, hn⟩) h d e := by
  unfold Tt; rw [dif_pos hn]

/-- After the last tile of batch `q` the scratch holds zero plus the eight tiles' contributions. -/
theorem scratch_last (c : Dev nD) (q : ℕ) (hq : 8 * q + 7 < 32) (h : Fin 16) (d e : Fin 64) :
    (outsAt0 V c (8 * q + 7) (lt_pts hq)).2 (ix3 h d e) = 0 + ∑ s ∈ Finset.range 8, Tt V c (8 * q + s) (h, d, e) :=
  Cert.KernelIdeal.Acc.acc_tiles (fun n hn (i : Fin 16 × Fin 64 × Fin 64) => (outsAt0 V c n (lt_pts hn)).2 (ix3 i.1 i.2.1 i.2.2)) (Tt V c)
    (fun n hn h0 i => by
      show (outsAt0 V c n (lt_pts hn)).2 (ix3 i.1 i.2.1 i.2.2) = 0 + Tt V c n i
      rw [scratch_first V c n (lt_pts hn) h0 i.1 i.2.1 i.2.2, ← Tt_pos V c n (lt_pts hn)])
    (fun n hn h0 i => by
      show (outsAt0 V c (n + 1) (lt_pts hn)).2 (ix3 i.1 i.2.1 i.2.2) = (outsAt0 V c n (lt_pts (Nat.lt_of_succ_lt hn))).2 (ix3 i.1 i.2.1 i.2.2) + Tt V c (n + 1) i
      rw [scratch_step V c n (lt_pts hn) h0 i.1 i.2.1 i.2.2, ← Tt_pos V c (n + 1) (lt_pts hn)])
    q hq (h, d, e)

/-! ## What the last tile writes back, and the array -/

/-- What a point that writes back writes is its block of `KV0` of the arrays as the region finds them. -/
theorem flushed0_eq (c : Dev nD) (t : Fin cfg0.N) (hf : (cfg0.win 3).flush t = true) :
    (dat0 V c).flushed 3 t = ((cfg0.win 3).blk t).view.read (Elt Ideal) (KV0 (V c main_v0) (V c main_v4) (V c main_v6)) := by
  have h7 : t.val % 8 = 7 := (flush0_3 t).mp hf
  have hlt := point_lt0 t
  show (cfg0.win 3).cut (grid0.coords t) ((dat0 V c).after 3 t) = _
  rw [after0_3]
  funext y
  obtain ⟨y0, h, d, e, rfl⟩ : ∃ (y0 : Fin 1) (h : Fin 16) (d e : Fin 64), y = ix4 y0 h d e := ⟨y 0, y 1, y 2, y 3, eq_ix4 y⟩
  rw [View.read_apply]
  show (outsAt0 V c t.val t.isLt).1 (ix4 y0 h d e) = KV0 (V c main_v0) (V c main_v4) (V c main_v6) (((cfg0.win 3).blk t).view.emb (ix4 y0 h d e))
  rw [emb0_3 t y0 h d e, KV0_ix4]
  obtain rfl : y0 = 0 := Subsingleton.elim _ _
  rw [out_last V c t.val t.isLt h7 h d e]
  have hq : 8 * (t.val / 8) + 7 < 32 := by omega
  have htq : t.val = 8 * (t.val / 8) + 7 := by omega
  have hS : (outsAt0 V c t.val t.isLt).2 (ix3 h d e) = 0 + ∑ s ∈ Finset.range 8, Tt V c (8 * (t.val / 8) + s) (h, d, e) := by
    have := scratch_last V c (t.val / 8) hq h d e
    convert this using 3
  rw [hS]
  unfold Cert.Att.KV0at
  refine congrArg (· * _) (congrArg (0 + ·) ?_)
  rw [Finset.sum_range]
  refine Finset.sum_congr rfl fun s _ => ?_
  have hs : 8 * (t.val / 8) + s.val < cfg0.N := lt_pts (by have := s.isLt; omega)
  rw [Tt_pos V c _ hs, iblk0_0_eq, iblk0_1_eq, iblk0_2_eq]
  have eb : batch0 ⟨8 * (t.val / 8) + s.val, hs⟩ = batch0 t := Fin.ext (by show (8 * (t.val / 8) + s.val) / 8 = t.val / 8; have := s.isLt; omega)
  have es : tile0 ⟨8 * (t.val / 8) + s.val, hs⟩ = s := Fin.ext (by show (8 * (t.val / 8) + s.val) % 8 = s.val; have := s.isLt; omega)
  rw [eb, es]

/-- The first region's output array after the region. -/
theorem final0 (c : Dev nD) : (dat0 V c).arrAt 3 cfg0.N = KV0 (V c main_v0) (V c main_v4) (V c main_v6) :=
  (dat0 V c).arrAt_eq_of_cover 3 _ (fun t hf => flushed0_eq V c t hf) cover0
end

end Cert.KernelIdeal.Fr

end
-- ==== Proof.IdealOutPay.lean ====
/-
  The value the output-projection kernel stores, read at one index, on the extended reals.

  The kernel's body at a grid point holds a block x : [1, 512, 1024] of activations, the transposed query weights
  Wq^T : [1024, 1024], the key-value summary kv : [1, 16, 64, 64] of the batch, the transposed output weights
  Wo^T : [1024, 1024] and the bias bo : [1024]. It forms q = x Wq^T, cuts q into 16 heads of 64 columns, multiplies
  head h by kv[h], lays the 16 products side by side again, multiplies by Wo^T and adds the bias.  Read at row r and
  output feature o this is
    (sum over h, e of (sum over d of q[r, 64 h + d] * kv[h, d, e]) * Wo^T[64 h + e, o]) + bo[o].
-/
import proofs.«175350_j39178691674142_1_alg».proof.Proof.Gen.KernelIdeal.Skeleton
import proofs.«175350_j39178691674142_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.OutPay

open Cert.KernelIdeal Cert.KernelIdeal.Gen
open Idealize.ShloMosaic Idealize.ShloMosaic.ValueIdx
open Cert.Att (hd)

/-! ## The two matrix products at an index -/

/-! The operand indices of the two products: the row of the left operand and the column of the right one are the
    output's, the other two coordinates are the summation index. -/

theorem lhs64_0 (i : S512x64.Idx) (q : dot_S512x64_S64x64_S512x64_1_0_0_1_n_n.contr.Idx) : (dot_S512x64_S64x64_S512x64_1_0_0_1_n_n.lhsIdx i q 0).val = (i 0).val := by
  unfold DotDims.lhsIdx
  rw [dif_neg (show ¬(0 : Fin S512x64.rank) ∈ dot_S512x64_S64x64_S512x64_1_0_0_1_n_n.lhsBatch by decide),
    dif_pos (show (0 : Fin S512x64.rank) ∈ dot_S512x64_S64x64_S512x64_1_0_0_1_n_n.lhsNonContracting by decide)]
  rfl
theorem lhs64_1 (i : S512x64.Idx) (q : dot_S512x64_S64x64_S512x64_1_0_0_1_n_n.contr.Idx) : (dot_S512x64_S64x64_S512x64_1_0_0_1_n_n.lhsIdx i q 1).val = (q ⟨0, by decide⟩).val :=
  dot_S512x64_S64x64_S512x64_1_0_0_1_n_n.lhsIdx_val_of_single rfl i q
theorem rhs64_0 (i : S512x64.Idx) (q : dot_S512x64_S64x64_S512x64_1_0_0_1_n_n.contr.Idx) : (dot_S512x64_S64x64_S512x64_1_0_0_1_n_n.rhsIdx i q 0).val = (q ⟨0, by decide⟩).val :=
  dot_S512x64_S64x64_S512x64_1_0_0_1_n_n.rhsIdx_val_of_single rfl i q
theorem rhs64_1 (i : S512x64.Idx) (q : dot_S512x64_S64x64_S512x64_1_0_0_1_n_n.contr.Idx) : (dot_S512x64_S64x64_S512x64_1_0_0_1_n_n.rhsIdx i q 1).val = (i 1).val := by
  unfold DotDims.rhsIdx
  rw [dif_neg (show ¬(1 : Fin S64x64.rank) ∈ dot_S512x64_S64x64_S512x64_1_0_0_1_n_n.rhsBatch by decide),
    dif_pos (show (1 : Fin S64x64.rank) ∈ dot_S512x64_S64x64_S512x64_1_0_0_1_n_n.rhsNonContracting by decide)]
  rfl

theorem lhs1024_0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem lhs1024_1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs1024_0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs1024_1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- A [512, 64] by [64, 64] product into a zero accumulator, at (r, e): the sum over the shared axis. -/
theorem mm64_apply (a : FVec Ideal S512x64 .bf16) (b : FVec Ideal S64x64 .bf16) (r : Fin 512) (e : Fin 64) :
    matmul (F := Ideal) dot_S512x64_S64x64_S512x64_1_0_0_1_n_n none a b (constant (F := Ideal) S512x64 .f32 0x00000000#32) (ix2 r e)
      = ∑ d : Fin 64, a (ix2 r d) * b (ix2 d e) := by
  simp only [matmul]
  rw [Ideal.matmul_constant_zero_apply, ← Equiv.sum_comp (contrEquiv1 dot_S512x64_S64x64_S512x64_1_0_0_1_n_n 64 rfl rfl).symm]
  refine Finset.sum_congr rfl fun k _ => ?_
  have hk := contrEquiv1_symm_val dot_S512x64_S64x64_S512x64_1_0_0_1_n_n 64 rfl rfl k
  have el : dot_S512x64_S64x64_S512x64_1_0_0_1_n_n.lhsIdx (ix2 r e) ((contrEquiv1 dot_S512x64_S64x64_S512x64_1_0_0_1_n_n 64 rfl rfl).symm k) = ix2 r k :=
    funext fun ax => Fin.ext (by
      match ax with
      | ⟨0, _⟩ => exact lhs64_0 _ _
      | ⟨1, _⟩ => exact (lhs64_1 _ _).trans hk)
  have er : dot_S512x64_S64x64_S512x64_1_0_0_1_n_n.rhsIdx (ix2 r e) ((contrEquiv1 dot_S512x64_S64x64_S512x64_1_0_0_1_n_n 64 rfl rfl).symm k) = ix2 k e :=
    funext fun ax => Fin.ext (by
      match ax with
      | ⟨0, _⟩ => exact (rhs64_0 _ _).trans hk
      | ⟨1, _⟩ => exact rhs64_1 _ _)
  rw [el, er]

/-- A [512, 1024] by [1024, 1024] product into a zero accumulator, at (r, o). -/
theorem mm1024_apply (a : FVec Ideal S512x1024 .bf16) (b : FVec Ideal S1024x1024 .bf16) (r : Fin 512) (o : Fin 1024) :
    matmul (F := Ideal) dot_S512x1024_S1024x1024_S512x1024_1_0_0_1_n_n none a b (constant (F := Ideal) S512x1024 .f32 0x00000000#32) (ix2 r o)
      = ∑ c : Fin 1024, a (ix2 r c) * b (ix2 c o) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r o) ((contrEquiv1 dot_S512x1024_S1024x1024_S512x1024_1_0_0_1_n_n 1024 rfl rfl).symm k) = ix2 r k :=
    funext fun ax => Fin.ext (by
      match ax with
      | ⟨0, _⟩ => exact lhs1024_0 _ _
      | ⟨1, _⟩ => exact (lhs1024_1 _ _).trans hk)
  have er : dot_S512x1024_S1024x1024_S512x1024_1_0_0_1_n_n.rhsIdx (ix2 r o) ((contrEquiv1 dot_S512x1024_S1024x1024_S512x1024_1_0_0_1_n_n 1024 rfl rfl).symm k) = ix2 k o :=
    funext fun ax => Fin.ext (by
      match ax with
      | ⟨0, _⟩ => exact (rhs1024_0 _ _).trans hk
      | ⟨1, _⟩ => exact rhs1024_1 _ _)
  rw [el, er]

/-! ## The loaded blocks' first uses -/

/-- The query projection of the block: q[r, j] = sum over c of x[0, r, c] * Wq^T[c, j]. -/
theorem q_apply (v0 : Vec Ideal S1x512x1024 .bf16) (v2 : Vec Ideal S1024x1024 .bf16) (r : Fin 512) (j : Fin 1024) :
    k1_pay2 (F := Ideal) v0 v2 (ix2 r j) = ∑ c : Fin 1024, v0 (ix3 0 r c) * v2 (ix2 c j) := by
  unfold k1_pay2
  rw [truncf_apply, shapeCast_self, mm1024_apply]
  refine Finset.sum_congr rfl fun c _ => ?_
  rw [shapeCast_1ab_ab_apply]

/-- The key-value summary without its leading unit axis. -/
theorem kv_apply (v6 : Vec Ideal S1x16x64x64 .f32) (h : Fin 16) (d e : Fin 64) :
    k1_pay3 (F := Ideal) v6 (ix3 h d e) = v6 (ix4 0 h d e) := by
  unfold k1_pay3
  rw [truncf_apply, shapeCast_1abc_abc_apply]

/-! ## One head -/

/-- Head hh's [64, 64] block of the key-value summary, its unit axis dropped. -/
theorem kvHead_apply (hh : Nat) (kv : FVec Ideal S16x64x64 .bf16) (hs : S16x64x64.Slices ![hh, 0, 0] S1x64x64)
    (h : Fin 16) (hv : h.val = hh) (d e : Fin 64) :
    shapeCast S64x64 (extractStridedSlice S1x64x64 ![hh, 0, 0] kv hs) shapeCasts_S1x64x64_S64x64 (ix2 d e)
      = kv (ix3 h d e) := by
  rw [shapeCast_1ab_ab_apply]
  exact extractStridedSlice_apply ![hh, 0, 0] kv hs (ix3 0 d e) (ix3 h d e) (fun ax => by
    match ax with
    | ⟨0, _⟩ => show h.val = hh + 0; omega
    | ⟨1, _⟩ => exact (Nat.zero_add _).symm
    | ⟨2, _⟩ => exact (Nat.zero_add _).symm)

/-- What the kernel computes for one head: the 64 columns of q from column off on, times block hh of the key-value
    summary, into a zero accumulator. -/
abbrev headTerm (off hh : Nat) (q : FVec Ideal S512x1024 .bf16) (kv : FVec Ideal S16x64x64 .bf16)
    (hs1 : S512x1024.Slices ![0, off] S512x64) (hs2 : S16x64x64.Slices ![hh, 0, 0] S1x64x64) : FVec Ideal S512x64 .bf16 :=
  truncf (F := Ideal) .bf16
    (matmul (F := Ideal) dot_S512x64_S64x64_S512x64_1_0_0_1_n_n none (extractStridedSlice S512x64 ![0, off] q hs1)
      (shapeCast S64x64 (extractStridedSlice S1x64x64 ![hh, 0, 0] kv hs2) shapeCasts_S1x64x64_S64x64)
      (constant (F := Ideal) S512x64 .f32 0x00000000#32))
    bitsLt_bf16_f32

/-- Head h at (r, e): the sum over d of q[r, 64 h + d] * kv[h, d, e]. -/
theorem head_apply (off hh : Nat) (q : FVec Ideal S512x1024 .bf16) (kv : FVec Ideal S16x64x64 .bf16)
    (hs1 : S512x1024.Slices ![0, off] S512x64) (hs2 : S16x64x64.Slices ![hh, 0, 0] S1x64x64)
    (h : Fin 16) (hv : h.val = hh) (hoff : off = hh * 64) (r : Fin 512) (e : Fin 64) :
    headTerm off hh q kv hs1 hs2 (ix2 r e) = ∑ d : Fin 64, q (ix2 r (hd h d)) * kv (ix3 h d e) := by
  unfold headTerm
  rw [truncf_apply, mm64_apply]
  refine Finset.sum_congr rfl fun d _ => ?_
  rw [kvHead_apply hh kv hs2 h hv,
    slice2_axis1_apply off q hs1 r d (hd h d) (by show h.val * 64 + d.val = off + d.val; omega)]

/-! ## The heads side by side -/

/-- In a row of sixteen [512, 64] pieces laid side by side whose piece k is head k's product, column 64 k + e is
    head k at e: the pieces before piece k take up 64 k columns. -/
theorem cat_head (xs : List ((s : Shape) × (s.Idx → Ideal .bf16)))
    (hcat : Shape.Concatenates (xs.map (·.1)) S512x1024 1)
    (hsh : xs.map (·.1) = List.replicate 16 S512x64) (k : Nat) (hk : k < 16)
    (q : FVec Ideal S512x1024 .bf16) (kv : FVec Ideal S16x64x64 .bf16) (off : Nat)
    (hs1 : S512x1024.Slices ![0, off] S512x64) (hs2 : S16x64x64.Slices ![k, 0, 0] S1x64x64)
    (hxk : xs[k]'(by have := congrArg List.length hsh; simp only [List.length_map, List.length_replicate] at this; omega)
      = ⟨S512x64, headTerm off k q kv hs1 hs2⟩)
    (h : Fin 16) (hv : h.val = k) (hoff : off = k * 64) (r : Fin 512) (e : Fin 64) :
    concatenate S512x1024 1 xs hcat (ix2 r (hd h e)) = ∑ d : Fin 64, q (ix2 r (hd h d)) * kv (ix3 h d e) := by
  have hlen : xs.length = 16 := by
    have := congrArg List.length hsh
    simpa only [List.length_map, List.length_replicate] using this
  have hpre : (((xs.take k).map (·.1)).map fun s =>
      if h : s.rank = S512x1024.rank then s.size ((1 : Fin S512x1024.rank).cast h.symm) else 0).sum = off := by
    rw [List.map_take, hsh, List.take_replicate, List.map_replicate, List.sum_replicate, Nat.min_eq_left (by omega),
      smul_eq_mul, hoff]
    rfl
  refine (concatenate_apply_piece (1 : Fin S512x1024.rank) xs hcat (ix2 r (hd h e)) k (by omega) S512x64 _ hxk rfl off hpre
    (ix2 r e) ?_ ?_).trans ?_
  · intro b hb
    match b with
    | ⟨0, _⟩ => rfl
    | ⟨1, _⟩ => exact absurd rfl hb
  · show off + e.val = h.val * 64 + e.val
    omega
  · exact head_apply off k q kv hs1 hs2 h hv hoff r e

/-- The sixteen heads' products laid side by side, at row r and column 64 h + e. -/
theorem rows_apply (v0 : Vec Ideal S1x512x1024 .bf16) (v2 : Vec Ideal S1024x1024 .bf16) (v6 : Vec Ideal S1x16x64x64 .f32)
    (r : Fin 512) (h : Fin 16) (e : Fin 64) :
    k1_pay12 (F := Ideal) (k1_pay2 v0 v2) (k1_pay3 v6) (k1_pay4 v0 v2 v6) (k1_pay5 v0 v2 v6) (k1_pay6 v0 v2 v6)
        (k1_pay7 v0 v2 v6) (k1_pay8 v0 v2 v6) (k1_pay9 v0 v2 v6) (k1_pay10 v0 v2) (k1_pay11 v6) (ix2 r (hd h e))
      = ∑ d : Fin 64, k1_pay2 (F := Ideal) v0 v2 (ix2 r (hd h d)) * k1_pay3 (F := Ideal) v6 (ix3 h d e) := by
  unfold k1_pay12
  obtain ⟨k, hk⟩ := h
  interval_cases k
  · exact cat_head _ _ rfl 0 hk _ _ 0 _ _ rfl ⟨0, hk⟩ rfl rfl r e
  · exact cat_head _ _ rfl 1 hk _ _ 64 _ _ rfl ⟨1, hk⟩ rfl rfl r e
  · exact cat_head _ _ rfl 2 hk _ _ 128 _ _ rfl ⟨2, hk⟩ rfl rfl r e
  · exact cat_head _ _ rfl 3 hk _ _ 192 _ _ rfl ⟨3, hk⟩ rfl rfl r e
  · exact cat_head _ _ rfl 4 hk _ _ 256 _ _ rfl ⟨4, hk⟩ rfl rfl r e
  · exact cat_head _ _ rfl 5 hk _ _ 320 _ _ rfl ⟨5, hk⟩ rfl rfl r e
  · exact cat_head _ _ rfl 6 hk (k1_pay2 v0 v2) (k1_pay3 v6) 384 slices_S512x1024_o0_384_S512x64 slices_S16x64x64_o6_0_0_S1x64x64 rfl ⟨6, hk⟩ rfl rfl r e
  · exact cat_head _ _ rfl 7 hk _ _ 448 _ _ rfl ⟨7, hk⟩ rfl rfl r e
  · exact cat_head _ _ rfl 8 hk _ _ 512 _ _ rfl ⟨8, hk⟩ rfl rfl r e
  · exact cat_head _ _ rfl 9 hk _ _ 576 _ _ rfl ⟨9, hk⟩ rfl rfl r e
  · exact cat_head _ _ rfl 10 hk _ _ 640 _ _ rfl ⟨10, hk⟩ rfl rfl r e
  · exact cat_head _ _ rfl 11 hk _ _ 704 _ _ rfl ⟨11, hk⟩ rfl rfl r e
  · exact cat_head _ _ rfl 12 hk _ _ 768 _ _ rfl ⟨12, hk⟩ rfl rfl r e
  · exact cat_head _ _ rfl 13 hk _ _ 832 _ _ rfl ⟨13, hk⟩ rfl rfl r e
  · exact cat_head _ _ rfl 14 hk _ _ 896 _ _ rfl ⟨14, hk⟩ rfl rfl r e
  · exact cat_head _ _ rfl 15 hk _ _ 960 _ _ rfl ⟨15, hk⟩ rfl rfl r e

/-! ## The 1024 features as 16 heads of 64 -/

/-- A feature index is a head and a coordinate within the head. -/
def headEquiv : Fin 16 × Fin 64 ≃ Fin 1024 where
  toFun p := hd p.1 p.2
  invFun c := (⟨c.val / 64, by have := c.isLt; omega⟩, ⟨c.val % 64, by omega⟩)
  left_inv p := by
    obtain ⟨h, d⟩ := p
    refine Prod.ext (Fin.ext ?_) (Fin.ext ?_)
    · show (h.val * 64 + d.val) / 64 = h.val
      have := d.isLt; omega
    · show (h.val * 64 + d.val) % 64 = d.val
      have := d.isLt; omega
  right_inv c := by
    refine Fin.ext ?_
    show c.val / 64 * 64 + c.val % 64 = c.val
    omega

/-- A sum over the features is the sum over the heads of the sums over each head's coordinates. -/
theorem sum_heads {M : Type*} [AddCommMonoid M] (f : Fin 1024 → M) :
    ∑ c : Fin 1024, f c = ∑ h : Fin 16, ∑ d : Fin 64, f (hd h d) := by
  rw [← Equiv.sum_comp headEquiv f, Fintype.sum_prod_type]
  rfl

/-! ## The stored value -/

/-- The output projection of any [512, 1024] rows, with the bias, at (0, r, o). -/
theorem out_of_rows (v89 : FVec Ideal S512x1024 .bf16) (v90 : Vec Ideal S1024x1024 .bf16) (v93 : Vec Ideal S1024 .f32)
    (r : Fin 512) (o : Fin 1024) :
    k1_pay1 (F := Ideal) v89 v90 v93 (ix3 0 r o) = (∑ c : Fin 1024, v89 (ix2 r c) * v90 (ix2 c o)) + v93 (ix1 o) := by
  unfold k1_pay1
  rw [shapeCast_ab_1ab_apply, addf_apply, shapeCast_self, mm1024_apply, broadcastTo_1b_ab_apply, shapeCast_a_1a_apply]

/-- The value the kernel stores, at row r of its block and output feature o. -/
theorem out_pay_apply (v0 : Vec Ideal S1x512x1024 .bf16) (v2 : Vec Ideal S1024x1024 .bf16) (v6 : Vec Ideal S1x16x64x64 .f32)
    (v90 : Vec Ideal S1024x1024 .bf16) (v93 : Vec Ideal S1024 .f32) (r : Fin 512) (o : Fin 1024) :
    k1_pay1 (F := Ideal) (k1_pay12 (k1_pay2 v0 v2) (k1_pay3 v6) (k1_pay4 v0 v2 v6) (k1_pay5 v0 v2 v6) (k1_pay6 v0 v2 v6)
        (k1_pay7 v0 v2 v6) (k1_pay8 v0 v2 v6) (k1_pay9 v0 v2 v6) (k1_pay10 v0 v2) (k1_pay11 v6)) v90 v93 (ix3 0 r o)
      = (∑ h : Fin 16, ∑ e : Fin 64,
          (∑ d : Fin 64, (∑ c : Fin 1024, v0 (ix3 0 r c) * v2 (ix2 c (hd h d))) * v6 (ix4 0 h d e)) * v90 (ix2 (hd h e) o))
        + v93 (ix1 o) := by
  rw [out_of_rows, sum_heads]
  refine congrArg (· + v93 (ix1 o)) (Finset.sum_congr rfl fun h _ => Finset.sum_congr rfl fun e _ => ?_)
  rw [rows_apply]
  refine congrArg (· * v90 (ix2 (hd h e) o)) (Finset.sum_congr rfl fun d _ => ?_)
  rw [q_apply, kv_apply]

end Cert.KernelIdeal.OutPay

end
-- ==== Proof.IdealOutValue.lean ====
/-
  REGION 1's output array after the region, as ONE function of the arrays the region reads.
  The region's grid is 4 x 8: point t handles batch t / 8 and the 512 rows 512 * (t % 8) ... of that batch. At the point the
  body reads the activations' block [1, 512, 1024] of those rows, the whole transposed query weights, the batch's
  key-value summary [1, 16, 64, 64], the whole transposed output weights and the bias, and stores the block [1, 512, 1024]
  of the same rows of the result. With x the activations, wq and wo the transposed weights (wq[k, o] multiplies feature k
  into output o), kv the summaries and bo the bias, the element [b, n, o] of the result is
    (sum over heads h and coordinates e of (sum over d of (sum over k of x[b,n,k] * wq[k, h*64+d]) * kv[b,h,d,e]) * wo[h*64+e, o]) + bo[o].
  Each block the body stores is the block of this one function, and the 32 blocks tile the array.
-/
import proofs.«175350_j39178691674142_1_alg».proof.Proof.IdealOutBody
import proofs.«175350_j39178691674142_1_alg».proof.Proof.Spec
import proofs.«175350_j39178691674142_1_alg».proof.Proof.IdealOutPay
import Idealize.ShloMosaic.Lib.Pipeline.Value
import Idealize.ShloMosaic.Lib.ValueIdx

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The function -/

/-- The region's result at [b, n, o], of the arrays it reads. -/
def Y1at (x : S4x4096x1024.Idx → EReal) (wq : S1024x1024.Idx → EReal) (kv : S4x16x64x64.Idx → EReal) (wo : S1024x1024.Idx → EReal)
    (bo : S1024.Idx → EReal) (b : Fin 4) (n : Fin 4096) (o : Fin 1024) : EReal :=
  (∑ h : Fin 16, ∑ e : Fin 64, (∑ d : Fin 64, (∑ k : Fin 1024, x (ix3 b n k) * wq (ix2 k (Cert.Att.hd h d))) * kv (ix4 b h d e))
      * wo (ix2 (Cert.Att.hd h e) o)) + bo (ix1 o)

/-- The region's result as one function of the arrays it reads. -/
def Y1 (x : S4x4096x1024.Idx → EReal) (wq : S1024x1024.Idx → EReal) (kv : S4x16x64x64.Idx → EReal) (wo : S1024x1024.Idx → EReal)
    (bo : S1024.Idx → EReal) : S4x4096x1024.Idx → EReal :=
  fun i => Y1at x wq kv wo bo (i 0) (i 1) (i 2)

theorem Y1_ix3 (x : S4x4096x1024.Idx → EReal) (wq : S1024x1024.Idx → EReal) (kv : S4x16x64x64.Idx → EReal) (wo : S1024x1024.Idx → EReal)
    (bo : S1024.Idx → EReal) (b : Fin 4) (n : Fin 4096) (o : Fin 1024) :
    Y1 x wq kv wo bo (ix3 b n o) = Y1at x wq kv wo bo b n o := rfl

/-! ## The grid's points and the windows' block indices -/

/-- The grid has 32 points. -/
theorem point_lt (t : Fin cfg1.N) : t.val < 32 := lt_of_lt_of_eq t.isLt (show cfg1.N = 32 from N_1)

/-- The batch of point `t`. -/
def batchOf (t : Fin cfg1.N) : Fin 4 := ⟨t.val / 8, by have := point_lt t; omega⟩
/-- Row `r` of point `t`'s block is this row of the batch. -/
def rowOf (t : Fin cfg1.N) (r : Fin 512) : Fin 4096 := ⟨512 * (t.val % 8) + r.val, by omega⟩

theorem batchOf_val (t : Fin cfg1.N) : (batchOf t).val = t.val / 8 := rfl
theorem rowOf_val (t : Fin cfg1.N) (r : Fin 512) : (rowOf t r).val = 512 * (t.val % 8) + r.val := rfl

/-- The printed index maps, decided over the grid: the activations' and the result's blocks are block (t / 8, t % 8, 0),
    the key-value summary's is block t / 8, the weights' and the bias's the one whole block. -/
theorem idx_facts1 : ∀ t : Fin cfg1.N,
    win1_0.index t (0 : Fin 3) = t.val / 8 ∧ win1_0.index t (1 : Fin 3) = t.val % 8 ∧ win1_0.index t (2 : Fin 3) = 0
    ∧ win1_1.index t (0 : Fin 2) = 0 ∧ win1_1.index t (1 : Fin 2) = 0
    ∧ win1_2.index t (0 : Fin 4) = t.val / 8 ∧ win1_2.index t (1 : Fin 4) = 0 ∧ win1_2.index t (2 : Fin 4) = 0 ∧ win1_2.index t (3 : Fin 4) = 0
    ∧ win1_3.index t (0 : Fin 2) = 0 ∧ win1_3.index t (1 : Fin 2) = 0
    ∧ win1_4.index t (0 : Fin 1) = 0
    ∧ win1_5.index t (0 : Fin 3) = t.val / 8 ∧ win1_5.index t (1 : Fin 3) = t.val % 8 ∧ win1_5.index t (2 : Fin 3) = 0 :=
  (by decide +kernel : ∀ t : Fin grid1.N, _)

/-! ## Zero offsets, however spelt -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section
-- the TensorCore's buffer contents when the region is entered
variable (V : (c : Dev nD) → (b : Ref sig .tc) → Buf (Elt Ideal) ((c : Thread nD τ).loc b))

/-! ## The input windows' blocks, read at coordinates -/

/-- The activations' block at point `t` is rows 512 * (t % 8) ... of batch t / 8. -/
theorem iblk1_0_apply (c : Dev nD) (t : Fin cfg1.N) (r : Fin 512) (k : Fin 1024) :
    (iblk1 V c 0 t : S1x512x1024.Idx → EReal) (ix3 (0 : Fin 1) r k)
      = (V c main_v0 : S4x4096x1024.Idx → EReal) (ix3 (batchOf t) (rowOf t r) k) := by
  obtain ⟨e0, e1, e2, -⟩ := idx_facts1 t
  unfold iblk1
  rw [View.read_apply]
  show V c main_v0 (((cfg1.win 0).blk t).view.emb (ix3 (0 : Fin 1) r k)) = V c main_v0 (ix3 (batchOf t) (rowOf t r) k)
  refine congrArg (V c main_v0) (funext fun a => Fin.ext ?_)
  match a with
  | ⟨0, _⟩ => show win1_0.index t (0 : Fin 3) * 1 + 1 * 0 = t.val / 8; omega
  | ⟨1, _⟩ => show win1_0.index t (1 : Fin 3) * 512 + 1 * r.val = 512 * (t.val % 8) + r.val; omega
  | ⟨2, _⟩ => show win1_0.index t (2 : Fin 3) * 1024 + 1 * k.val = k.val; omega

/-- The query weights' block is the whole matrix. -/
theorem iblk1_1_apply (c : Dev nD) (t : Fin cfg1.N) (a b : Fin 1024) :
    (iblk1 V c 1 t : S1024x1024.Idx → EReal) (ix2 a b) = (V c main_v2 : S1024x1024.Idx → EReal) (ix2 a b) := by
  obtain ⟨-, -, -, e0, e1, -⟩ := idx_facts1 t
  unfold iblk1
  rw [View.read_apply]
  show V c main_v2 (((cfg1.win 1).blk t).view.emb (ix2 a b)) = V c main_v2 (ix2 a b)
  refine congrArg (V c main_v2) (funext fun q => Fin.ext ?_)
  match q with
  | ⟨0, _⟩ => show win1_1.index t (0 : Fin 2) * 1024 + 1 * a.val = a.val; omega
  | ⟨1, _⟩ => show win1_1.index t (1 : Fin 2) * 1024 + 1 * b.val = b.val; omega

/-- The key-value summary's block at point `t` is batch t / 8's. -/
theorem iblk1_2_apply (c : Dev nD) (t : Fin cfg1.N) (h : Fin 16) (d e : Fin 64) :
    (iblk1 V c 2 t : S1x16x64x64.Idx → EReal) (ix4 (0 : Fin 1) h d e)
      = (V c main_v9 : S4x16x64x64.Idx → EReal) (ix4 (batchOf t) h d e) := by
  obtain ⟨-, -, -, -, -, e0, e1, e2, e3, -⟩ := idx_facts1 t
  unfold iblk1
  rw [View.read_apply]
  show V c main_v9 (((cfg1.win 2).blk t).view.emb (ix4 (0 : Fin 1) h d e)) = V c main_v9 (ix4 (batchOf t) h d e)
  refine congrArg (V c main_v9) (funext fun q => Fin.ext ?_)
  match q with
  | ⟨0, _⟩ => show win1_2.index t (0 : Fin 4) * 1 + 1 * 0 = t.val / 8; omega
  | ⟨1, _⟩ => show win1_2.index t (1 : Fin 4) * 16 + 1 * h.val = h.val; omega
  | ⟨2, _⟩ => show win1_2.index t (2 : Fin 4) * 64 + 1 * d.val = d.val; omega
  | ⟨3, _⟩ => show win1_2.index t (3 : Fin 4) * 64 + 1 * e.val = e.val; omega

/-- The output weights' block is the whole matrix. -/
theorem iblk1_3_apply (c : Dev nD) (t : Fin cfg1.N) (a b : Fin 1024) :
    (iblk1 V c 3 t : S1024x1024.Idx → EReal) (ix2 a b) = (V c main_v8 : S1024x1024.Idx → EReal) (ix2 a b) := by
  obtain ⟨-, -, -, -, -, -, -, -, -, e0, e1, -⟩ := idx_facts1 t
  unfold iblk1
  rw [View.read_apply]
  show V c main_v8 (((cfg1.win 3).blk t).view.emb (ix2 a b)) = V c main_v8 (ix2 a b)
  refine congrArg (V c main_v8) (funext fun q => Fin.ext ?_)
  match q with
  | ⟨0, _⟩ => show win1_3.index t (0 : Fin 2) * 1024 + 1 * a.val = a.val; omega
  | ⟨1, _⟩ => show win1_3.index t (1 : Fin 2) * 1024 + 1 * b.val = b.val; omega

/-- The bias's block is the whole vector. -/
theorem iblk1_4_apply (c : Dev nD) (t : Fin cfg1.N) (o : Fin 1024) :
    (iblk1 V c 4 t : S1024.Idx → EReal) (ix1 o) = (V c main_arg5 : S1024.Idx → EReal) (ix1 o) := by
  obtain ⟨-, -, -, -, -, -, -, -, -, -, -, e0, -⟩ := idx_facts1 t
  unfold iblk1
  rw [View.read_apply]
  show V c main_arg5 (((cfg1.win 4).blk t).view.emb (ix1 o)) = V c main_arg5 (ix1 o)
  refine congrArg (V c main_arg5) (funext fun q => Fin.ext ?_)
  match q with
  | ⟨0, _⟩ => show win1_4.index t (0 : Fin 1) * 1024 + 1 * o.val = o.val; omega

/-! ## The result's blocks -/

/-- Element [0, r, o] of the result's block at point `t` sits at [t / 8, 512 * (t % 8) + r, o] of the array. -/
theorem emb1_5 (t : Fin cfg1.N) (r : Fin 512) (o : Fin 1024) :
    (((cfg1.win 5).blk t).view.emb (ix3 (0 : Fin 1) r o) : S4x4096x1024.Idx) = ix3 (batchOf t) (rowOf t r) o := by
  obtain ⟨-, -, -, -, -, -, -, -, -, -, -, -, e0, e1, e2⟩ := idx_facts1 t
  refine funext fun a => Fin.ext ?_
  match a with
  | ⟨0, _⟩ => show win1_5.index t (0 : Fin 3) * 1 + 1 * 0 = t.val / 8; omega
  | ⟨1, _⟩ => show win1_5.index t (1 : Fin 3) * 512 + 1 * r.val = 512 * (t.val % 8) + r.val; omega
  | ⟨2, _⟩ => show win1_5.index t (2 : Fin 3) * 1024 + 1 * o.val = o.val; omega

/-- An index of the array is in point `t`'s block iff each coordinate is in the block's range on its axis. -/
theorem mem_blk1_5 (t : Fin cfg1.N) (i : S4x4096x1024.Idx) :
    i ∈ ((cfg1.win 5).blk t).view.set ↔ ∀ a : Fin 3, win1_5.index t a * S1x512x1024.size a ≤ (i a).val ∧ (i a).val < win1_5.index t a * S1x512x1024.size a + S1x512x1024.size a := by
  show i ∈ ((View.whole main_v10).slice (win1_5.rect t)).set ↔ _
  rw [View.set_slice_whole, Rect.mem_set_unit]
  exact Iff.rfl

/-- The 32 blocks tile the array: [b, n, o] is in the block of point 8 * b + n / 512, and every point writes its block back. -/
theorem cover1 (i : S4x4096x1024.Idx) :
    ∃ t : Fin cfg1.N, (cfg1.win 5).flush t = true ∧ i ∈ ((cfg1.win 5).blk t).view.set := by
  have h0 : (i 0).val < 4 := (i 0).isLt
  have h1 : (i 1).val < 4096 := (i 1).isLt
  have h2 : (i 2).val < 1024 := (i 2).isLt
  have hN : cfg1.N = 32 := N_1
  obtain ⟨t, ht⟩ : ∃ t : Fin cfg1.N, t.val = 8 * (i 0).val + (i 1).val / 512 := ⟨⟨8 * (i 0).val + (i 1).val / 512, by rw [hN]; omega⟩, rfl⟩
  obtain ⟨-, -, -, -, -, -, -, -, -, -, -, -, e0, e1, e2⟩ := idx_facts1 t
  refine ⟨t, flush1_5 t, ?_⟩
  rw [mem_blk1_5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 1024 ≤ (i 2).val ∧ (i 2).val < win1_5.index t (2 : Fin 3) * 1024 + 1024; omega

/-! ## What a point writes back, and the array after the region -/

/-- WHAT POINT `t` WRITES BACK is block `t` of `Y1` of the arrays as the region finds them. -/
theorem flushed1_eq (c : Dev nD) (t : Fin cfg1.N) :
    (dat1 V c).flushed 5 t = ((cfg1.win 5).blk t).view.read (Elt Ideal) (Y1 (V c main_v0) (V c main_v2) (V c main_v9) (V c main_v8) (V c main_arg5)) := by
  show (cfg1.win 5).cut (grid1.coords t) ((dat1 V c).after 5 t) = _
  rw [after1_5]
  unfold out1_5
  rw [View.canon_unit_zero hz3]
  simp only [View.ld_unit_zero (S := S1x512x1024) hz3, View.ld_unit_zero (S := S1024x1024) hz2, View.ld_unit_zero (S := S1x16x64x64) hz4,
    View.ld_unit_zero (S := S1024) hz1]
  funext j
  obtain ⟨z, r, o, rfl⟩ : ∃ (z : Fin 1) (r : Fin 512) (o : Fin 1024), j = ix3 z r o := ⟨j 0, j 1, j 2, eq_ix3 j⟩
  obtain rfl : z = 0 := Subsingleton.elim _ _
  rw [View.read_apply]
  show k1_pay1 (F := Ideal) (k1_pay12 (k1_pay2 (iblk1 V c 0 t) (iblk1 V c 1 t)) (k1_pay3 (iblk1 V c 2 t)) (k1_pay4 (iblk1 V c 0 t) (iblk1 V c 1 t) (iblk1 V c 2 t)) (k1_pay5 (iblk1 V c 0 t) (iblk1 V c 1 t) (iblk1 V c 2 t)) (k1_pay6 (iblk1 V c 0 t) (iblk1 V c 1 t) (iblk1 V c 2 t)) (k1_pay7 (iblk1 V c 0 t) (iblk1 V c 1 t) (iblk1 V c 2 t)) (k1_pay8 (iblk1 V c 0 t) (iblk1 V c 1 t) (iblk1 V c 2 t)) (k1_pay9 (iblk1 V c 0 t) (iblk1 V c 1 t) (iblk1 V c 2 t)) (k1_pay10 (iblk1 V c 0 t) (iblk1 V c 1 t)) (k1_pay11 (iblk1 V c 2 t))) (iblk1 V c 3 t) (iblk1 V c 4 t) (ix3 (0 : Fin 1) r o)
      = Y1 (V c main_v0) (V c main_v2) (V c main_v9) (V c main_v8) (V c main_arg5) (((cfg1.win 5).blk t).view.emb (ix3 (0 : Fin 1) r o))
  rw [emb1_5, Y1_ix3]
  refine (Cert.KernelIdeal.OutPay.out_pay_apply (iblk1 V c 0 t) (iblk1 V c 1 t) (iblk1 V c 2 t) (iblk1 V c 3 t) (iblk1 V c 4 t) r o).trans ?_
  unfold Y1at
  exact congrArg₂ (· + ·)
    (Finset.sum_congr rfl fun h _ => Finset.sum_congr rfl fun e _ => congrArg₂ (· * ·)
      (Finset.sum_congr rfl fun d _ => congrArg₂ (· * ·)
        (Finset.sum_congr rfl fun k _ => congrArg₂ (· * ·) (iblk1_0_apply V c t r k) (iblk1_1_apply V c t k (Cert.Att.hd h d)))
        (iblk1_2_apply V c t h d e))
      (iblk1_3_apply V c t (Cert.Att.hd h e) o))
    (iblk1_4_apply V c t o)

/-- THE ARRAY after the region is `Y1` of the arrays the region reads. -/
theorem final1 (c : Dev nD) :
    (dat1 V c).arrAt 5 cfg1.N = Y1 (V c main_v0) (V c main_v2) (V c main_v9) (V c main_v8) (V c main_arg5) :=
  (dat1 V c).arrAt_eq_of_cover 5 _ (fun t _ => flushed1_eq V c t) cover1

end

end Cert.KernelIdeal.Fr

end
-- ==== Proof.IdealValue.lean ====
/-
  The idealized kernel's result is the reference's function of the arguments.
  The second region finds `x` (rounding is the identity on the extended reals), the transposed query and output weights, the
  bias, and in `main_v9` what the first region left: the scaled per-head `kᵀv` of the batch. Substituting these into the second
  region's closed form gives, index by index, the reference's `(q · kv) · Woᵀ + bo`: the transposes turn `w[k, o]` into `W[o, k]`,
  and the eight row tiles of a batch are its 4096 rows. Only re-indexing of finite sums is used; no input needs to be finite.
-/
import proofs.«175350_j39178691674142_1_alg».proof.Proof.IdealRun
import proofs.«175350_j39178691674142_1_alg».proof.Proof.IdealHost
import proofs.«175350_j39178691674142_1_alg».proof.Proof.IdealKvValue
import proofs.«175350_j39178691674142_1_alg».proof.Proof.IdealOutValue

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)
/-! ## What the first region finds -/

theorem Vh_v0 (c : Dev nD) : (Vh m ρ c main_v0 : S4x4096x1024.Idx → EReal) = (m ((c : Thread nD τ).loc main_arg0) : S4x4096x1024.Idx → EReal) :=
  host_v0 (Wl m ρ c)
theorem Vh_v4 (c : Dev nD) (a b : Fin 1024) : (Vh m ρ c main_v4 : S1024x1024.Idx → EReal) (ix2 a b) = (m ((c : Thread nD τ).loc main_arg2) : S1024x1024.Idx → EReal) (ix2 b a) :=
  host_v4 (Wl m ρ c) a b
theorem Vh_v6 (c : Dev nD) (a b : Fin 1024) : (Vh m ρ c main_v6 : S1024x1024.Idx → EReal) (ix2 a b) = (m ((c : Thread nD τ).loc main_arg3) : S1024x1024.Idx → EReal) (ix2 b a) :=
  host_v6 (Wl m ρ c) a b

/-! ## What the second region finds -/

theorem Vk_v0 (c : Dev nD) : (Vk m ρ c main_v0 : S4x4096x1024.Idx → EReal) = (m ((c : Thread nD τ).loc main_arg0) : S4x4096x1024.Idx → EReal) :=
  (Wk_arr m ρ c 0).trans (((dat0 (Vh m ρ) c).arrAt_in 0 rfl _).trans ((A_eq0 (Vh m ρ) c 0).trans (Vh_v0 m ρ c)))
theorem Vk_v2 (c : Dev nD) (a b : Fin 1024) : (Vk m ρ c main_v2 : S1024x1024.Idx → EReal) (ix2 a b) = (m ((c : Thread nD τ).loc main_arg1) : S1024x1024.Idx → EReal) (ix2 b a) :=
  (congrFun (Wk_of_ne m ρ c main_v2 (by decide)) (ix2 a b)).trans (host_v2 (Wl m ρ c) a b)
theorem Vk_v8 (c : Dev nD) (a b : Fin 1024) : (Vk m ρ c main_v8 : S1024x1024.Idx → EReal) (ix2 a b) = (m ((c : Thread nD τ).loc main_arg4) : S1024x1024.Idx → EReal) (ix2 b a) :=
  (congrFun (Wk_of_ne m ρ c main_v8 (by decide)) (ix2 a b)).trans (host_v8 (Wl m ρ c) a b)
theorem Vk_arg5 (c : Dev nD) : (Vk m ρ c main_arg5 : S1024.Idx → EReal) = (m ((c : Thread nD τ).loc main_arg5) : S1024.Idx → EReal) :=
  (Wk_of_ne m ρ c main_arg5 (by decide)).trans (host_arg5 (Wl m ρ c))
/-- `main_v9` holds what the first region's write-backs left. -/
theorem Vk_v9 (c : Dev nD) : (Vk m ρ c main_v9 : S4x16x64x64.Idx → EReal) = KV0 (Vh m ρ c main_v0) (Vh m ρ c main_v4) (Vh m ρ c main_v6) :=
  (Wk_arr m ρ c 3).trans (final0 (Vh m ρ) c)

/-! ## The result -/

/-- The second region's output array is the reference's function of the launch arguments. -/
theorem value_eq (c : Dev nD) : (dat1 (Vk m ρ) c).arrAt 5 cfg1.N
    = Cert.Att.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [final1 (Vk m ρ) c]
  funext i
  obtain ⟨b, n, o, rfl⟩ : ∃ (b : Fin 4) (n : Fin 4096) (o : Fin 1024), i = ix3 b n o := ⟨i 0, i 1, i 2, eq_ix3 i⟩
  rw [Y1_ix3, Cert.Att.G_ix3]
  unfold Y1at Cert.Att.Gat Cert.Att.att
  refine congrArg₂ (· + ·) (Finset.sum_congr rfl fun h _ => Finset.sum_congr rfl fun e _ =>
    congrArg₂ (· * ·) (Finset.sum_congr rfl fun d _ => congrArg₂ (· * ·) ?_ ?_) ?_) ?_
  · -- the query projection
    unfold Cert.Att.proj
    refine Finset.sum_congr rfl fun k _ => ?_
    rw [Vk_v0 m ρ c, Vk_v2 m ρ c k (Cert.Att.hd h d)]
  · -- the first region's result
    rw [Vk_v9 m ρ c, KV0_ix4, Vh_v0 m ρ c]
    exact Cert.Att.KV0at_eq_kv _ _ _ _ _ (Vh_v4 m ρ c) (Vh_v6 m ρ c) b h d e
  · exact Vk_v8 m ρ c (Cert.Att.hd h e) o
  · rw [Vk_arg5 m ρ c]

/-- Every weakly fair execution of the idealized kernel's @main terminates with the result array at the reference's function
    of the arguments, the arguments unchanged. -/
theorem kernel_run : θ_run defs (onTc (τ := τ) (main (F := Ideal))) ⟨m, fun _ => 0, ρ⟩ (fun r => ∀ c : Dev nD,
      r.2.mem ((c.tc : Thread nD τ).loc main_v10) = Cert.Att.G (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (value_eq m ρ c), (h c).2⟩) (run_value m ρ)

end Cert.KernelIdeal.Fr

end
-- ==== Proof.RefValue.lean ====
/-
  The reference program read index by index is the specification `Cert.Att.G`.
  The reference computes q, k, v = x W^T (three linear layers), splits the 1024 features into 16 heads of width 64
  (a reshape [4,4096,1024] -> [4,4096,16,64] and a transpose to [4,16,4096,64]: feature h*64+d of position n becomes
  element [b,h,n,d]), contracts k with v over the positions and scales by 0.125, contracts q with the result over the head
  coordinate, undoes the head split, and applies the output layer with its bias. Each operation's element is read by the
  generated stage lemmas; what is proved here is that the composed index functions are the head split `hd` and that the
  last contraction over the 1024 features is the double sum over heads and coordinates.
-/
import proofs.«175350_j39178691674142_1_alg».proof.Proof.Gen.ReferenceIdeal.Read
import proofs.«175350_j39178691674142_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.Att

/-! ## The composed index functions -/

/-- Undoing the head split of the flat row-major position: [b, n, h, d] of [4,4096,16,64] is [b, n, h*64+d] of [4,4096,1024]. -/
theorem unsplit_idx (b : Fin 4) (n : Fin 4096) (h : Fin 16) (d : Fin 64) :
    (idx_main_v1 (ix4 b n h d) : S4x4096x1024.Idx) = ix3 b n (hd h d) :=
  funext fun a => Fin.ext (by
    match a with
    | ⟨0, _⟩ => show (((b.val * 4096 + n.val) * 16 + h.val) * 64 + d.val) / 4194304 = b.val; omega
    | ⟨1, _⟩ => show (((b.val * 4096 + n.val) * 16 + h.val) * 64 + d.val) / 1024 % 4096 = n.val; omega
    | ⟨2, _⟩ => show (((b.val * 4096 + n.val) * 16 + h.val) * 64 + d.val) % 1024 = h.val * 64 + d.val; omega)

/-- The head split of the flat row-major position: [b, n, h*64+d] of [4,4096,1024] is [b, n, h, d] of [4,4096,16,64]. -/
theorem split_idx (b : Fin 4) (n : Fin 4096) (h : Fin 16) (d : Fin 64) :
    (idx_main_v14 (ix3 b n (hd h d)) : S4x4096x16x64.Idx) = ix4 b n h d :=
  funext fun a => Fin.ext (by
    match a with
    | ⟨0, _⟩ => show ((b.val * 4096 + n.val) * 1024 + (h.val * 64 + d.val)) / 4194304 = b.val; omega
    | ⟨1, _⟩ => show ((b.val * 4096 + n.val) * 1024 + (h.val * 64 + d.val)) / 1024 % 4096 = n.val; omega
    | ⟨2, _⟩ => show ((b.val * 4096 + n.val) * 1024 + (h.val * 64 + d.val)) / 64 % 16 = h.val; omega
    | ⟨3, _⟩ => show ((b.val * 4096 + n.val) * 1024 + (h.val * 64 + d.val)) % 64 = d.val; omega)

/-- Exchanging the position and head axes, [4,16,4096,64] from [4,4096,16,64]. -/
theorem swap_idx (b : Fin 4) (h : Fin 16) (n : Fin 4096) (d : Fin 64) :
    (idx_main_v2 (ix4 b h n d) : S4x4096x16x64.Idx) = ix4 b n h d :=
  funext fun a => by match a with | ⟨0, _⟩ => rfl | ⟨1, _⟩ => rfl | ⟨2, _⟩ => rfl | ⟨3, _⟩ => rfl

/-- Exchanging them back, [4,4096,16,64] from [4,16,4096,64]. -/
theorem swap_back_idx (b : Fin 4) (n : Fin 4096) (h : Fin 16) (d : Fin 64) :
    (idx_main_v13 (ix4 b n h d) : S4x16x4096x64.Idx) = ix4 b h n d :=
  funext fun a => by match a with | ⟨0, _⟩ => rfl | ⟨1, _⟩ => rfl | ⟨2, _⟩ => rfl | ⟨3, _⟩ => rfl

/-- The operand indices of a linear layer `x W^T` at output [b, n, o], contraction coordinate c. -/
theorem lin_lidx (b : Fin 4) (n : Fin 4096) (o c : Fin 1024) :
    (lidx_main_v0 (ix3 b n o) c : S4x4096x1024.Idx) = ix3 b n c :=
  funext fun a => by match a with | ⟨0, _⟩ => rfl | ⟨1, _⟩ => rfl | ⟨2, _⟩ => rfl
theorem lin_ridx (b : Fin 4) (n : Fin 4096) (o c : Fin 1024) :
    (ridx_main_v0 (ix3 b n o) c : S1024x1024.Idx) = ix2 o c :=
  funext fun a => by match a with | ⟨0, _⟩ => rfl | ⟨1, _⟩ => rfl

/-- The operand indices of `K^T V` at [b, h, d, e], contraction over the position n. -/
theorem kv_lidx (b : Fin 4) (h : Fin 16) (d e : Fin 64) (n : Fin 4096) :
    (lidx_main_v9 (ix4 b h d e) n : S4x16x4096x64.Idx) = ix4 b h n d :=
  funext fun a => by match a with | ⟨0, _⟩ => rfl | ⟨1, _⟩ => rfl | ⟨2, _⟩ => rfl | ⟨3, _⟩ => rfl
theorem kv_ridx (b : Fin 4) (h : Fin 16) (d e : Fin 64) (n : Fin 4096) :
    (ridx_main_v9 (ix4 b h d e) n : S4x16x4096x64.Idx) = ix4 b h n e :=
  funext fun a => by match a with | ⟨0, _⟩ => rfl | ⟨1, _⟩ => rfl | ⟨2, _⟩ => rfl | ⟨3, _⟩ => rfl

/-- The operand indices of `Q (K^T V)` at [b, h, n, e], contraction over the head coordinate d. -/
theorem att_lidx (b : Fin 4) (h : Fin 16) (n : Fin 4096) (e d : Fin 64) :
    (lidx_main_v12 (ix4 b h n e) d : S4x16x4096x64.Idx) = ix4 b h n d :=
  funext fun a => by match a with | ⟨0, _⟩ => rfl | ⟨1, _⟩ => rfl | ⟨2, _⟩ => rfl | ⟨3, _⟩ => rfl
theorem att_ridx (b : Fin 4) (h : Fin 16) (n : Fin 4096) (e d : Fin 64) :
    (ridx_main_v12 (ix4 b h n e) d : S4x16x64x64.Idx) = ix4 b h d e :=
  funext fun a => by match a with | ⟨0, _⟩ => rfl | ⟨1, _⟩ => rfl | ⟨2, _⟩ => rfl | ⟨3, _⟩ => rfl

/-- The bias broadcast along batch and position reads `bo[o]`. -/
theorem bias_idx (b : Fin 4) (n : Fin 4096) (o : Fin 1024) :
    (idx_main_v16 (idx_main_v17 (ix3 b n o)) : S1024.Idx) = ix1 o :=
  funext fun a => by match a with | ⟨0, _⟩ => rfl

/-! ## The stages -/

/-- A linear layer at an element. -/
theorem lin_apply (x : FVec Ideal S4x4096x1024 .f32) (W : FVec Ideal S1024x1024 .f32) (b : Fin 4) (n : Fin 4096) (o : Fin 1024) :
    val_main_v0 (F := Ideal) x W (ix3 b n o) = proj x W b n o := by
  rw [val_main_v0_apply]
  unfold proj
  refine Finset.sum_congr rfl fun c _ => ?_
  rw [lin_lidx, lin_ridx]

/-- The three linear layers are one function of their weight. -/
theorem v3_eq_v0 (x : FVec Ideal S4x4096x1024 .f32) (W : FVec Ideal S1024x1024 .f32) :
    val_main_v3 (F := Ideal) x W = val_main_v0 (F := Ideal) x W := rfl
theorem v6_eq_v0 (x : FVec Ideal S4x4096x1024 .f32) (W : FVec Ideal S1024x1024 .f32) :
    val_main_v6 (F := Ideal) x W = val_main_v0 (F := Ideal) x W := rfl

/-- Queries by head: element [b, h, n, d] is feature h*64+d of position n. -/
theorem q_heads (x : FVec Ideal S4x4096x1024 .f32) (W : FVec Ideal S1024x1024 .f32) (b : Fin 4) (h : Fin 16) (n : Fin 4096) (d : Fin 64) :
    val_main_v2 (F := Ideal) x W (ix4 b h n d) = proj x W b n (hd h d) := by
  rw [val_main_v2_apply, swap_idx, val_main_v1_apply, unsplit_idx, lin_apply]

/-- Keys by head. -/
theorem k_heads (x : FVec Ideal S4x4096x1024 .f32) (W : FVec Ideal S1024x1024 .f32) (b : Fin 4) (h : Fin 16) (n : Fin 4096) (d : Fin 64) :
    val_main_v5 (F := Ideal) x W (ix4 b h n d) = proj x W b n (hd h d) := by
  rw [val_main_v5_apply, show idx_main_v5 (ix4 b h n d) = idx_main_v2 (ix4 b h n d) from rfl, swap_idx, val_main_v4_apply,
    show idx_main_v4 (ix4 b n h d) = idx_main_v1 (ix4 b n h d) from rfl, unsplit_idx, v3_eq_v0, lin_apply]

/-- Values by head. -/
theorem v_heads (x : FVec Ideal S4x4096x1024 .f32) (W : FVec Ideal S1024x1024 .f32) (b : Fin 4) (h : Fin 16) (n : Fin 4096) (d : Fin 64) :
    val_main_v8 (F := Ideal) x W (ix4 b h n d) = proj x W b n (hd h d) := by
  rw [val_main_v8_apply, show idx_main_v8 (ix4 b h n d) = idx_main_v2 (ix4 b h n d) from rfl, swap_idx, val_main_v7_apply,
    show idx_main_v7 (ix4 b n h d) = idx_main_v1 (ix4 b n h d) from rfl, unsplit_idx, v6_eq_v0, lin_apply]

/-- The scaled key-value summary. -/
theorem kv_apply (x : FVec Ideal S4x4096x1024 .f32) (Wk Wv : FVec Ideal S1024x1024 .f32) (b : Fin 4) (h : Fin 16) (d e : Fin 64) :
    val_main_v11 (F := Ideal) x Wk Wv (ix4 b h d e) = kv x Wk Wv b h d e := by
  rw [val_main_v11_apply, val_main_v10_apply, val_main_cst_apply, val_main_v9_apply, Ideal.mulf_def, Ideal.ofBits_def]
  unfold kv
  refine congrArg (· * _) (Finset.sum_congr rfl fun n _ => ?_)
  rw [kv_lidx, kv_ridx, k_heads, v_heads]

/-- The attention output, back in the [4,4096,1024] layout. -/
theorem att_apply (x : FVec Ideal S4x4096x1024 .f32) (Wq Wk Wv : FVec Ideal S1024x1024 .f32) (b : Fin 4) (n : Fin 4096) (h : Fin 16) (e : Fin 64) :
    val_main_v14 (F := Ideal) x Wq Wk Wv (ix3 b n (hd h e)) = att x Wq Wk Wv b n h e := by
  rw [val_main_v14_apply, split_idx, val_main_v13_apply, swap_back_idx, val_main_v12_apply]
  unfold att
  refine Finset.sum_congr rfl fun d _ => ?_
  rw [att_lidx, att_ridx, q_heads, kv_apply]

/-! ## The reference is `G` -/

/-- The reference's last stage, as a function of the argument arrays, is the specification. -/
theorem ref_eq_G (x : FVec Ideal S4x4096x1024 .f32) (Wq Wk Wv Wo : FVec Ideal S1024x1024 .f32) (bo : FVec Ideal S1024 .f32) :
    val_main_v18 (F := Ideal) x Wq Wk Wv Wo bo = Cert.Att.G x Wq Wk Wv Wo bo := by
  funext i
  obtain ⟨b, n, o, rfl⟩ : ∃ (b : Fin 4) (n : Fin 4096) (o : Fin 1024), i = ix3 b n o := ⟨i 0, i 1, i 2, eq_ix3 i⟩
  rw [G_ix3, val_main_v18_apply, val_main_v17_apply, val_main_v16_apply, bias_idx, val_main_v15_apply, Ideal.addf_def]
  unfold Gat
  refine congrArg (· + _) ?_
  rw [sum_hd]
  refine Finset.sum_congr rfl fun h _ => Finset.sum_congr rfl fun e _ => ?_
  rw [show lidx_main_v15 (ix3 b n o) (hd h e) = lidx_main_v0 (ix3 b n o) (hd h e) from rfl, lin_lidx,
    show ridx_main_v15 (ix3 b n o) (hd h e) = ridx_main_v0 (ix3 b n o) (hd h e) from rfl, lin_ridx, att_apply]

/-- The term the reference's run states for its result buffer, of the argument arrays, is the specification. -/
theorem run_term_eq_G (x : FVec Ideal S4x4096x1024 .f32) (Wq Wk Wv Wo : FVec Ideal S1024x1024 .f32) (bo : FVec Ideal S1024 .f32) :
    addf (Host.dotGeneral (F := Ideal) dot_S4x4096x1024_S1024x1024_S4x4096x1024_2_1_01_0_n_n none (shapeCast _ (transpose S4x4096x16x64 [0, 2, 1, 3] (Host.dotGeneral (F := Ideal) dot_S4x16x4096x64_S4x16x64x64_S4x16x4096x64_3_2_2_3_01_01 none (transpose S4x16x4096x64 [0, 2, 1, 3] (shapeCast _ (Host.dotGeneral (F := Ideal) dot_S4x4096x1024_S1024x1024_S4x4096x1024_2_1_01_0_n_n none (x) (Wq)) shapeCasts_S4x4096x1024_S4x4096x16x64) transposes_S4x4096x16x64_S4x16x4096x64_0_2_1_3) (mulf (Host.dotGeneral (F := Ideal) dot_S4x16x4096x64_S4x16x4096x64_S4x16x64x64_2_2_3_3_01_01 none (transpose S4x16x4096x64 [0, 2, 1, 3] (shapeCast _ (Host.dotGeneral (F := Ideal) dot_S4x4096x1024_S1024x1024_S4x4096x1024_2_1_01_0_n_n none (x) (Wk)) shapeCasts_S4x4096x1024_S4x4096x16x64) transposes_S4x4096x16x64_S4x16x4096x64_0_2_1_3) (transpose S4x16x4096x64 [0, 2, 1, 3] (shapeCast _ (Host.dotGeneral (F := Ideal) dot_S4x4096x1024_S1024x1024_S4x4096x1024_2_1_01_0_n_n none (x) (Wv)) shapeCasts_S4x4096x1024_S4x4096x16x64) transposes_S4x4096x16x64_S4x16x4096x64_0_2_1_3)) (broadcastInDim S4x16x64x64 ![] bcast_S_S4x16x64x64 (constant (F := Ideal) S_ .f32 0x3E000000#32)))) transposes_S4x16x4096x64_S4x4096x16x64_0_2_1_3) shapeCasts_S4x4096x16x64_S4x4096x1024) (Wo)) (broadcastInDim S4x4096x1024 ![0, 1, 2] bcast_S1x1x1024_S4x4096x1024_0_1_2 (broadcastInDim S1x1x1024 ![2] bcast_S1024_S1x1x1024_2 (bo)))
      = Cert.Att.G x Wq Wk Wv Wo bo :=
  (val_main_v18_eq (F := Ideal) x Wq Wk Wv Wo bo).trans (ref_eq_G x Wq Wk Wv Wo bo)

end Cert.ReferenceIdeal.RefValue

end
-- ==== Proof.lean ====
/-
  Linear attention over x : f32[4, 4096, 1024] with 16 heads of width 64: q, k, v = x·Wqᵀ, x·Wkᵀ, x·Wvᵀ; per batch and head
  kv = kᵀv · 64^(-1/2) (a 64 × 64 matrix), out = q·kv, and the result is out·Woᵀ + bo.
  The kernel computes it in two grid-scheduled regions over 4 × 8 tiles of 512 rows. The first accumulates, per batch, the eight
  tiles' kᵀv per head in a scratch that it zeroes at a batch's first tile, and writes the scaled sums at its last tile. The second,
  per tile, forms q, multiplies each head's 64 columns by that head's kv, and applies the output projection and the bias.
  Frames: each region's body is run symbolically at every grid point (the first region's invariant carries the scratch contents from
  point to point), and @main is the host stretch followed by the two regions; the reference is straight-line host code.
  Value, on the extended reals, where changes of float format are the identity: the first region's array is zero plus the eight tile
  sums, scaled; the eight tiles of 512 rows are the 4096 rows, so this is the reference's kᵀv · 2^(-3) (the same literal on both
  sides); the second region's block is the same nested sum as the reference's einsums read at an index, the 1024 features split as
  16 heads × 64. Only re-indexing of finite sums and commutativity of the sums' terms are used: no finiteness of the inputs is needed.
-/
import proofs.«175350_j39178691674142_1_alg».proof.Defs
import proofs.«175350_j39178691674142_1_alg».proof.Proof.Gen.Kernel
import proofs.«175350_j39178691674142_1_alg».proof.Proof.Gen.KernelIdeal
import proofs.«175350_j39178691674142_1_alg».proof.Proof.Gen.ReferenceIdeal
import proofs.«175350_j39178691674142_1_alg».proof.Proof.Gen.ReferenceIdeal.Run
import proofs.«175350_j39178691674142_1_alg».proof.Proof.Gen.ReferenceIdeal.Read
import proofs.«175350_j39178691674142_1_alg».proof.Proof.Gen.Pre_finite_inputs
import proofs.«175350_j39178691674142_1_alg».proof.Proof.BitsRun
import proofs.«175350_j39178691674142_1_alg».proof.Proof.IdealValue
import proofs.«175350_j39178691674142_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves its arguments unchanged. -/
theorem frame_p : Cert.frame_Kernel := fun m ρ _ => Cert.Kernel.Fr.frame m ρ
/-- So does its reading on the extended reals. -/
theorem frame_pi : Cert.frame_KernelIdeal := fun m ρ _ => Cert.KernelIdeal.Fr.frame m ρ
/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- No operation of the kernel was rewritten for the reading on the extended reals. -/
theorem preserves : Cert.preserves_Kernel_KernelIdeal := trivial

/-- Both programs end with the result array at the same function of the arguments, `Cert.Att.G`. -/
theorem algebraic : Cert.algebraic_KernelIdeal_ReferenceIdeal := by
  intro m ρ m' ρ' _ hagree
  refine ⟨_, Cert.KernelIdeal.Fr.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.ReferenceIdeal.RefValue.ref_eq_G,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
